-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v78)) (v1 : (c : Dev Cert.KernelIdeal.nD) → Buf (Elt Ideal) ((c.tc : Thread Cert.KernelIdeal.nD Cert.KernelIdeal.τ).loc Cert.KernelIdeal.main_v96)) (v2 : (c : Dev Cert.KernelIdeal.nD) → Buf (Elt Ideal) ((c.tc : Thread Cert.KernelIdeal.nD Cert.KernelIdeal.τ).loc Cert.KernelIdeal.main_v97)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v78) = v0 c
          ∧ r.2.mem ((c.tc : Thread Cert.KernelIdeal.nD Cert.KernelIdeal.τ).loc Cert.KernelIdeal.main_v96) = v1 c
          ∧ r.2.mem ((c.tc : Thread Cert.KernelIdeal.nD Cert.KernelIdeal.τ).loc Cert.KernelIdeal.main_v97) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v111) = v0 c
          ∧ r.2.mem ((c.tc : Thread Cert.ReferenceIdeal.nD Cert.ReferenceIdeal.τ).loc Cert.ReferenceIdeal.main_v158) = v1 c
          ∧ r.2.mem ((c.tc : Thread Cert.ReferenceIdeal.nD Cert.ReferenceIdeal.τ).loc Cert.ReferenceIdeal.main_v161) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S100000x64 : Shape := ⟨2, ![100000, 64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S100000x64 : S_.BroadcastsInDim S100000x64 (![] : Fin 0 → Fin S100000x64.rank)
  reducesTo_S100000x64_S_d0_1 : S100000x64.ReducesTo [0, 1] S_

variable [Facts]

def fn_part2 {F : FTy → Type} [FloatOps F] (main_arg9 : FVec F S100000x64 .f32) (main_v33 : IVec S_ 1) : IVec S_ 1 :=
  let main_v34 : FVec F S100000x64 .f32 := Host.absf main_arg9
  let main_cst_12 : FVec F S_ .f32 := constant S_ .f32 0x7F800000#32
  let main_v35 : FVec F S100000x64 .f32 := broadcastInDim S100000x64 ![] bcast_S_S100000x64 main_cst_12
  let main_v36 : IVec S100000x64 1 := cmpf .olt main_v34 main_v35
  let main_c_13 : IVec S_ 1 := constantI S_ 1 1#1
  let main_v37 : IVec S_ 1 := (fun x v => Host.reduce IntOp.andi x v reducesTo_S100000x64_S_d0_1 h_S_) main_v36 main_c_13
  let main_v38 : IVec S_ 1 := andi main_v33 main_v37
  main_v38

def fn_part1 {F : FTy → Type} [FloatOps F] (main_arg6 : FVec F S128 .f32) (main_arg7 : FVec F S128x64 .f32) (main_arg8 : FVec F S64 .f32) (main_arg9 : FVec F S100000x64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x64 .f32 := Host.absf main_arg7
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_v33

def fn {F : FTy → Type} [FloatOps F] (main_arg0 : FVec F S100000x128 .f32) (main_arg1 : IVec S1600000 32) (main_arg2 : IVec S1600000 32) (main_arg3 : FVec F S128x128 .f32) (main_arg4 : FVec F S128 .f32) (main_arg5 : FVec F S128 .f32) (main_arg6 : FVec F S128 .f32) (main_arg7 : FVec F S128x64 .f32) (main_arg8 : FVec F S64 .f32) (main_arg9 : FVec F S100000x64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_v13 main_v16
-- ==== Kernel.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S100000x64 : Shape := ⟨2, ![100000, 64]⟩
abbrev S_ : Shape := ⟨0, ![]⟩
abbrev S100000 : Shape := ⟨1, ![100000]⟩
abbrev S1600000x1 : Shape := ⟨2, ![1600000, 1]⟩
abbrev S1x128 : Shape := ⟨2, ![1, 128]⟩
abbrev S2000x128 : Shape := ⟨2, ![2000, 128]⟩
abbrev S1600000x128 : Shape := ⟨2, ![1600000, 128]⟩
abbrev S100000x1 : Shape := ⟨2, ![100000, 1]⟩
abbrev S1x64 : Shape := ⟨2, ![1, 64]⟩
abbrev S2000x64 : Shape := ⟨2, ![2000, 64]⟩
abbrev S1600000x64 : Shape := ⟨2, ![1600000, 64]⟩
abbrev S2000 : Shape := ⟨1, ![2000]⟩
abbrev S2000x1 : Shape := ⟨2, ![2000, 1]⟩

abbrev nBuf : Space → Nat
  | .hbm => 128
  | .vmem => 34
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S128x64, .f32⟩
  | .hbm, ⟨8, _⟩ => ⟨S64, .f32⟩
  | .hbm, ⟨9, _⟩ => ⟨S100000x64, .f32⟩
  | .hbm, ⟨10, _⟩ => ⟨S_, .f32⟩
  | .hbm, ⟨11, _⟩ => ⟨S1600000, .f32⟩
  | .hbm, ⟨12, _⟩ => ⟨S_, .f32⟩
  | .hbm, ⟨13, _⟩ => ⟨S100000, .f32⟩
  | .hbm, ⟨14, _⟩ => ⟨S1600000x1, .i32⟩
  | .hbm, ⟨15, _⟩ => ⟨S100000, .f32⟩
  | .hbm, ⟨16, _⟩ => ⟨S_, .f32⟩
  | .hbm, ⟨17, _⟩ => ⟨S100000, .f32⟩
  | .hbm, ⟨18, _⟩ => ⟨S100000, .f32⟩
  | .hbm, ⟨19, _⟩ => ⟨S100000, .f32⟩
  | .hbm, ⟨20, _⟩ => ⟨S_, .i32⟩
  | .hbm, ⟨21, _⟩ => ⟨S1600000, .i32⟩
  | .hbm, ⟨22, _⟩ => ⟨S1600000, .i1⟩
  | .hbm, ⟨23, _⟩ => ⟨S_, .i32⟩
  | .hbm, ⟨24, _⟩ => ⟨S1600000, .i32⟩
  | .hbm, ⟨25, _⟩ => ⟨S1600000, .i32⟩
  | .hbm, ⟨26, _⟩ => ⟨S1600000, .i32⟩
  | .hbm, ⟨27, _⟩ => ⟨S1600000x1, .i32⟩
  | .hbm, ⟨28, _⟩ => ⟨S1600000, .f32⟩
  | .hbm, ⟨29, _⟩ => ⟨S_, .i32⟩
  | .hbm, ⟨30, _⟩ => ⟨S1600000, .i32⟩
  | .hbm, ⟨31, _⟩ => ⟨S1600000, .i1⟩
  | .hbm, ⟨32, _⟩ => ⟨S_, .i32⟩
  | .hbm, ⟨33, _⟩ => ⟨S1600000, .i32⟩
  | .hbm, ⟨34, _⟩ => ⟨S1600000, .i32⟩
  | .hbm, ⟨35, _⟩ => ⟨S1600000, .i32⟩
  | .hbm, ⟨36, _⟩ => ⟨S1600000x1, .i32⟩
  | .hbm, ⟨37, _⟩ => ⟨S1600000, .f32⟩
  | .hbm, ⟨38, _⟩ => ⟨S1600000, .f32⟩
  | .hbm, ⟨39, _⟩ => ⟨S100000, .f32⟩
  | .hbm, ⟨40, _⟩ => ⟨S1x128, .f32⟩
  | .hbm, ⟨41, _⟩ => ⟨S100000x128, .f32⟩
  | .hbm, ⟨42, _⟩ => ⟨S_, .i32⟩
  | .hbm, ⟨43, _⟩ => ⟨S1600000, .i32⟩
  | .hbm, ⟨44, _⟩ => ⟨S1600000, .i1⟩
  | .hbm, ⟨45, _⟩ => ⟨S_, .i32⟩
  | .hbm, ⟨46, _⟩ => ⟨S1600000, .i32⟩
  | .hbm, ⟨47, _⟩ => ⟨S1600000, .i32⟩
  | .hbm, ⟨48, _⟩ => ⟨S1600000, .i32⟩
  | .hbm, ⟨49, _⟩ => ⟨S1600000x1, .i32⟩
  | .hbm, ⟨50, _⟩ => ⟨S1600000x128, .f32⟩
  | .hbm, ⟨51, _⟩ => ⟨S1600000x1, .f32⟩
  | .hbm, ⟨52, _⟩ => ⟨S1600000x128, .f32⟩
  | .hbm, ⟨53, _⟩ => ⟨S1600000x128, .f32⟩
  | .hbm, ⟨54, _⟩ => ⟨S_, .f32⟩
  | .hbm, ⟨55, _⟩ => ⟨S100000x128, .f32⟩
  | .hbm, ⟨56, _⟩ => ⟨S1600000x1, .i32⟩
  | .hbm, ⟨57, _⟩ => ⟨S100000x128, .f32⟩
  | .hbm, ⟨58, _⟩ => ⟨S100000x1, .f32⟩
  | .hbm, ⟨59, _⟩ => ⟨S100000x128, .f32⟩
  | .hbm, ⟨60, _⟩ => ⟨S100000x128, .f32⟩
  | .hbm, ⟨61, _⟩ => ⟨S100000x128, .f32⟩
  | .hbm, ⟨62, _⟩ => ⟨S1x128, .f32⟩
  | .hbm, ⟨63, _⟩ => ⟨S1x128, .f32⟩
  | .hbm, ⟨64, _⟩ => ⟨S128, .f32⟩
  | .hbm, ⟨65, _⟩ => ⟨S128, .f32⟩
  | .hbm, ⟨66, _⟩ => ⟨S_, .f32⟩
  | .hbm, ⟨67, _⟩ => ⟨S128, .f32⟩
  | .hbm, ⟨68, _⟩ => ⟨S128, .f32⟩
  | .hbm, ⟨69, _⟩ => ⟨S_, .f32⟩
  | .hbm, ⟨70, _⟩ => ⟨S128, .f32⟩
  | .hbm, ⟨71, _⟩ => ⟨S128, .f32⟩
  | .hbm, ⟨72, _⟩ => ⟨S128, .f32⟩
  | .hbm, ⟨73, _⟩ => ⟨S128, .f32⟩
  | .hbm, ⟨74, _⟩ => ⟨S_, .f32⟩
  | .hbm, ⟨75, _⟩ => ⟨S128, .f32⟩
  | .hbm, ⟨76, _⟩ => ⟨S128, .f32⟩
  | .hbm, ⟨77, _⟩ => ⟨S128, .f32⟩
  | .hbm, ⟨78, _⟩ => ⟨S128, .f32⟩
  | .hbm, ⟨79, _⟩ => ⟨S128, .f32⟩
  | .hbm, ⟨80, _⟩ => ⟨S128, .f32⟩
  | .hbm, ⟨81, _⟩ => ⟨S1x128, .f32⟩
  | .hbm, ⟨82, _⟩ => ⟨S1x128, .f32⟩
  | .hbm, ⟨83, _⟩ => ⟨S100000x128, .f32⟩
  | .hbm, ⟨84, _⟩ => ⟨S1x64, .f32⟩
  | .hbm, ⟨85, _⟩ => ⟨S100000x64, .f32⟩
  | .hbm, ⟨86, _⟩ => ⟨S_, .i32⟩
  | .hbm, ⟨87, _⟩ => ⟨S1600000, .i32⟩
  | .hbm, ⟨88, _⟩ => ⟨S1600000, .i1⟩
  | .hbm, ⟨89, _⟩ => ⟨S_, .i32⟩
  | .hbm, ⟨90, _⟩ => ⟨S1600000, .i32⟩
  | .hbm, ⟨91, _⟩ => ⟨S1600000, .i32⟩
  | .hbm, ⟨92, _⟩ => ⟨S1600000, .i32⟩
  | .hbm, ⟨93, _⟩ => ⟨S1600000x1, .i32⟩
  | .hbm, ⟨94, _⟩ => ⟨S1600000x64, .f32⟩
  | .hbm, ⟨95, _⟩ => ⟨S1600000x1, .f32⟩
  | .hbm, ⟨96, _⟩ => ⟨S1600000x64, .f32⟩
  | .hbm, ⟨97, _⟩ => ⟨S1600000x64, .f32⟩
  | .hbm, ⟨98, _⟩ => ⟨S_, .f32⟩
  | .hbm, ⟨99, _⟩ => ⟨S100000x64, .f32⟩
  | .hbm, ⟨100, _⟩ => ⟨S1600000x1, .i32⟩
  | .hbm, ⟨101, _⟩ => ⟨S100000x64, .f32⟩
  | .hbm, ⟨102, _⟩ => ⟨S100000x1, .f32⟩
  | .hbm, ⟨103, _⟩ => ⟨S100000x64, .f32⟩
  | .hbm, ⟨104, _⟩ => ⟨S100000x64, .f32⟩
  | .hbm, ⟨105, _⟩ => ⟨S100000x64, .f32⟩
  | .hbm, ⟨106, _⟩ => ⟨S100000x64, .f32⟩
  | .hbm, ⟨107, _⟩ => ⟨S_, .i32⟩
  | .hbm, ⟨108, _⟩ => ⟨S1600000, .i32⟩
  | .hbm, ⟨109, _⟩ => ⟨S1600000, .i1⟩
  | .hbm, ⟨110, _⟩ => ⟨S_, .i32⟩
  | .hbm, ⟨111, _⟩ => ⟨S1600000, .i32⟩
  | .hbm, ⟨112, _⟩ => ⟨S1600000, .i32⟩
  | .hbm, ⟨113, _⟩ => ⟨S1600000, .i32⟩
  | .hbm, ⟨114, _⟩ => ⟨S1600000x1, .i32⟩
  | .hbm, ⟨115, _⟩ => ⟨S1600000x64, .f32⟩
  | .hbm, ⟨116, _⟩ => ⟨S1600000x1, .f32⟩
  | .hbm, ⟨117, _⟩ => ⟨S1600000x64, .f32⟩
  | .hbm, ⟨118, _⟩ => ⟨S1600000x64, .f32⟩
  | .hbm, ⟨119, _⟩ => ⟨S_, .f32⟩
  | .hbm, ⟨120, _⟩ => ⟨S100000x64, .f32⟩
  | .hbm, ⟨121, _⟩ => ⟨S1600000x1, .i32⟩
  | .hbm, ⟨122, _⟩ => ⟨S100000x64, .f32⟩
  | .hbm, ⟨123, _⟩ => ⟨S100000x1, .f32⟩
  | .hbm, ⟨124, _⟩ => ⟨S100000x64, .f32⟩
  | .hbm, ⟨125, _⟩ => ⟨S100000x64, .f32⟩
  | .hbm, ⟨126, _⟩ => ⟨S100000x64, .f32⟩
  | .hbm, ⟨127, _⟩ => ⟨S100000x64, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S1x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S1x128, .f32⟩
  | .local _ .vmem, ⟨9, _⟩ => ⟨S1x128, .f32⟩
  | .local _ .vmem, ⟨10, _⟩ => ⟨S2000x128, .f32⟩
  | .local _ .vmem, ⟨11, _⟩ => ⟨S2000x128, .f32⟩
  | .local _ .vmem, ⟨12, _⟩ => ⟨S1x128, .f32⟩
  | .local _ .vmem, ⟨13, _⟩ => ⟨S1x128, .f32⟩
  | .local _ .vmem, ⟨14, _⟩ => ⟨S2000x128, .f32⟩
  | .local _ .vmem, ⟨15, _⟩ => ⟨S2000x128, .f32⟩
  | .local _ .vmem, ⟨16, _⟩ => ⟨S2000x128, .f32⟩
  | .local _ .vmem, ⟨17, _⟩ => ⟨S2000x128, .f32⟩
  | .local _ .vmem, ⟨18, _⟩ => ⟨S128x64, .f32⟩
  | .local _ .vmem, ⟨19, _⟩ => ⟨S1x64, .f32⟩
  | .local _ .vmem, ⟨20, _⟩ => ⟨S2000x64, .f32⟩
  | .local _ .vmem, ⟨21, _⟩ => ⟨S2000x64, .f32⟩
  | .local _ .vmem, ⟨22, _⟩ => ⟨S2000x64, .f32⟩
  | .local _ .vmem, ⟨23, _⟩ => ⟨S2000x64, .f32⟩
  | .local _ .vmem, ⟨24, _⟩ => ⟨S2000x64, .f32⟩
  | .local _ .vmem, ⟨25, _⟩ => ⟨S2000x64, .f32⟩
  | .local _ .vmem, ⟨26, _⟩ => ⟨S2000x64, .f32⟩
  | .local _ .vmem, ⟨27, _⟩ => ⟨S2000x64, .f32⟩
  | .local _ .vmem, ⟨28, _⟩ => ⟨S2000x64, .f32⟩
  | .local _ .vmem, ⟨29, _⟩ => ⟨S2000x64, .f32⟩
  | .local _ .vmem, ⟨30, _⟩ => ⟨S2000x64, .f32⟩
  | .local _ .vmem, ⟨31, _⟩ => ⟨S2000x64, .f32⟩
  | .local _ .vmem, ⟨32, _⟩ => ⟨S2000x64, .f32⟩
  | .local _ .vmem, ⟨33, _⟩ => ⟨S2000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_cst_0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst_1 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_c : Ref sig .tc := ⟨.hbm, 20, rfl⟩
abbrev main_v7 : Ref sig .tc := ⟨.hbm, 21, rfl⟩
abbrev main_v8 : Ref sig .tc := ⟨.hbm, 22, rfl⟩
abbrev main_c_2 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_c_3 : Ref sig .tc := ⟨.hbm, 29, rfl⟩
abbrev main_v14 : Ref sig .tc := ⟨.hbm, 30, rfl⟩
abbrev main_v15 : Ref sig .tc := ⟨.hbm, 31, rfl⟩
abbrev main_c_4 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_c_5 : Ref sig .tc := ⟨.hbm, 42, rfl⟩
abbrev main_v25 : Ref sig .tc := ⟨.hbm, 43, rfl⟩
abbrev main_v26 : Ref sig .tc := ⟨.hbm, 44, rfl⟩
abbrev main_c_6 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_7 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42_0 : Ref sig .tc := ⟨.hbm, 62, rfl⟩
abbrev main_v42_1 : Ref sig .tc := ⟨.hbm, 63, rfl⟩
abbrev main_v43 : Ref sig .tc := ⟨.hbm, 64, rfl⟩
abbrev main_v44 : Ref sig .tc := ⟨.hbm, 65, rfl⟩
abbrev main_cst_8 : Ref sig .tc := ⟨.hbm, 66, rfl⟩
abbrev main_v45 : Ref sig .tc := ⟨.hbm, 67, rfl⟩
abbrev main_v46 : Ref sig .tc := ⟨.hbm, 68, rfl⟩
abbrev main_cst_9 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_cst_10 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_c_11 : Ref sig .tc := ⟨.hbm, 86, rfl⟩
abbrev main_v62 : Ref sig .tc := ⟨.hbm, 87, rfl⟩
abbrev main_v63 : Ref sig .tc := ⟨.hbm, 88, rfl⟩
abbrev main_c_12 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_cst_13 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_c_14 : Ref sig .tc := ⟨.hbm, 107, rfl⟩
abbrev main_v80 : Ref sig .tc := ⟨.hbm, 108, rfl⟩
abbrev main_v81 : Ref sig .tc := ⟨.hbm, 109, rfl⟩
abbrev main_c_15 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_cst_16 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg3_0 : Ref sig .tc := ⟨.vmem, 14, rfl⟩
abbrev cc2_stg3_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg2_0 : Ref sig .tc := ⟨.vmem, 19, rfl⟩
abbrev cc3_stg3_0 : Ref sig .tc := ⟨.vmem, 20, rfl⟩
abbrev cc3_stg3_1 : Ref sig .tc := ⟨.vmem, 21, rfl⟩
abbrev cc4_stg0_0 : Ref sig .tc := ⟨.vmem, 22, rfl⟩
abbrev cc4_stg0_1 : Ref sig .tc := ⟨.vmem, 23, rfl⟩
abbrev cc4_stg1_0 : Ref sig .tc := ⟨.vmem, 24, rfl⟩
abbrev cc4_stg1_1 : Ref sig .tc := ⟨.vmem, 25, rfl⟩
abbrev cc5_stg0_0 : Ref sig .tc := ⟨.vmem, 26, rfl⟩
abbrev cc5_stg0_1 : Ref sig .tc := ⟨.vmem, 27, rfl⟩
abbrev cc5_stg1_0 : Ref sig .tc := ⟨.vmem, 28, rfl⟩
abbrev cc5_stg1_1 : Ref sig .tc := ⟨.vmem, 29, rfl⟩
abbrev cc5_stg2_0 : Ref sig .tc := ⟨.vmem, 30, rfl⟩
abbrev cc5_stg2_1 : Ref sig .tc := ⟨.vmem, 31, rfl⟩
abbrev cc5_stg3_0 : Ref sig .tc := ⟨.vmem, 32, rfl⟩
abbrev cc5_stg3_1 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem3_0 : DmaSem sig := 14
abbrev cc2_sem3_1 : DmaSem sig := 15
abbrev cc3_sem0_0 : DmaSem sig := 16
abbrev cc3_sem0_1 : DmaSem sig := 17
abbrev cc3_sem1_0 : DmaSem sig := 18
abbrev cc3_sem2_0 : DmaSem sig := 19
abbrev cc3_sem3_0 : DmaSem sig := 20
abbrev cc3_sem3_1 : DmaSem sig := 21
abbrev cc4_sem0_0 : DmaSem sig := 22
abbrev cc4_sem0_1 : DmaSem sig := 23
abbrev cc4_sem1_0 : DmaSem sig := 24
abbrev cc4_sem1_1 : DmaSem sig := 25
abbrev cc5_sem0_0 : DmaSem sig := 26
abbrev cc5_sem0_1 : DmaSem sig := 27
abbrev cc5_sem1_0 : DmaSem sig := 28
abbrev cc5_sem1_1 : DmaSem sig := 29
abbrev cc5_sem2_0 : DmaSem sig := 30
abbrev cc5_sem2_1 : DmaSem sig := 31
abbrev cc5_sem3_0 : DmaSem sig := 32
abbrev cc5_sem3_1 : DmaSem sig := 33

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S2000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev grid5 : Pipeline.Grid := ⟨1, ![50], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2000x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S2000x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 2 → Memref sig .tc .vmem S2000x64 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  shapeCasts_S2000x128_S2000x128 : S2000x128.ShapeCasts S2000x128
  reduces_S2000x128_S128 : S2000x128.Reduces [0] S128
  shapeCasts_S1x128_S128 : S1x128.ShapeCasts S128
  bcast_S_S128 : S_.BroadcastsInDim S128 (![] : Fin 0 → Fin S128.rank)
  shapeCasts_S64_S1x64 : S64.ShapeCasts S1x64
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S2000x64_S2000x64_0_0 : ∀ a, (![0, 0] : Fin 2 → Nat) a + S2000x64.size a ≤ S2000x64.size a
  h_S2000x64 : 0 < S2000x64.numel
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  shapeCasts_S2000x64_S2000x64 : S2000x64.ShapeCasts S2000x64
  reduces_S2000x64_S2000 : S2000x64.Reduces [1] S2000
  shapeCasts_S2000_S2000x1 : S2000.ShapeCasts S2000x1
  broadcasts_S2000x1_S2000x64 : S2000x1.Broadcasts S2000x64
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S2000x128_S128x128_S2000x128_1_0_0_1_n_n_wf : DotDims.WF S2000x128 S128x128 S2000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S2000x128_S128x64_S2000x64_1_0_0_1_n_n_wf : DotDims.WF S2000x128 S128x64 S2000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S100000x128.size a
  hwx0_3 : ∀ i : grid0.Coords, EltTy.bits .f32 = 32 ∨ (Rect.block (s := S100000x128) S2000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x128.size a ≤ S100000x128.size a
  hwx2_3 : ∀ i : grid2.Coords, EltTy.bits .f32 = 32 ∨ (Rect.block (s := S100000x128) S2000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S100000x128.size a
  hwx3_0 : ∀ i : grid3.Coords, EltTy.bits .f32 = 32 ∨ (Rect.block (s := S100000x128) S2000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x64.size a ≤ S128x64.size a
  hwx3_1 : ∀ i : grid3.Coords, EltTy.bits .f32 = 32 ∨ (Rect.block (s := S128x64) S128x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x64.size a ≤ S100000x64.size a
  hwx3_3 : ∀ i : grid3.Coords, EltTy.bits .f32 = 32 ∨ (Rect.block (s := S100000x64) S2000x64.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x64.size a ≤ S100000x64.size a
  hwx4_0 : ∀ i : grid4.Coords, EltTy.bits .f32 = 32 ∨ (Rect.block (s := S100000x64) S2000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x64.size a ≤ S100000x64.size a
  hwx4_1 : ∀ i : grid4.Coords, EltTy.bits .f32 = 32 ∨ (Rect.block (s := S100000x64) S2000x64.size (cc4_transform_1 i) (hinb4_1 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x64.size a ≤ S100000x64.size a
  hwx5_0 : ∀ i : grid5.Coords, EltTy.bits .f32 = 32 ∨ (Rect.block (s := S100000x64) S2000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2000x64.size a ≤ S100000x64.size a
  hwx5_1 : ∀ i : grid5.Coords, EltTy.bits .f32 = 32 ∨ (Rect.block (s := S100000x64) S2000x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S2000x64.size a ≤ S100000x64.size a
  hwx5_2 : ∀ i : grid5.Coords, EltTy.bits .f32 = 32 ∨ (Rect.block (s := S100000x64) S2000x64.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S2000x64.size a ≤ S100000x64.size a
  hwx5_3 : ∀ i : grid5.Coords, EltTy.bits .f32 = 32 ∨ (Rect.block (s := S100000x64) S2000x64.size (cc5_transform_3 i) (hinb5_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v23) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v24) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v41) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v42_0) S1x128.size cc1_transform_1 reads1_1 true true 1 stage1_1 sem1_1
    hrank1 hreads1_1 hinb1_1 nbuf1_1 (Memref.isWhole_whole _) hwx1_1 hstage1_1

abbrev win1_2 : Pipeline.Window sig grid1 :=
  Pipeline.Window.ofSpec (Memref.whole main_v42_1) S1x128.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v41) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v57) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v58) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v59) S2000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v59) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg7) S128x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v60) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v61) S2000x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v61) S2000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v79) S2000x64.size cc4_transform_1 reads4_1 true false 2 stage4_1 sem4_1
    hrank4 hreads4_1 hinb4_1 nbuf4_1 (Memref.isWhole_whole _) hwx4_1 hstage4_1

abbrev win4 : Fin 2 → Pipeline.Window sig grid4 := fun | 0 => win4_0 | 1 => win4_1 | ⟨_ + 2, h⟩ => absurd h (Nat.not_lt.2 (Nat.le_add_left _ _))
abbrev spec4 : Fin 2 → Pipeline.WinSpec sig grid4.rank := fun w => (win4 w).toWinSpec

abbrev win5_0 : Pipeline.Window sig grid5 :=
  Pipeline.Window.ofSpec (Memref.whole main_v78) S2000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v96) S2000x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_arg9) S2000x64.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v97) S2000x64.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S100000x64 : Shape := ⟨2, ![100000, 64]⟩
abbrev S1x128 : Shape := ⟨2, ![1, 128]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S1x64 : Shape := ⟨2, ![1, 64]⟩
abbrev S1600000x64 : Shape := ⟨2, ![1600000, 64]⟩

abbrev nBuf : Space → Nat
  | .hbm => 235
  | .vmem => 0
  | .smem => 0
  | _ => 0

abbrev hbmTy0_0 (i : Nat) : BufTy := match i % 128 with
  | 0 => ⟨S100000x128, .f32⟩
  | 1 => ⟨S1600000, .i32⟩
  | 2 => ⟨S1600000, .i32⟩
  | 3 => ⟨S128x128, .f32⟩
  | 4 => ⟨S128, .f32⟩
  | 5 => ⟨S128, .f32⟩
  | 6 => ⟨S128, .f32⟩
  | 7 => ⟨S128x64, .f32⟩
  | 8 => ⟨S64, .f32⟩
  | 9 => ⟨S100000x64, .f32⟩
  | 10 => ⟨S100000x128, .f32⟩
  | 11 => ⟨S1x128, .f32⟩
  | 12 => ⟨S100000x128, .f32⟩
  | 13 => ⟨S100000x128, .f32⟩
  | 14 => ⟨S_, .f32⟩
  | 15 => ⟨S1600000, .f32⟩
  | 16 => ⟨S_, .f32⟩
  | 17 => ⟨S100000, .f32⟩
  | 18 => ⟨S1600000x1, .i32⟩
  | 19 => ⟨S100000, .f32⟩
  | 20 => ⟨S_, .f32⟩
  | 21 => ⟨S100000, .f32⟩
  | 22 => ⟨S100000, .f32⟩
  | 23 => ⟨S100000, .f32⟩
  | 24 => ⟨S_, .i32⟩
  | 25 => ⟨S1600000, .i32⟩
  | 26 => ⟨S1600000, .i1⟩
  | 27 => ⟨S_, .i32⟩
  | 28 => ⟨S1600000, .i32⟩
  | 29 => ⟨S1600000, .i32⟩
  | 30 => ⟨S1600000, .i32⟩
  | 31 => ⟨S1600000x1, .i32⟩
  | 32 => ⟨S1600000, .f32⟩
  | 33 => ⟨S_, .i32⟩
  | 34 => ⟨S1600000, .i32⟩
  | 35 => ⟨S1600000, .i1⟩
  | 36 => ⟨S_, .i32⟩
  | 37 => ⟨S1600000, .i32⟩
  | 38 => ⟨S1600000, .i32⟩
  | 39 => ⟨S1600000, .i32⟩
  | 40 => ⟨S1600000x1, .i32⟩
  | 41 => ⟨S1600000, .f32⟩
  | 42 => ⟨S1600000, .f32⟩
  | 43 => ⟨S_, .i32⟩
  | 44 => ⟨S1600000, .i32⟩
  | 45 => ⟨S1600000, .i1⟩
  | 46 => ⟨S_, .i32⟩
  | 47 => ⟨S1600000, .i32⟩
  | 48 => ⟨S1600000, .i32⟩
  | 49 => ⟨S1600000, .i32⟩
  | 50 => ⟨S1600000x1, .i32⟩
  | 51 => ⟨S1600000x128, .f32⟩
  | 52 => ⟨S1600000x1, .f32⟩
  | 53 => ⟨S1600000x128, .f32⟩
  | 54 => ⟨S1600000x128, .f32⟩
  | 55 => ⟨S_, .f32⟩
  | 56 => ⟨S100000x128, .f32⟩
  | 57 => ⟨S1600000x1, .i32⟩
  | 58 => ⟨S100000x128, .f32⟩
  | 59 => ⟨S100000, .f32⟩
  | 60 => ⟨S100000x1, .f32⟩
  | 61 => ⟨S100000x128, .f32⟩
  | 62 => ⟨S100000x128, .f32⟩
  | 63 => ⟨S100000x128, .f32⟩
  | 64 => ⟨S_, .f32⟩
  | 65 => ⟨S128, .f32⟩
  | 66 => ⟨S_, .f32⟩
  | 67 => ⟨S128, .f32⟩
  | 68 => ⟨S128, .f32⟩
  | 69 => ⟨S_, .i32⟩
  | 70 => ⟨S_, .f32⟩
  | 71 => ⟨S128, .f32⟩
  | 72 => ⟨S1x128, .f32⟩
  | 73 => ⟨S_, .f32⟩
  | 74 => ⟨S1x128, .f32⟩
  | 75 => ⟨S1x128, .f32⟩
  | 76 => ⟨S100000x128, .f32⟩
  | 77 => ⟨S100000x128, .f32⟩
  | 78 => ⟨S100000x128, .f32⟩
  | 79 => ⟨S_, .f32⟩
  | 80 => ⟨S_, .f32⟩
  | 81 => ⟨S_, .f32⟩
  | 82 => ⟨S_, .f32⟩
  | 83 => ⟨S128, .f32⟩
  | 84 => ⟨S128, .f32⟩
  | 85 => ⟨S128, .f32⟩
  | 86 => ⟨S_, .f32⟩
  | 87 => ⟨S_, .i1⟩
  | 88 => ⟨S_, .f32⟩
  | 89 => ⟨S_, .f32⟩
  | 90 => ⟨S128, .f32⟩
  | 91 => ⟨S128, .f32⟩
  | 92 => ⟨S1x128, .f32⟩
  | 93 => ⟨S100000x128, .f32⟩
  | 94 => ⟨S100000x128, .f32⟩
  | 95 => ⟨S1x128, .f32⟩
  | 96 => ⟨S100000x128, .f32⟩
  | 97 => ⟨S100000x128, .f32⟩
  | 98 => ⟨S_, .f32⟩
  | 99 => ⟨S128, .f32⟩
  | 100 => ⟨S128, .f32⟩
  | 101 => ⟨S128, .f32⟩
  | 102 => ⟨S1x128, .f32⟩
  | 103 => ⟨S100000x128, .f32⟩
  | 104 => ⟨S100000x128, .f32⟩
  | 105 => ⟨S1x128, .f32⟩
  | 106 => ⟨S100000x128, .f32⟩
  | 107 => ⟨S100000x128, .f32⟩
  | 108 => ⟨S_, .f32⟩
  | 109 => ⟨S100000x128, .f32⟩
  | 110 => ⟨S100000x128, .i1⟩
  | 111 => ⟨S_, .f32⟩
  | 112 => ⟨S100000x128, .f32⟩
  | 113 => ⟨S100000x128, .f32⟩
  | 114 => ⟨S100000x128, .f32⟩
  | 115 => ⟨S100000x64, .f32⟩
  | 116 => ⟨S1x64, .f32⟩
  | 117 => ⟨S100000x64, .f32⟩
  | 118 => ⟨S100000x64, .f32⟩
  | 119 => ⟨S_, .f32⟩
  | 120 => ⟨S1600000, .f32⟩
  | 121 => ⟨S_, .f32⟩
  | 122 => ⟨S100000, .f32⟩
  | 123 => ⟨S1600000x1, .i32⟩
  | 124 => ⟨S100000, .f32⟩
  | 125 => ⟨S_, .f32⟩
  | 126 => ⟨S100000, .f32⟩
  | 127 => ⟨S100000, .f32⟩
  | _ => ⟨S100000x128, .f32⟩

abbrev hbmTy0_1 (i : Nat) : BufTy := match i % 128 with
  | 0 => ⟨S100000, .f32⟩
  | 1 => ⟨S_, .i32⟩
  | 2 => ⟨S1600000, .i32⟩
  | 3 => ⟨S1600000, .i1⟩
  | 4 => ⟨S_, .i32⟩
  | 5 => ⟨S1600000, .i32⟩
  | 6 => ⟨S1600000, .i32⟩
  | 7 => ⟨S1600000, .i32⟩
  | 8 => ⟨S1600000x1, .i32⟩
  | 9 => ⟨S1600000, .f32⟩
  | 10 => ⟨S_, .i32⟩
  | 11 => ⟨S1600000, .i32⟩
  | 12 => ⟨S1600000, .i1⟩
  | 13 => ⟨S_, .i32⟩
  | 14 => ⟨S1600000, .i32⟩
  | 15 => ⟨S1600000, .i32⟩
  | 16 => ⟨S1600000, .i32⟩
  | 17 => ⟨S1600000x1, .i32⟩
  | 18 => ⟨S1600000, .f32⟩
  | 19 => ⟨S1600000, .f32⟩
  | 20 => ⟨S_, .i32⟩
  | 21 => ⟨S1600000, .i32⟩
  | 22 => ⟨S1600000, .i1⟩
  | 23 => ⟨S_, .i32⟩
  | 24 => ⟨S1600000, .i32⟩
  | 25 => ⟨S1600000, .i32⟩
  | 26 => ⟨S1600000, .i32⟩
  | 27 => ⟨S1600000x1, .i32⟩
  | 28 => ⟨S1600000x64, .f32⟩
  | 29 => ⟨S1600000x1, .f32⟩
  | 30 => ⟨S1600000x64, .f32⟩
  | 31 => ⟨S1600000x64, .f32⟩
  | 32 => ⟨S_, .f32⟩
  | 33 => ⟨S100000x64, .f32⟩
  | 34 => ⟨S1600000x1, .i32⟩
  | 35 => ⟨S100000x64, .f32⟩
  | 36 => ⟨S100000, .f32⟩
  | 37 => ⟨S100000x1, .f32⟩
  | 38 => ⟨S100000x64, .f32⟩
  | 39 => ⟨S100000x64, .f32⟩
  | 40 => ⟨S100000x64, .f32⟩
  | 41 => ⟨S100000x64, .f32⟩
  | 42 => ⟨S_, .f32⟩
  | 43 => ⟨S100000, .f32⟩
  | 44 => ⟨S100000x1, .f32⟩
  | 45 => ⟨S100000x1, .f32⟩
  | 46 => ⟨S_, .f32⟩
  | 47 => ⟨S100000x1, .f32⟩
  | 48 => ⟨S100000x1, .f32⟩
  | 49 => ⟨S100000x64, .f32⟩
  | 50 => ⟨S100000x64, .f32⟩
  | 51 => ⟨S_, .f32⟩
  | 52 => ⟨S100000x64, .f32⟩
  | 53 => ⟨S100000x64, .f32⟩
  | 54 => ⟨S_, .f32⟩
  | 55 => ⟨S1600000, .f32⟩
  | 56 => ⟨S_, .f32⟩
  | 57 => ⟨S100000, .f32⟩
  | 58 => ⟨S1600000x1, .i32⟩
  | 59 => ⟨S100000, .f32⟩
  | 60 => ⟨S_, .f32⟩
  | 61 => ⟨S100000, .f32⟩
  | 62 => ⟨S100000, .f32⟩
  | 63 => ⟨S100000, .f32⟩
  | 64 => ⟨S_, .i32⟩
  | 65 => ⟨S1600000, .i32⟩
  | 66 => ⟨S1600000, .i1⟩
  | 67 => ⟨S_, .i32⟩
  | 68 => ⟨S1600000, .i32⟩
  | 69 => ⟨S1600000, .i32⟩
  | 70 => ⟨S1600000, .i32⟩
  | 71 => ⟨S1600000x1, .i32⟩
  | 72 => ⟨S1600000, .f32⟩
  | 73 => ⟨S_, .i32⟩
  | 74 => ⟨S1600000, .i32⟩
  | 75 => ⟨S1600000, .i1⟩
  | 76 => ⟨S_, .i32⟩
  | 77 => ⟨S1600000, .i32⟩
  | 78 => ⟨S1600000, .i32⟩
  | 79 => ⟨S1600000, .i32⟩
  | 80 => ⟨S1600000x1, .i32⟩
  | 81 => ⟨S1600000, .f32⟩
  | 82 => ⟨S1600000, .f32⟩
  | 83 => ⟨S_, .i32⟩
  | 84 => ⟨S1600000, .i32⟩
  | 85 => ⟨S1600000, .i1⟩
  | 86 => ⟨S_, .i32⟩
  | 87 => ⟨S1600000, .i32⟩
  | 88 => ⟨S1600000, .i32⟩
  | 89 => ⟨S1600000, .i32⟩
  | 90 => ⟨S1600000x1, .i32⟩
  | 91 => ⟨S1600000x64, .f32⟩
  | 92 => ⟨S1600000x1, .f32⟩
  | 93 => ⟨S1600000x64, .f32⟩
  | 94 => ⟨S1600000x64, .f32⟩
  | 95 => ⟨S_, .f32⟩
  | 96 => ⟨S100000x64, .f32⟩
  | 97 => ⟨S1600000x1, .i32⟩
  | 98 => ⟨S100000x64, .f32⟩
  | 99 => ⟨S100000, .f32⟩
  | 100 => ⟨S100000x1, .f32⟩
  | 101 => ⟨S100000x64, .f32⟩
  | 102 => ⟨S100000x64, .f32⟩
  | 103 => ⟨S100000x64, .f32⟩
  | 104 => ⟨S100000x64, .f32⟩
  | 105 => ⟨S100000x64, .f32⟩
  | 106 => ⟨S100000x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c : Ref sig .tc := ⟨.hbm, 24, rfl⟩
abbrev main_v11 : Ref sig .tc := ⟨.hbm, 25, rfl⟩
abbrev main_v12 : Ref sig .tc := ⟨.hbm, 26, rfl⟩
abbrev main_c_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_c_3 : Ref sig .tc := ⟨.hbm, 33, rfl⟩
abbrev main_v18 : Ref sig .tc := ⟨.hbm, 34, rfl⟩
abbrev main_v19 : Ref sig .tc := ⟨.hbm, 35, rfl⟩
abbrev main_c_4 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_c_5 : Ref sig .tc := ⟨.hbm, 43, rfl⟩
abbrev main_v26 : Ref sig .tc := ⟨.hbm, 44, rfl⟩
abbrev main_v27 : Ref sig .tc := ⟨.hbm, 45, rfl⟩
abbrev main_c_6 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_7 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_8 : Ref sig .tc := ⟨.hbm, 64, rfl⟩
abbrev main_v44 : Ref sig .tc := ⟨.hbm, 65, rfl⟩
abbrev main_cst_9 : Ref sig .tc := ⟨.hbm, 66, rfl⟩
abbrev main_v45 : Ref sig .tc := ⟨.hbm, 67, rfl⟩
abbrev main_v46 : Ref sig .tc := ⟨.hbm, 68, rfl⟩
abbrev main_c_10 : Ref sig .tc := ⟨.hbm, 69, rfl⟩
abbrev main_call0_cst : Ref sig .tc := ⟨.hbm, 70, rfl⟩
abbrev main_call0_v0 : Ref sig .tc := ⟨.hbm, 71, rfl⟩
abbrev main_call0_v1 : Ref sig .tc := ⟨.hbm, 72, rfl⟩
abbrev main_call0_cst_0 : Ref sig .tc := ⟨.hbm, 73, rfl⟩
abbrev main_call0_v2 : Ref sig .tc := ⟨.hbm, 74, rfl⟩
abbrev main_call0_v3 : Ref sig .tc := ⟨.hbm, 75, rfl⟩
abbrev main_call0_v4 : Ref sig .tc := ⟨.hbm, 76, rfl⟩
abbrev main_call0_v5 : Ref sig .tc := ⟨.hbm, 77, rfl⟩
abbrev main_call0_v6 : Ref sig .tc := ⟨.hbm, 78, rfl⟩
abbrev main_call0_v7 : Ref sig .tc := ⟨.hbm, 79, rfl⟩
abbrev main_call0_cst_1 : Ref sig .tc := ⟨.hbm, 80, rfl⟩
abbrev main_call0_v8 : Ref sig .tc := ⟨.hbm, 81, rfl⟩
abbrev main_call0_cst_2 : Ref sig .tc := ⟨.hbm, 82, rfl⟩
abbrev main_call0_v9 : Ref sig .tc := ⟨.hbm, 83, rfl⟩
abbrev main_call0_v10 : Ref sig .tc := ⟨.hbm, 84, rfl⟩
abbrev main_call0_v11 : Ref sig .tc := ⟨.hbm, 85, rfl⟩
abbrev main_call0_cst_3 : Ref sig .tc := ⟨.hbm, 86, rfl⟩
abbrev main_call0_v12 : Ref sig .tc := ⟨.hbm, 87, rfl⟩
abbrev main_call0_cst_4 : Ref sig .tc := ⟨.hbm, 88, rfl⟩
abbrev main_call0_call0_v0 : Ref sig .tc := ⟨.hbm, 89, rfl⟩
abbrev main_call0_call0_v1 : Ref sig .tc := ⟨.hbm, 90, rfl⟩
abbrev main_v47 : Ref sig .tc := ⟨.hbm, 91, rfl⟩
abbrev main_v48 : Ref sig .tc := ⟨.hbm, 92, rfl⟩
abbrev main_v49 : Ref sig .tc := ⟨.hbm, 93, rfl⟩
abbrev main_v50 : Ref sig .tc := ⟨.hbm, 94, rfl⟩
abbrev main_v51 : Ref sig .tc := ⟨.hbm, 95, rfl⟩
abbrev main_v52 : Ref sig .tc := ⟨.hbm, 96, rfl⟩
abbrev main_v53 : Ref sig .tc := ⟨.hbm, 97, rfl⟩
abbrev main_cst_11 : Ref sig .tc := ⟨.hbm, 98, rfl⟩
abbrev main_v54 : Ref sig .tc := ⟨.hbm, 99, rfl⟩
abbrev main_v55 : Ref sig .tc := ⟨.hbm, 100, rfl⟩
abbrev main_v56 : Ref sig .tc := ⟨.hbm, 101, rfl⟩
abbrev main_v57 : Ref sig .tc := ⟨.hbm, 102, rfl⟩
abbrev main_v58 : Ref sig .tc := ⟨.hbm, 103, rfl⟩
abbrev main_v59 : Ref sig .tc := ⟨.hbm, 104, rfl⟩
abbrev main_v60 : Ref sig .tc := ⟨.hbm, 105, rfl⟩
abbrev main_v61 : Ref sig .tc := ⟨.hbm, 106, rfl⟩
abbrev main_v62 : Ref sig .tc := ⟨.hbm, 107, rfl⟩
abbrev main_cst_12 : Ref sig .tc := ⟨.hbm, 108, rfl⟩
abbrev main_v63 : Ref sig .tc := ⟨.hbm, 109, rfl⟩
abbrev main_v64 : Ref sig .tc := ⟨.hbm, 110, rfl⟩
abbrev main_cst_13 : Ref sig .tc := ⟨.hbm, 111, rfl⟩
abbrev main_v65 : Ref sig .tc := ⟨.hbm, 112, rfl⟩
abbrev main_v66 : Ref sig .tc := ⟨.hbm, 113, rfl⟩
abbrev main_v67 : Ref sig .tc := ⟨.hbm, 114, rfl⟩
abbrev main_v68 : Ref sig .tc := ⟨.hbm, 115, rfl⟩
abbrev main_v69 : Ref sig .tc := ⟨.hbm, 116, rfl⟩
abbrev main_v70 : Ref sig .tc := ⟨.hbm, 117, rfl⟩
abbrev main_v71 : Ref sig .tc := ⟨.hbm, 118, rfl⟩
abbrev main_cst_14 : Ref sig .tc := ⟨.hbm, 119, rfl⟩
abbrev main_v72 : Ref sig .tc := ⟨.hbm, 120, rfl⟩
abbrev main_cst_15 : Ref sig .tc := ⟨.hbm, 121, rfl⟩
abbrev main_v73 : Ref sig .tc := ⟨.hbm, 122, rfl⟩
abbrev main_v74 : Ref sig .tc := ⟨.hbm, 123, rfl⟩
abbrev main_v75 : Ref sig .tc := ⟨.hbm, 124, rfl⟩
abbrev main_cst_16 : Ref sig .tc := ⟨.hbm, 125, rfl⟩
abbrev main_v76 : Ref sig .tc := ⟨.hbm, 126, rfl⟩
abbrev main_v77 : Ref sig .tc := ⟨.hbm, 127, rfl⟩
abbrev main_v78 : Ref sig .tc := ⟨.hbm, 128, rfl⟩
abbrev main_c_17 : Ref sig .tc := ⟨.hbm, 129, rfl⟩
abbrev main_v79 : Ref sig .tc := ⟨.hbm, 130, rfl⟩
abbrev main_v80 : Ref sig .tc := ⟨.hbm, 131, rfl⟩
abbrev main_c_18 : Ref sig .tc := ⟨.hbm, 132, rfl⟩
abbrev main_v81 : Ref sig .tc := ⟨.hbm, 133, rfl⟩
abbrev main_v82 : Ref sig .tc := ⟨.hbm, 134, rfl⟩
abbrev main_v83 : Ref sig .tc := ⟨.hbm, 135, rfl⟩
abbrev main_v84 : Ref sig .tc := ⟨.hbm, 136, rfl⟩
abbrev main_v85 : Ref sig .tc := ⟨.hbm, 137, rfl⟩
abbrev main_c_19 : Ref sig .tc := ⟨.hbm, 138, rfl⟩
abbrev main_v86 : Ref sig .tc := ⟨.hbm, 139, rfl⟩
abbrev main_v87 : Ref sig .tc := ⟨.hbm, 140, rfl⟩
abbrev main_c_20 : Ref sig .tc := ⟨.hbm, 141, rfl⟩
abbrev main_v88 : Ref sig .tc := ⟨.hbm, 142, rfl⟩
abbrev main_v89 : Ref sig .tc := ⟨.hbm, 143, rfl⟩
abbrev main_v90 : Ref sig .tc := ⟨.hbm, 144, rfl⟩
abbrev main_v91 : Ref sig .tc := ⟨.hbm, 145, rfl⟩
abbrev main_v92 : Ref sig .tc := ⟨.hbm, 146, rfl⟩
abbrev main_v93 : Ref sig .tc := ⟨.hbm, 147, rfl⟩
abbrev main_c_21 : Ref sig .tc := ⟨.hbm, 148, rfl⟩
abbrev main_v94 : Ref sig .tc := ⟨.hbm, 149, rfl⟩
abbrev main_v95 : Ref sig .tc := ⟨.hbm, 150, rfl⟩
abbrev main_c_22 : Ref sig .tc := ⟨.hbm, 151, rfl⟩
abbrev main_v96 : Ref sig .tc := ⟨.hbm, 152, rfl⟩
abbrev main_v97 : Ref sig .tc := ⟨.hbm, 153, rfl⟩
abbrev main_v98 : Ref sig .tc := ⟨.hbm, 154, rfl⟩
abbrev main_v99 : Ref sig .tc := ⟨.hbm, 155, rfl⟩
abbrev main_v100 : Ref sig .tc := ⟨.hbm, 156, rfl⟩
abbrev main_v101 : Ref sig .tc := ⟨.hbm, 157, rfl⟩
abbrev main_v102 : Ref sig .tc := ⟨.hbm, 158, rfl⟩
abbrev main_v103 : Ref sig .tc := ⟨.hbm, 159, rfl⟩
abbrev main_cst_23 : Ref sig .tc := ⟨.hbm, 160, rfl⟩
abbrev main_v104 : Ref sig .tc := ⟨.hbm, 161, rfl⟩
abbrev main_v105 : Ref sig .tc := ⟨.hbm, 162, rfl⟩
abbrev main_v106 : Ref sig .tc := ⟨.hbm, 163, rfl⟩
abbrev main_v107 : Ref sig .tc := ⟨.hbm, 164, rfl⟩
abbrev main_v108 : Ref sig .tc := ⟨.hbm, 165, rfl⟩
abbrev main_v109 : Ref sig .tc := ⟨.hbm, 166, rfl⟩
abbrev main_v110 : Ref sig .tc := ⟨.hbm, 167, rfl⟩
abbrev main_v111 : Ref sig .tc := ⟨.hbm, 168, rfl⟩
abbrev main_call2_v0 : Ref sig .tc := ⟨.hbm, 169, rfl⟩
abbrev main_call2_cst : Ref sig .tc := ⟨.hbm, 170, rfl⟩
abbrev main_call2_v1 : Ref sig .tc := ⟨.hbm, 171, rfl⟩
abbrev main_call2_v2 : Ref sig .tc := ⟨.hbm, 172, rfl⟩
abbrev main_v112 : Ref sig .tc := ⟨.hbm, 173, rfl⟩
abbrev main_cst_24 : Ref sig .tc := ⟨.hbm, 174, rfl⟩
abbrev main_v113 : Ref sig .tc := ⟨.hbm, 175, rfl⟩
abbrev main_v114 : Ref sig .tc := ⟨.hbm, 176, rfl⟩
abbrev main_v115 : Ref sig .tc := ⟨.hbm, 177, rfl⟩
abbrev main_v116 : Ref sig .tc := ⟨.hbm, 178, rfl⟩
abbrev main_cst_25 : Ref sig .tc := ⟨.hbm, 179, rfl⟩
abbrev main_v117 : Ref sig .tc := ⟨.hbm, 180, rfl⟩
abbrev main_v118 : Ref sig .tc := ⟨.hbm, 181, rfl⟩
abbrev main_cst_26 : Ref sig .tc := ⟨.hbm, 182, rfl⟩
abbrev main_v119 : Ref sig .tc := ⟨.hbm, 183, rfl⟩
abbrev main_cst_27 : Ref sig .tc := ⟨.hbm, 184, rfl⟩
abbrev main_v120 : Ref sig .tc := ⟨.hbm, 185, rfl⟩
abbrev main_v121 : Ref sig .tc := ⟨.hbm, 186, rfl⟩
abbrev main_v122 : Ref sig .tc := ⟨.hbm, 187, rfl⟩
abbrev main_cst_28 : Ref sig .tc := ⟨.hbm, 188, rfl⟩
abbrev main_v123 : Ref sig .tc := ⟨.hbm, 189, rfl⟩
abbrev main_v124 : Ref sig .tc := ⟨.hbm, 190, rfl⟩
abbrev main_v125 : Ref sig .tc := ⟨.hbm, 191, rfl⟩
abbrev main_c_29 : Ref sig .tc := ⟨.hbm, 192, rfl⟩
abbrev main_v126 : Ref sig .tc := ⟨.hbm, 193, rfl⟩
abbrev main_v127 : Ref sig .tc := ⟨.hbm, 194, rfl⟩
abbrev main_c_30 : Ref sig .tc := ⟨.hbm, 195, rfl⟩
abbrev main_v128 : Ref sig .tc := ⟨.hbm, 196, rfl⟩
abbrev main_v129 : Ref sig .tc := ⟨.hbm, 197, rfl⟩
abbrev main_v130 : Ref sig .tc := ⟨.hbm, 198, rfl⟩
abbrev main_v131 : Ref sig .tc := ⟨.hbm, 199, rfl⟩
abbrev main_v132 : Ref sig .tc := ⟨.hbm, 200, rfl⟩
abbrev main_c_31 : Ref sig .tc := ⟨.hbm, 201, rfl⟩
abbrev main_v133 : Ref sig .tc := ⟨.hbm, 202, rfl⟩
abbrev main_v134 : Ref sig .tc := ⟨.hbm, 203, rfl⟩
abbrev main_c_32 : Ref sig .tc := ⟨.hbm, 204, rfl⟩
abbrev main_v135 : Ref sig .tc := ⟨.hbm, 205, rfl⟩
abbrev main_v136 : Ref sig .tc := ⟨.hbm, 206, rfl⟩
abbrev main_v137 : Ref sig .tc := ⟨.hbm, 207, rfl⟩
abbrev main_v138 : Ref sig .tc := ⟨.hbm, 208, rfl⟩
abbrev main_v139 : Ref sig .tc := ⟨.hbm, 209, rfl⟩
abbrev main_v140 : Ref sig .tc := ⟨.hbm, 210, rfl⟩
abbrev main_c_33 : Ref sig .tc := ⟨.hbm, 211, rfl⟩
abbrev main_v141 : Ref sig .tc := ⟨.hbm, 212, rfl⟩
abbrev main_v142 : Ref sig .tc := ⟨.hbm, 213, rfl⟩
abbrev main_c_34 : Ref sig .tc := ⟨.hbm, 214, rfl⟩
abbrev main_v143 : Ref sig .tc := ⟨.hbm, 215, rfl⟩
abbrev main_v144 : Ref sig .tc := ⟨.hbm, 216, rfl⟩
abbrev main_v145 : Ref sig .tc := ⟨.hbm, 217, rfl⟩
abbrev main_v146 : Ref sig .tc := ⟨.hbm, 218, rfl⟩
abbrev main_v147 : Ref sig .tc := ⟨.hbm, 219, rfl⟩
abbrev main_v148 : Ref sig .tc := ⟨.hbm, 220, rfl⟩
abbrev main_v149 : Ref sig .tc := ⟨.hbm, 221, rfl⟩
abbrev main_v150 : Ref sig .tc := ⟨.hbm, 222, rfl⟩
abbrev main_cst_35 : Ref sig .tc := ⟨.hbm, 223, rfl⟩
abbrev main_v151 : Ref sig .tc := ⟨.hbm, 224, rfl⟩
abbrev main_v152 : Ref sig .tc := ⟨.hbm, 225, rfl⟩
abbrev main_v153 : Ref sig .tc := ⟨.hbm, 226, rfl⟩
abbrev main_v154 : Ref sig .tc := ⟨.hbm, 227, rfl⟩
abbrev main_v155 : Ref sig .tc := ⟨.hbm, 228, rfl⟩
abbrev main_v156 : Ref sig .tc := ⟨.hbm, 229, rfl⟩
abbrev main_v157 : Ref sig .tc := ⟨.hbm, 230, rfl⟩
abbrev main_v158 : Ref sig .tc := ⟨.hbm, 231, rfl⟩
abbrev main_v159 : Ref sig .tc := ⟨.hbm, 232, rfl⟩
abbrev main_v160 : Ref sig .tc := ⟨.hbm, 233, rfl⟩
abbrev main_v161 : Ref sig .tc := ⟨.hbm, 234, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  reducesTo_S100000x64_S100000_d1 : S100000x64.ReducesTo [1] S100000
  bcast_S_S100000x1 : S_.BroadcastsInDim S100000x1 (![] : Fin 0 → Fin S100000x1.rank)
  dot_S100000x128_S128x128_S100000x128_1_0_0_1_n_n_wf : DotDims.WF S100000x128 S128x128 S100000x128 [1] [0] [0] [1] [] []
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x64_S100000x64_1_0_0_1_n_n_wf : DotDims.WF S100000x128 S128x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

class Facts : Prop extends Facts₀ where

variable [Facts]
-- ==== Proof.KRun.lean ====
/-
  The idealized kernel program's run with every buffer named: from any launch memory, every weakly fair
  execution of @main terminates without fault, and in the final state each unscoped TensorCore buffer holds
  what the fold of @main's twelve segments (six stretches of host operations, six pipelined regions) leaves
  in it, the last boundary's contents. The argument is the one that gives the frame — the regions' launch
  theorem over the same segments — with the final predicate kept at "every unscoped buffer is at the last
  boundary's contents" instead of being weakened to the argument arrays.
-/
import proofs.«132517_j26465588478695_1_alg».proof.Proof.Gen.KernelIdeal.Frame

set_option maxRecDepth 16384

noncomputable section

namespace Cert.KernelIdeal.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every unscoped buffer of every core ends at the last segment boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W12 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c => h c)

/-- A TensorCore buffer that is not scoped is among the unscoped references. -/
theorem mem_ucRefs (b : Ref sig .tc) (h : ¬ (Proc.devRef .tc b : DevRef τ sig).isScoped) : Proc.devRef .tc b ∈ Pipeline.ucRefs τ sig :=
  mem_uc b h

end Cert.KernelIdeal.KRun

end
-- ==== Proof.KStages.lean ====
/-
  The host side of the idealized kernel program, stretch by stretch, as functions of arrays: the inverse
  square-root degree of every node (one plus the number of edges that end there), an edge's weight (the
  product of that quantity at its two ends, each end's index first wrapped when negative), a node's
  self-loop weight (its square), the propagation of a feature array (gather the source rows, scale each by its
  edge's weight, add them up at the destination rows, add the self-loop term), the batch-normalisation
  coefficients from the column sums, and a vector laid as a one-row matrix. Each is literally the printed
  operations of one stretch, composed.
-/
import proofs.«132517_j26465588478695_1_alg».proof.Proof.Gen.KernelIdeal

noncomputable section

namespace Cert.KernelIdeal.KStages

open Idealize.ShloMosaic Cert.KernelIdeal Cert.KernelIdeal.Facts₀ Cert.KernelIdeal.Facts

variable {F : FTy → Type} [FloatOps F]

/-- (1 + number of edges ending at each node)^(-1/2). -/
def dinv (dst : (⟨S1600000, .i32⟩ : BufTy).Contents (Elt F)) : (⟨S100000, .f32⟩ : BufTy).Contents (Elt F) :=
  Host.rsqrt (addf
    (Host.scatterAdd scatter_S100000_S1600000x1_S1600000_n_0_0_1
      (broadcastInDim S100000 ![] bcast_S_S100000 (constant S_ .f32 0x00000000#32))
      (broadcastInDim S1600000x1 ![0] bcast_S1600000_S1600000x1_0 dst)
      (broadcastInDim S1600000 ![] bcast_S_S1600000 (constant S_ .f32 0x3F800000#32)))
    (broadcastInDim S100000 ![] bcast_S_S100000 (constant S_ .f32 0x3F800000#32)))

/-- An index array with negative entries wrapped by the number of nodes, as a column of start indices. -/
def wrapIdx (a : (⟨S1600000, .i32⟩ : BufTy).Contents (Elt F)) : (⟨S1600000x1, .i32⟩ : BufTy).Contents (Elt F) :=
  broadcastInDim S1600000x1 ![0] bcast_S1600000_S1600000x1_0
    (select (cmpi .slt a (broadcastInDim S1600000 ![] bcast_S_S1600000 (constantI S_ 32 0#32)))
      (addi a (broadcastInDim S1600000 ![] bcast_S_S1600000 (constantI S_ 32 100000#32))) a)

/-- An edge's weight: dinv at its source times dinv at its destination. -/
def edgeW (src dst : (⟨S1600000, .i32⟩ : BufTy).Contents (Elt F)) : (⟨S1600000, .f32⟩ : BufTy).Contents (Elt F) :=
  mulf (Host.gather gather_S100000_S1600000x1_S1600000_n_0_n_n_0_1_1 (dinv dst) (wrapIdx src))
    (Host.gather gather_S100000_S1600000x1_S1600000_n_0_n_n_0_1_1 (dinv dst) (wrapIdx dst))

/-- A node's self-loop weight: dinv squared. -/
def selfW (dst : (⟨S1600000, .i32⟩ : BufTy).Contents (Elt F)) : (⟨S100000, .f32⟩ : BufTy).Contents (Elt F) :=
  mulf (dinv dst) (dinv dst)

/-- Propagation of a 128-column feature array with given edge and self-loop weights. -/
def agg128 (feat : (⟨S100000x128, .f32⟩ : BufTy).Contents (Elt F)) (src dst : (⟨S1600000, .i32⟩ : BufTy).Contents (Elt F))
    (w : (⟨S1600000, .f32⟩ : BufTy).Contents (Elt F)) (ss : (⟨S100000, .f32⟩ : BufTy).Contents (Elt F)) :
    (⟨S100000x128, .f32⟩ : BufTy).Contents (Elt F) :=
  addf
    (Host.scatterAdd scatter_S100000x128_S1600000x1_S1600000x128_1_0_0_1
      (broadcastInDim S100000x128 ![] bcast_S_S100000x128 (constant S_ .f32 0x00000000#32))
      (broadcastInDim S1600000x1 ![0] bcast_S1600000_S1600000x1_0 dst)
      (mulf (Host.gather gather_S100000x128_S1600000x1_S1600000x128_1_0_n_n_0_1_1128 feat (wrapIdx src))
        (broadcastInDim S1600000x128 ![0, 1] bcast_S1600000x1_S1600000x128_0_1
          (broadcastInDim S1600000x1 ![0] bcast_S1600000_S1600000x1_0 w))))
    (mulf feat (broadcastInDim S100000x128 ![0, 1] bcast_S100000x1_S100000x128_0_1
      (broadcastInDim S100000x1 ![0] bcast_S100000_S100000x1_0 ss)))

/-- Propagation of a 64-column feature array with given edge and self-loop weights. -/
def agg64 (feat : (⟨S100000x64, .f32⟩ : BufTy).Contents (Elt F)) (src dst : (⟨S1600000, .i32⟩ : BufTy).Contents (Elt F))
    (w : (⟨S1600000, .f32⟩ : BufTy).Contents (Elt F)) (ss : (⟨S100000, .f32⟩ : BufTy).Contents (Elt F)) :
    (⟨S100000x64, .f32⟩ : BufTy).Contents (Elt F) :=
  addf
    (Host.scatterAdd scatter_S100000x64_S1600000x1_S1600000x64_1_0_0_1
      (broadcastInDim S100000x64 ![] bcast_S_S100000x64 (constant S_ .f32 0x00000000#32))
      (broadcastInDim S1600000x1 ![0] bcast_S1600000_S1600000x1_0 dst)
      (mulf (Host.gather gather_S100000x64_S1600000x1_S1600000x64_1_0_n_n_0_1_164 feat (wrapIdx src))
        (broadcastInDim S1600000x64 ![0, 1] bcast_S1600000x1_S1600000x64_0_1
          (broadcastInDim S1600000x1 ![0] bcast_S1600000_S1600000x1_0 w))))
    (mulf feat (broadcastInDim S100000x64 ![0, 1] bcast_S100000x1_S100000x64_0_1
      (broadcastInDim S100000x1 ![0] bcast_S100000_S100000x1_0 ss)))

/-- A length-128 vector laid as a 1 × 128 row. -/
def row128 (b : (⟨S128, .f32⟩ : BufTy).Contents (Elt F)) : (⟨S1x128, .f32⟩ : BufTy).Contents (Elt F) :=
  shapeCast S1x128 b shapeCasts_S128_S1x128
/-- A length-64 vector laid as a 1 × 64 row. -/
def row64 (b : (⟨S64, .f32⟩ : BufTy).Contents (Elt F)) : (⟨S1x64, .f32⟩ : BufTy).Contents (Elt F) :=
  shapeCast S1x64 b shapeCasts_S64_S1x64
/-- A 1 × 128 row read as a length-128 vector. -/
def vec128 (r : (⟨S1x128, .f32⟩ : BufTy).Contents (Elt F)) : (⟨S128, .f32⟩ : BufTy).Contents (Elt F) :=
  shapeCast S128 r shapeCasts_S1x128_S128

/-- The column means from the column sums: sums / 100000. -/
def bnMean (s : (⟨S1x128, .f32⟩ : BufTy).Contents (Elt F)) : (⟨S128, .f32⟩ : BufTy).Contents (Elt F) :=
  Host.divf (vec128 s) (broadcastInDim S128 ![] bcast_S_S128 (constant S_ .f32 0x47C35000#32))

/-- The batch-normalisation scale as a vector: γ · rsqrt (q/N − mean² + ε). -/
def bnScaleV (s q : (⟨S1x128, .f32⟩ : BufTy).Contents (Elt F)) (γ : (⟨S128, .f32⟩ : BufTy).Contents (Elt F)) :
    (⟨S128, .f32⟩ : BufTy).Contents (Elt F) :=
  mulf γ (Host.rsqrt (addf
    (subf (Host.divf (vec128 q) (broadcastInDim S128 ![] bcast_S_S128 (constant S_ .f32 0x47C35000#32)))
      (mulf (bnMean s) (bnMean s)))
    (broadcastInDim S128 ![] bcast_S_S128 (constant S_ .f32 0x3727C5AC#32))))

/-- The batch-normalisation shift as a vector: β − mean · scale. -/
def bnShiftV (s q : (⟨S1x128, .f32⟩ : BufTy).Contents (Elt F)) (γ β : (⟨S128, .f32⟩ : BufTy).Contents (Elt F)) :
    (⟨S128, .f32⟩ : BufTy).Contents (Elt F) :=
  subf β (mulf (bnMean s) (bnScaleV s q γ))

end Cert.KernelIdeal.KStages

end
-- ==== Proof.KFoldCarry.lean ====
/-
  Buffers that nothing writes between two segment boundaries of the idealized kernel program read the same
  at both: the edge weights, the self-loop weights and the two index arrays from the first boundary on, and
  the argument arrays a later stretch or region reads. A host stretch leaves a buffer alone when none of its
  operations writes it; a region leaves alone every buffer that is not one of its windows' arrays.
-/
import proofs.«132517_j26465588478695_1_alg».proof.Proof.Gen.KernelIdeal.Frame

set_option maxRecDepth 16384

noncomputable section

namespace Cert.KernelIdeal.KFold

open Idealize.ShloMosaic Idealize.ShloMosaic.TcCoe Idealize.SL.Sem
open Cert.KernelIdeal Cert.KernelIdeal.Gen

variable {F : FTy → Type} [FloatOps F]
variable (m : (ℓ : Loc nD τ sig) → Buf (Elt F) ℓ) (ρ : Dev nD → PrngReg)

/-- A host stretch none of whose operations writes the buffer leaves it as it was. -/
macro "skip_host" : tactic => `(tactic|
  exact StableHlo.after_of_forall_not_mem (b := _) _ _ (List.forall_iff_forall_mem.mp (by
    simp only [hostOps0, hostOps1, hostOps2, hostOps3, hostOps4, hostOps5, List.flatten_cons, List.flatten_nil,
      List.append_nil, List.cons_append, List.nil_append, List.Forall, StableHlo.nullary_writes, StableHlo.unary_writes,
      StableHlo.binary_writes, StableHlo.ternary_writes, StableHlo.quaternary_writes, StableHlo.reshape_writes,
      StableHlo.binaryIndexed_writes, Finset.mem_singleton]
    repeat' apply And.intro
    all_goals exact StableHlo.devRef_ne_of_ne (by decide))))

theorem W2_v21 (c : Dev nD) : W2 m ρ c (Proc.devRef .tc main_v21) = W1 m ρ c (Proc.devRef .tc main_v21) :=
  calc W2 m ρ c (Proc.devRef .tc main_v21)
    _ = W1 m ρ c (Proc.devRef .tc main_v21) := W2_of_ne m ρ c main_v21 (by decide)

theorem W8_v21 (c : Dev nD) : W8 m ρ c (Proc.devRef .tc main_v21) = W2 m ρ c (Proc.devRef .tc main_v21) :=
  calc W8 m ρ c (Proc.devRef .tc main_v21)
    _ = W7 m ρ c (Proc.devRef .tc main_v21) := W8_of_ne m ρ c main_v21 (by decide)
    _ = W6 m ρ c (Proc.devRef .tc main_v21) := by skip_host
    _ = W5 m ρ c (Proc.devRef .tc main_v21) := W6_of_ne m ρ c main_v21 (by decide)
    _ = W4 m ρ c (Proc.devRef .tc main_v21) := by skip_host
    _ = W3 m ρ c (Proc.devRef .tc main_v21) := W4_of_ne m ρ c main_v21 (by decide)
    _ = W2 m ρ c (Proc.devRef .tc main_v21) := by skip_host

theorem W10_v21 (c : Dev nD) : W10 m ρ c (Proc.devRef .tc main_v21) = W8 m ρ c (Proc.devRef .tc main_v21) :=
  calc W10 m ρ c (Proc.devRef .tc main_v21)
    _ = W9 m ρ c (Proc.devRef .tc main_v21) := W10_of_ne m ρ c main_v21 (by decide)
    _ = W8 m ρ c (Proc.devRef .tc main_v21) := by skip_host

theorem W2_v22 (c : Dev nD) : W2 m ρ c (Proc.devRef .tc main_v22) = W1 m ρ c (Proc.devRef .tc main_v22) :=
  calc W2 m ρ c (Proc.devRef .tc main_v22)
    _ = W1 m ρ c (Proc.devRef .tc main_v22) := W2_of_ne m ρ c main_v22 (by decide)

theorem W8_v22 (c : Dev nD) : W8 m ρ c (Proc.devRef .tc main_v22) = W2 m ρ c (Proc.devRef .tc main_v22) :=
  calc W8 m ρ c (Proc.devRef .tc main_v22)
    _ = W7 m ρ c (Proc.devRef .tc main_v22) := W8_of_ne m ρ c main_v22 (by decide)
    _ = W6 m ρ c (Proc.devRef .tc main_v22) := by skip_host
    _ = W5 m ρ c (Proc.devRef .tc main_v22) := W6_of_ne m ρ c main_v22 (by decide)
    _ = W4 m ρ c (Proc.devRef .tc main_v22) := by skip_host
    _ = W3 m ρ c (Proc.devRef .tc main_v22) := W4_of_ne m ρ c main_v22 (by decide)
    _ = W2 m ρ c (Proc.devRef .tc main_v22) := by skip_host

theorem W10_v22 (c : Dev nD) : W10 m ρ c (Proc.devRef .tc main_v22) = W8 m ρ c (Proc.devRef .tc main_v22) :=
  calc W10 m ρ c (Proc.devRef .tc main_v22)
    _ = W9 m ρ c (Proc.devRef .tc main_v22) := W10_of_ne m ρ c main_v22 (by decide)
    _ = W8 m ρ c (Proc.devRef .tc main_v22) := by skip_host

theorem W2_arg1 (c : Dev nD) : W2 m ρ c (Proc.devRef .tc main_arg1) = W1 m ρ c (Proc.devRef .tc main_arg1) :=
  calc W2 m ρ c (Proc.devRef .tc main_arg1)
    _ = W1 m ρ c (Proc.devRef .tc main_arg1) := W2_of_ne m ρ c main_arg1 (by decide)

theorem W8_arg1 (c : Dev nD) : W8 m ρ c (Proc.devRef .tc main_arg1) = W2 m ρ c (Proc.devRef .tc main_arg1) :=
  calc W8 m ρ c (Proc.devRef .tc main_arg1)
    _ = W7 m ρ c (Proc.devRef .tc main_arg1) := W8_of_ne m ρ c main_arg1 (by decide)
    _ = W6 m ρ c (Proc.devRef .tc main_arg1) := by skip_host
    _ = W5 m ρ c (Proc.devRef .tc main_arg1) := W6_of_ne m ρ c main_arg1 (by decide)
    _ = W4 m ρ c (Proc.devRef .tc main_arg1) := by skip_host
    _ = W3 m ρ c (Proc.devRef .tc main_arg1) := W4_of_ne m ρ c main_arg1 (by decide)
    _ = W2 m ρ c (Proc.devRef .tc main_arg1) := by skip_host

theorem W10_arg1 (c : Dev nD) : W10 m ρ c (Proc.devRef .tc main_arg1) = W8 m ρ c (Proc.devRef .tc main_arg1) :=
  calc W10 m ρ c (Proc.devRef .tc main_arg1)
    _ = W9 m ρ c (Proc.devRef .tc main_arg1) := W10_of_ne m ρ c main_arg1 (by decide)
    _ = W8 m ρ c (Proc.devRef .tc main_arg1) := by skip_host

theorem W2_arg2 (c : Dev nD) : W2 m ρ c (Proc.devRef .tc main_arg2) = W1 m ρ c (Proc.devRef .tc main_arg2) :=
  calc W2 m ρ c (Proc.devRef .tc main_arg2)
    _ = W1 m ρ c (Proc.devRef .tc main_arg2) := W2_of_ne m ρ c main_arg2 (by decide)

theorem W8_arg2 (c : Dev nD) : W8 m ρ c (Proc.devRef .tc main_arg2) = W2 m ρ c (Proc.devRef .tc main_arg2) :=
  calc W8 m ρ c (Proc.devRef .tc main_arg2)
    _ = W7 m ρ c (Proc.devRef .tc main_arg2) := W8_of_ne m ρ c main_arg2 (by decide)
    _ = W6 m ρ c (Proc.devRef .tc main_arg2) := by skip_host
    _ = W5 m ρ c (Proc.devRef .tc main_arg2) := W6_of_ne m ρ c main_arg2 (by decide)
    _ = W4 m ρ c (Proc.devRef .tc main_arg2) := by skip_host
    _ = W3 m ρ c (Proc.devRef .tc main_arg2) := W4_of_ne m ρ c main_arg2 (by decide)
    _ = W2 m ρ c (Proc.devRef .tc main_arg2) := by skip_host

theorem W10_arg2 (c : Dev nD) : W10 m ρ c (Proc.devRef .tc main_arg2) = W8 m ρ c (Proc.devRef .tc main_arg2) :=
  calc W10 m ρ c (Proc.devRef .tc main_arg2)
    _ = W9 m ρ c (Proc.devRef .tc main_arg2) := W10_of_ne m ρ c main_arg2 (by decide)
    _ = W8 m ρ c (Proc.devRef .tc main_arg2) := by skip_host

theorem W4_arg5 (c : Dev nD) : W4 m ρ c (Proc.devRef .tc main_arg5) = W1 m ρ c (Proc.devRef .tc main_arg5) :=
  calc W4 m ρ c (Proc.devRef .tc main_arg5)
    _ = W3 m ρ c (Proc.devRef .tc main_arg5) := W4_of_ne m ρ c main_arg5 (by decide)
    _ = W2 m ρ c (Proc.devRef .tc main_arg5) := by skip_host
    _ = W1 m ρ c (Proc.devRef .tc main_arg5) := W2_of_ne m ρ c main_arg5 (by decide)

theorem W4_arg6 (c : Dev nD) : W4 m ρ c (Proc.devRef .tc main_arg6) = W1 m ρ c (Proc.devRef .tc main_arg6) :=
  calc W4 m ρ c (Proc.devRef .tc main_arg6)
    _ = W3 m ρ c (Proc.devRef .tc main_arg6) := W4_of_ne m ρ c main_arg6 (by decide)
    _ = W2 m ρ c (Proc.devRef .tc main_arg6) := by skip_host
    _ = W1 m ρ c (Proc.devRef .tc main_arg6) := W2_of_ne m ρ c main_arg6 (by decide)

theorem W6_arg8 (c : Dev nD) : W6 m ρ c (Proc.devRef .tc main_arg8) = W1 m ρ c (Proc.devRef .tc main_arg8) :=
  calc W6 m ρ c (Proc.devRef .tc main_arg8)
    _ = W5 m ρ c (Proc.devRef .tc main_arg8) := W6_of_ne m ρ c main_arg8 (by decide)
    _ = W4 m ρ c (Proc.devRef .tc main_arg8) := by skip_host
    _ = W3 m ρ c (Proc.devRef .tc main_arg8) := W4_of_ne m ρ c main_arg8 (by decide)
    _ = W2 m ρ c (Proc.devRef .tc main_arg8) := by skip_host
    _ = W1 m ρ c (Proc.devRef .tc main_arg8) := W2_of_ne m ρ c main_arg8 (by decide)

theorem W7_arg7 (c : Dev nD) : W7 m ρ c (Proc.devRef .tc main_arg7) = W1 m ρ c (Proc.devRef .tc main_arg7) :=
  calc W7 m ρ c (Proc.devRef .tc main_arg7)
    _ = W6 m ρ c (Proc.devRef .tc main_arg7) := by skip_host
    _ = W5 m ρ c (Proc.devRef .tc main_arg7) := W6_of_ne m ρ c main_arg7 (by decide)
    _ = W4 m ρ c (Proc.devRef .tc main_arg7) := by skip_host
    _ = W3 m ρ c (Proc.devRef .tc main_arg7) := W4_of_ne m ρ c main_arg7 (by decide)
    _ = W2 m ρ c (Proc.devRef .tc main_arg7) := by skip_host
    _ = W1 m ρ c (Proc.devRef .tc main_arg7) := W2_of_ne m ρ c main_arg7 (by decide)

theorem W11_arg9 (c : Dev nD) : W11 m ρ c (Proc.devRef .tc main_arg9) = W1 m ρ c (Proc.devRef .tc main_arg9) :=
  calc W11 m ρ c (Proc.devRef .tc main_arg9)
    _ = W10 m ρ c (Proc.devRef .tc main_arg9) := by skip_host
    _ = W9 m ρ c (Proc.devRef .tc main_arg9) := W10_of_ne m ρ c main_arg9 (by decide)
    _ = W8 m ρ c (Proc.devRef .tc main_arg9) := by skip_host
    _ = W7 m ρ c (Proc.devRef .tc main_arg9) := W8_of_ne m ρ c main_arg9 (by decide)
    _ = W6 m ρ c (Proc.devRef .tc main_arg9) := by skip_host
    _ = W5 m ρ c (Proc.devRef .tc main_arg9) := W6_of_ne m ρ c main_arg9 (by decide)
    _ = W4 m ρ c (Proc.devRef .tc main_arg9) := by skip_host
    _ = W3 m ρ c (Proc.devRef .tc main_arg9) := W4_of_ne m ρ c main_arg9 (by decide)
    _ = W2 m ρ c (Proc.devRef .tc main_arg9) := by skip_host
    _ = W1 m ρ c (Proc.devRef .tc main_arg9) := W2_of_ne m ρ c main_arg9 (by decide)

end Cert.KernelIdeal.KFold

end
-- ==== Proof.Spec.lean ====
/-
  The whole-array functions this certificate speaks in, at the ideal instance (entries are extended reals).
  Each is stated index by index over literal extents: a row-times-matrix product plus a bias row, the column
  sums a batch normalisation needs, the affine map followed by a leaky rectifier, the row-wise scaling by
  1.8 / max(‖row‖, 1e-12), and the reparameterisation mu + noise · exp(logstd).
  Nothing here mentions a program: both programs' results are later shown to be compositions of these.
-/
import Idealize.ShloMosaic.PureOps.Ideal
import Idealize.ShloMosaic.Lib.ValueIdx

noncomputable section

namespace Cert.Spec

open Idealize.ShloMosaic Idealize.ShloMosaic.ValueIdx

abbrev SNx128 : Shape := ⟨2, ![100000, 128]⟩
abbrev SNx64 : Shape := ⟨2, ![100000, 64]⟩
abbrev SW128 : Shape := ⟨2, ![128, 128]⟩
abbrev SW64 : Shape := ⟨2, ![128, 64]⟩
abbrev SRow128 : Shape := ⟨2, ![1, 128]⟩
abbrev SRow64 : Shape := ⟨2, ![1, 64]⟩

/-- Entry (n, d) of x · W + b, b a single row: the sum over the 128 shared coordinates, plus b's entry d. -/
def lin128At (x : SNx128.Idx → EReal) (W : SW128.Idx → EReal) (b : SRow128.Idx → EReal) (n : Fin 100000) (d : Fin 128) : EReal :=
  (∑ k : Fin 128, x (ix2 n k) * W (ix2 k d)) + b (ix2 (0 : Fin 1) d)

/-- x · W + b over 100000 rows, 128 columns. -/
def lin128 (x : SNx128.Idx → EReal) (W : SW128.Idx → EReal) (b : SRow128.Idx → EReal) : SNx128.Idx → EReal :=
  fun i => lin128At x W b (i 0) (i 1)

/-- Entry (n, d) of h · W + b for the 128 → 64 projection. -/
def lin64At (h : SNx128.Idx → EReal) (W : SW64.Idx → EReal) (b : SRow64.Idx → EReal) (n : Fin 100000) (d : Fin 64) : EReal :=
  (∑ k : Fin 128, h (ix2 n k) * W (ix2 k d)) + b (ix2 (0 : Fin 1) d)

/-- h · W + b over 100000 rows, 64 columns. -/
def lin64 (h : SNx128.Idx → EReal) (W : SW64.Idx → EReal) (b : SRow64.Idx → EReal) : SNx64.Idx → EReal :=
  fun i => lin64At h W b (i 0) (i 1)

/-- Column d's sum over all 100000 rows, kept as a 1 × 128 row. -/
def colSum (h : SNx128.Idx → EReal) : SRow128.Idx → EReal :=
  fun j => ∑ n : Fin 100000, h (ix2 n (j 1))

/-- Column d's sum of squares over all 100000 rows, kept as a 1 × 128 row. -/
def colSumSq (h : SNx128.Idx → EReal) : SRow128.Idx → EReal :=
  fun j => ∑ n : Fin 100000, h (ix2 n (j 1)) * h (ix2 n (j 1))

/-- The leaky rectifier with slope f32(0.01): y where y > 0, else 0.01 · y. -/
def lrelu (y : EReal) : EReal :=
  Scalar.select (FloatOps.cmpf (F := Ideal) (φ := .f32) .ogt y (Ideal.ofBits .f32 0x00000000#32)) y
    (Ideal.ofBits .f32 0x3C23D70A#32 * y)

/-- Entry (n, d) of the rectified affine map: lrelu (h · scale_d + shift_d). -/
def affineActAt (h : SNx128.Idx → EReal) (scale shift : SRow128.Idx → EReal) (n : Fin 100000) (d : Fin 128) : EReal :=
  lrelu (h (ix2 n d) * scale (ix2 (0 : Fin 1) d) + shift (ix2 (0 : Fin 1) d))

def affineAct (h : SNx128.Idx → EReal) (scale shift : SRow128.Idx → EReal) : SNx128.Idx → EReal :=
  fun i => affineActAt h scale shift (i 0) (i 1)

/-- Row n's sum of squares over its 64 entries. -/
def rowSq (l : SNx64.Idx → EReal) (n : Fin 100000) : EReal := ∑ k : Fin 64, l (ix2 n k) * l (ix2 n k)

/-- Entry (n, d) of the row scaling: l · (1.8 / max (sqrt (row n's sum of squares), 1e-12)), both literals f32 values. -/
def l2scaleAt (l : SNx64.Idx → EReal) (n : Fin 100000) (d : Fin 64) : EReal :=
  l (ix2 n d) * Ideal.div (Ideal.ofBits .f32 0x3FE66666#32)
    (max (Ideal.sqrt (rowSq l n)) (Ideal.ofBits .f32 0x2B8CBCCC#32))

def l2scale (l : SNx64.Idx → EReal) : SNx64.Idx → EReal := fun i => l2scaleAt l (i 0) (i 1)

/-- mu + noise · exp(logstd), entry by entry. -/
def reparam (mu ls noise : SNx64.Idx → EReal) : SNx64.Idx → EReal :=
  fun i => mu i + noise i * Ideal.exp (ls i)

/-- A length-128 vector laid as a single 1 × 128 row. -/
def rowOf128 (b : (⟨1, ![128]⟩ : Shape).Idx → EReal) : SRow128.Idx → EReal := fun j => b (ix1 (j 1))
/-- A length-64 vector laid as a single 1 × 64 row. -/
def rowOf64 (b : (⟨1, ![64]⟩ : Shape).Idx → EReal) : SRow64.Idx → EReal := fun j => b (ix1 (j 1))

theorem lin128_ix2 (x : SNx128.Idx → EReal) (W : SW128.Idx → EReal) (b : SRow128.Idx → EReal) (n : Fin 100000) (d : Fin 128) :
    lin128 x W b (ix2 n d) = lin128At x W b n d := rfl
theorem lin64_ix2 (h : SNx128.Idx → EReal) (W : SW64.Idx → EReal) (b : SRow64.Idx → EReal) (n : Fin 100000) (d : Fin 64) :
    lin64 h W b (ix2 n d) = lin64At h W b n d := rfl
theorem affineAct_ix2 (h : SNx128.Idx → EReal) (scale shift : SRow128.Idx → EReal) (n : Fin 100000) (d : Fin 128) :
    affineAct h scale shift (ix2 n d) = affineActAt h scale shift n d := rfl
theorem l2scale_ix2 (l : SNx64.Idx → EReal) (n : Fin 100000) (d : Fin 64) :
    l2scale l (ix2 n d) = l2scaleAt l n d := rfl
theorem colSum_ix2 (h : SNx128.Idx → EReal) (d : Fin 128) :
    colSum h (ix2 (0 : Fin 1) d) = ∑ n : Fin 100000, h (ix2 n d) := rfl
theorem colSumSq_ix2 (h : SNx128.Idx → EReal) (d : Fin 128) :
    colSumSq h (ix2 (0 : Fin 1) d) = ∑ n : Fin 100000, h (ix2 n d) * h (ix2 n d) := rfl

end Cert.Spec

end
-- ==== Proof.LibPlainDot.lean ====
/-
  A plain matrix product read at an entry, at the ideal values.

  A kernel's `tpu.matmul` of an M×K by a K×N matrix (contract the left operand's columns against the right operand's rows,
  no batch axis) into the zero splat is, at the entry (a, b), the sum over the contracted coordinate c of
  `A (a, c) · B (c, b)`: no rounding, no chunk order. In particular an entry of the product reads only row `a` of the
  left operand — rows of the left operand that hold nothing meaningful spoil only their own rows of the product.
-/
import Idealize.ShloMosaic.Lib.ValueIdx
import Idealize.ShloMosaic.Lib.Pipeline.Value
import Idealize.ShloMosaic.PureOps.Ideal.Laws

noncomputable section

namespace Cert.PlainDot

open Idealize.ShloMosaic Idealize.ShloMosaic.ValueIdx

/-- A kernel's plain product of an M×K by a K×N matrix into the zero splat, read at an entry, is the sum over the
    contracted coordinate of the products of the entries. At the ideal values. -/
theorem matmul_zero_plain_apply {M K N : ℕ} {φ₁ φ₂ : FTy} (prec : Option ContractPrecision)
    (A : FVec Ideal ⟨2, ![M, K]⟩ φ₁) (B : FVec Ideal ⟨2, ![K, N]⟩ φ₂) (a : Fin M) (b : Fin N) :
    matmul (DotDims.plain M K N) prec A B (constant (F := Ideal) ⟨2, ![M, N]⟩ .f32 0x00000000#32) (ix2 a b)
      = ∑ c : Fin K, A (ix2 a c) * B (ix2 c b) := by
  show FloatOps.matmul _ prec A B _ (ix2 a b) = _
  rw [Ideal.matmul_constant_zero_apply, ← Equiv.sum_comp (contrEquiv1 (DotDims.plain M K N) K rfl rfl).symm]
  refine Finset.sum_congr rfl fun c _ => ?_
  have c2 := contrEquiv1_symm_val (DotDims.plain M K N) K rfl rfl c
  have l2 : (DotDims.plain M K N).lhsIdx (ix2 a b) ((contrEquiv1 _ K rfl rfl).symm c) = ix2 a c := by
    funext ax; apply Fin.ext
    match ax with
    | ⟨0, _⟩ => simp [DotDims.lhsIdx, DotDims.plain]; rfl
    | ⟨1, _⟩ => simp [DotDims.lhsIdx, DotDims.plain]; exact c2
  have r2 : (DotDims.plain M K N).rhsIdx (ix2 a b) ((contrEquiv1 _ K rfl rfl).symm c) = ix2 c b := by
    funext ax; apply Fin.ext
    match ax with
    | ⟨0, _⟩ => simp [DotDims.rhsIdx, DotDims.plain]; exact c2
    | ⟨1, _⟩ => simp [DotDims.rhsIdx, DotDims.plain]; rfl
  rw [l2, r2]

end Cert.PlainDot

end
-- ==== Proof.RegLin0.lean ====
/-
  Region 0, the first linear layer: after its 50 grid points the output array is x · W + b.

  Point t takes rows 2000·t … 2000·t + 1999 of the input array, multiplies that row block by the whole 128 × 128 weight
  matrix (at the ideal values the narrowing of both operands is the identity and the product, accumulated into zeros, is
  the exact sum over the 128 shared coordinates), adds the bias row broadcast down the block, and writes the result back
  to rows 2000·t … 2000·t + 1999 of the output array. The weight matrix and the bias row are whole-array windows: every
  point sees all of them. The 50 row blocks tile the 100000 rows, so every entry (n, d) of the output is written by the
  point n / 2000 and holds (∑ k, x (n, k) · W (k, d)) + b (0, d).
-/
import proofs.«132517_j26465588478695_1_alg».proof.Proof.Gen.KernelIdeal.Frame
import proofs.«132517_j26465588478695_1_alg».proof.Proof.Spec
import proofs.«132517_j26465588478695_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegVal

open Idealize.ShloMosaic Idealize.ShloMosaic.TcCoe Idealize.SL.Sem Idealize.ShloMosaic.ValueIdx Cert.KernelIdeal Cert.KernelIdeal.Gen Cert.Spec
open Idealize.ShloMosaic.Pipeline (Dat)

variable (V : (c : Dev nD) → (b : Ref sig .tc) → Buf (Elt Ideal) ((c : Thread nD τ).loc b))

/-- The contraction region 0 prints is the plain one: the left operand's columns against the right operand's rows. -/
theorem linDims0_eq_plain : dot_S2000x128_S128x128_S2000x128_1_0_0_1_n_n = DotDims.plain 2000 128 128 := rfl

/-- One row block times the weight matrix plus the bias row, at an entry: the sum over the 128 shared coordinates
    of the products, plus the bias row's entry of that column. -/
theorem linPayload0_apply (x0 : Vec Ideal S2000x128 .f32) (x1 : Vec Ideal S128x128 .f32) (x2 : Vec Ideal S1x128 .f32)
    (r : Fin 2000) (d : Fin 128) :
    k0_pay1 (F := Ideal) x0 x1 x2 (ix2 r d)
      = (∑ k : Fin 128, x0 (ix2 r k) * x1 (ix2 k d)) + x2 (ix2 (0 : Fin 1) d) := by
  unfold k0_pay1
  refine congrArg₂ (· + ·) ?_ ?_
  · exact Cert.PlainDot.matmul_zero_plain_apply none (truncf .bf16 x0 bitsLt_bf16_f32) (truncf .bf16 x1 bitsLt_bf16_f32) r d
  · exact (broadcastTo_1b_ab_apply _ _ r d).trans (congrFun (shapeCast_self x2 _) _)

theorem linZeroOffsets0 : (![0, 0] : Fin 2 → Nat) = fun _ => 0 := funext fun a => by fin_cases a <;> rfl

/-- The printed index maps over the 50 grid points: the row windows (input and output) sit at block (t, 0), the
    weight matrix and the bias row at block (0, 0). -/
theorem linIndex0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The input's block at point t is rows 2000·t … 2000·t + 1999 of the input array. -/
theorem linRows0_apply (c : Dev nD) (t : Fin cfg0.N) (r : Fin 2000) (k : Fin 128) (n : Fin 100000)
    (hn : n.val = t.val * 2000 + r.val) :
    (iblk0 V c 0 t : Vec Ideal S2000x128 .f32) (ix2 r k)
      = (V c (Pipeline.arrRef spec0 0) : S100000x128.Idx → EReal) (ix2 n k) := by
  obtain ⟨e0, e1, -⟩ := linIndex0 t
  show (V c (Pipeline.arrRef spec0 0) : S100000x128.Idx → EReal) (((cfg0.win 0).blk t).view.emb (ix2 r k)) = _
  refine congrArg _ (funext fun a => Fin.ext ?_)
  match a with
  | ⟨0, _⟩ => show win0_0.index t (0 : Fin 2) * 2000 + 1 * r.val = n.val; omega
  | ⟨1, _⟩ => show win0_0.index t (1 : Fin 2) * 128 + 1 * k.val = k.val; omega

/-- The weight window's block at every point is the whole weight matrix. -/
theorem linWeight0_apply (c : Dev nD) (t : Fin cfg0.N) (k : Fin 128) (d : Fin 128) :
    (iblk0 V c 1 t : Vec Ideal S128x128 .f32) (ix2 k d)
      = (V c (Pipeline.arrRef spec0 1) : S128x128.Idx → EReal) (ix2 k d) := by
  obtain ⟨-, -, e0, e1, -⟩ := linIndex0 t
  show (V c (Pipeline.arrRef spec0 1) : S128x128.Idx → EReal) (((cfg0.win 1).blk t).view.emb (ix2 k d)) = _
  refine congrArg _ (funext fun a => Fin.ext ?_)
  match a with
  | ⟨0, _⟩ => show win0_1.index t (0 : Fin 2) * 128 + 1 * k.val = k.val; omega
  | ⟨1, _⟩ => show win0_1.index t (1 : Fin 2) * 128 + 1 * d.val = d.val; omega

/-- The bias window's block at every point is the whole bias row. -/
theorem linBias0_apply (c : Dev nD) (t : Fin cfg0.N) (u : Fin 1) (d : Fin 128) :
    (iblk0 V c 2 t : Vec Ideal S1x128 .f32) (ix2 u d)
      = (V c (Pipeline.arrRef spec0 2) : S1x128.Idx → EReal) (ix2 u d) := by
  obtain ⟨-, -, -, -, e0, e1, -⟩ := linIndex0 t
  show (V c (Pipeline.arrRef spec0 2) : S1x128.Idx → EReal) (((cfg0.win 2).blk t).view.emb (ix2 u d)) = _
  refine congrArg _ (funext fun a => Fin.ext ?_)
  match a with
  | ⟨0, _⟩ => show win0_2.index t (0 : Fin 2) * 1 + 1 * u.val = u.val; omega
  | ⟨1, _⟩ => show win0_2.index t (1 : Fin 2) * 128 + 1 * d.val = d.val; omega

/-- What point t writes back to the output array is block t of x · W + b of the arrays the region finds. -/
theorem linFlushed0_eq (c : Dev nD) (t : Fin cfg0.N) :
    (dat0 (F := Ideal) V c).flushed 3 t
      = ((cfg0.win 3).blk t).view.read (Elt Ideal)
          (lin128 (V c (Pipeline.arrRef spec0 0)) (V c (Pipeline.arrRef spec0 1)) (V c (Pipeline.arrRef spec0 2))) := by
  show (cfg0.win 3).cut (grid0.coords t) ((dat0 V c).after 3 t) = _
  rw [after0_3]
  unfold out0_3
  rw [View.canon_unit_zero linZeroOffsets0]
  simp only [View.ld_unit_zero (S := S2000x128) linZeroOffsets0, View.ld_unit_zero (S := S128x128) linZeroOffsets0,
    View.ld_unit_zero (S := S1x128) linZeroOffsets0]
  obtain ⟨-, -, -, -, -, -, e0, e1⟩ := linIndex0 t
  have hN : cfg0.N = 50 := N_0
  have ht : t.val < 50 := hN ▸ t.isLt
  funext j
  obtain ⟨r, d, rfl⟩ : ∃ (r : Fin 2000) (d : Fin 128), j = ix2 r d := ⟨j 0, j 1, eq_ix2 j⟩
  have hr : r.val < 2000 := r.isLt
  have hemb : ((cfg0.win 3).blk t).view.emb (ix2 r d) = (ix2 (⟨t.val * 2000 + r.val, by omega⟩ : Fin 100000) d : S100000x128.Idx) := by
    funext a; apply Fin.ext
    match a with
    | ⟨0, _⟩ => show win0_3.index t (0 : Fin 2) * 2000 + 1 * r.val = t.val * 2000 + r.val; omega
    | ⟨1, _⟩ => show win0_3.index t (1 : Fin 2) * 128 + 1 * d.val = d.val; omega
  show k0_pay1 (F := Ideal) (iblk0 V c 0 t) (iblk0 V c 1 t) (iblk0 V c 2 t) (ix2 r d)
    = lin128 (V c (Pipeline.arrRef spec0 0)) (V c (Pipeline.arrRef spec0 1)) (V c (Pipeline.arrRef spec0 2))
        (((cfg0.win 3).blk t).view.emb (ix2 r d))
  rw [hemb, lin128_ix2]
  refine (linPayload0_apply (iblk0 V c 0 t) (iblk0 V c 1 t) (iblk0 V c 2 t) r d).trans ?_
  unfold lin128At
  refine congrArg₂ (· + ·) (Finset.sum_congr rfl fun k _ => congrArg₂ (· * ·) ?_ ?_) ?_
  · exact linRows0_apply V c t r k _ rfl
  · exact linWeight0_apply V c t k d
  · exact linBias0_apply V c t 0 d

/-- An index of the output array is in point t's block iff each coordinate is in the block's range on its axis. -/
theorem linMemBlock0 (t : Fin cfg0.N) (i : S100000x128.Idx) :
    i ∈ ((cfg0.win 3).blk t).view.set
      ↔ ∀ a : Fin 2, win0_3.index t a * S2000x128.size a ≤ (i a).val
          ∧ (i a).val < win0_3.index t a * S2000x128.size a + S2000x128.size a := by
  show i ∈ ((View.whole main_v24).slice (win0_3.rect t)).set ↔ _
  rw [View.set_slice_whole, Rect.mem_set_unit]
  exact Iff.rfl

/-- Every index (n, d) of the output array is in the block of the point n / 2000, which writes back. -/
theorem linCover0 (i : S100000x128.Idx) :
    ∃ t : Fin cfg0.N, (cfg0.win 3).flush t = true ∧ i ∈ ((cfg0.win 3).blk t).view.set := by
  have hN : cfg0.N = 50 := N_0
  have hi0 : (i 0).val < 100000 := (i 0).isLt
  have hi1 : (i 1).val < 128 := (i 1).isLt
  obtain ⟨t, ht⟩ : ∃ t : Fin cfg0.N, t.val = (i 0).val / 2000 := ⟨⟨(i 0).val / 2000, by rw [hN]; omega⟩, rfl⟩
  obtain ⟨-, -, -, -, -, -, e0, e1⟩ := linIndex0 t
  refine ⟨t, flush0_3 t, ?_⟩
  rw [linMemBlock0]
  intro a
  match a with
  | ⟨0, _⟩ =>
    show win0_3.index t (0 : Fin 2) * 2000 ≤ (i 0).val ∧ (i 0).val < win0_3.index t (0 : Fin 2) * 2000 + 2000
    omega
  | ⟨1, _⟩ =>
    show win0_3.index t (1 : Fin 2) * 128 ≤ (i 1).val ∧ (i 1).val < win0_3.index t (1 : Fin 2) * 128 + 128
    omega

/-- After region 0 the output array is x · W + b of the input, weight and bias arrays the region finds. -/
theorem final0 (c : Dev nD) :
    (dat0 (F := Ideal) V c).arrAt 3 cfg0.N
      = lin128 (V c (Pipeline.arrRef spec0 0)) (V c (Pipeline.arrRef spec0 1)) (V c (Pipeline.arrRef spec0 2)) :=
  (dat0 (F := Ideal) V c).arrAt_eq_of_cover 3 _ (fun t _ => linFlushed0_eq V c t) linCover0

end Cert.KernelIdeal.RegVal

end
-- ==== Proof.RegLin3.lean ====
/-
  Region 3, the 128 → 64 projection: after its 50 grid points the output array is h · W + b.

  Point t takes rows 2000·t … 2000·t + 1999 of the 100000 × 128 input array, multiplies that row block by the whole
  128 × 64 weight matrix (at the ideal values the narrowing of both operands is the identity and the product, accumulated
  into zeros, is the exact sum over the 128 shared coordinates), adds the 1 × 64 bias row broadcast down the block, and
  writes the result back to rows 2000·t … 2000·t + 1999 of the 100000 × 64 output array. The weight matrix and the bias
  row are whole-array windows: every point sees all of them. The 50 row blocks tile the 100000 rows, so every entry
  (n, d) of the output is written by the point n / 2000 and holds (∑ k, h (n, k) · W (k, d)) + b (0, d).
-/
import proofs.«132517_j26465588478695_1_alg».proof.Proof.Gen.KernelIdeal.Frame
import proofs.«132517_j26465588478695_1_alg».proof.Proof.Spec
import proofs.«132517_j26465588478695_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegVal

open Idealize.ShloMosaic Idealize.ShloMosaic.TcCoe Idealize.SL.Sem Idealize.ShloMosaic.ValueIdx Cert.KernelIdeal Cert.KernelIdeal.Gen Cert.Spec
open Idealize.ShloMosaic.Pipeline (Dat)

variable (V : (c : Dev nD) → (b : Ref sig .tc) → Buf (Elt Ideal) ((c : Thread nD τ).loc b))

/-- The contraction region 3 prints is the plain one: the left operand's columns against the right operand's rows. -/
theorem linDims3_eq_plain : dot_S2000x128_S128x64_S2000x64_1_0_0_1_n_n = DotDims.plain 2000 128 64 := rfl

/-- One row block times the 128 × 64 weight matrix plus the bias row, at an entry: the sum over the 128 shared
    coordinates of the products, plus the bias row's entry of that column. -/
theorem linPayload3_apply (x0 : Vec Ideal S2000x128 .f32) (x1 : Vec Ideal S128x64 .f32) (x2 : Vec Ideal S1x64 .f32)
    (r : Fin 2000) (d : Fin 64) :
    k3_pay1 (F := Ideal) x0 x1 x2 (ix2 r d)
      = (∑ k : Fin 128, x0 (ix2 r k) * x1 (ix2 k d)) + x2 (ix2 (0 : Fin 1) d) := by
  unfold k3_pay1
  refine congrArg₂ (· + ·) ?_ ?_
  · refine (Cert.PlainDot.matmul_zero_plain_apply none
      (truncf .bf16 (shapeCast S2000x128 x0 shapeCasts_S2000x128_S2000x128) bitsLt_bf16_f32)
      (truncf .bf16 x1 bitsLt_bf16_f32) r d).trans ?_
    refine Finset.sum_congr rfl fun k _ => congrArg (· * x1 (ix2 k d)) ?_
    exact congrFun (shapeCast_self x0 shapeCasts_S2000x128_S2000x128) (ix2 r k)
  · exact (broadcastTo_1b_ab_apply _ _ r d).trans (congrFun (shapeCast_self x2 _) _)

theorem linZeroOffsets3 : (![0, 0] : Fin 2 → Nat) = fun _ => 0 := funext fun a => by fin_cases a <;> rfl

/-- The printed index maps over the 50 grid points: the row windows (input and output) sit at block (t, 0), the
    weight matrix and the bias row at block (0, 0). -/
theorem linIndex3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- The input's block at point t is rows 2000·t … 2000·t + 1999 of the input array. -/
theorem linRows3_apply (c : Dev nD) (t : Fin cfg3.N) (r : Fin 2000) (k : Fin 128) (n : Fin 100000)
    (hn : n.val = t.val * 2000 + r.val) :
    (iblk3 V c 0 t : Vec Ideal S2000x128 .f32) (ix2 r k)
      = (V c (Pipeline.arrRef spec3 0) : S100000x128.Idx → EReal) (ix2 n k) := by
  obtain ⟨e0, e1, -⟩ := linIndex3 t
  show (V c (Pipeline.arrRef spec3 0) : S100000x128.Idx → EReal) (((cfg3.win 0).blk t).view.emb (ix2 r k)) = _
  refine congrArg _ (funext fun a => Fin.ext ?_)
  match a with
  | ⟨0, _⟩ => show win3_0.index t (0 : Fin 2) * 2000 + 1 * r.val = n.val; omega
  | ⟨1, _⟩ => show win3_0.index t (1 : Fin 2) * 128 + 1 * k.val = k.val; omega

/-- The weight window's block at every point is the whole weight matrix. -/
theorem linWeight3_apply (c : Dev nD) (t : Fin cfg3.N) (k : Fin 128) (d : Fin 64) :
    (iblk3 V c 1 t : Vec Ideal S128x64 .f32) (ix2 k d)
      = (V c (Pipeline.arrRef spec3 1) : S128x64.Idx → EReal) (ix2 k d) := by
  obtain ⟨-, -, e0, e1, -⟩ := linIndex3 t
  show (V c (Pipeline.arrRef spec3 1) : S128x64.Idx → EReal) (((cfg3.win 1).blk t).view.emb (ix2 k d)) = _
  refine congrArg _ (funext fun a => Fin.ext ?_)
  match a with
  | ⟨0, _⟩ => show win3_1.index t (0 : Fin 2) * 128 + 1 * k.val = k.val; omega
  | ⟨1, _⟩ => show win3_1.index t (1 : Fin 2) * 64 + 1 * d.val = d.val; omega

/-- The bias window's block at every point is the whole bias row. -/
theorem linBias3_apply (c : Dev nD) (t : Fin cfg3.N) (u : Fin 1) (d : Fin 64) :
    (iblk3 V c 2 t : Vec Ideal S1x64 .f32) (ix2 u d)
      = (V c (Pipeline.arrRef spec3 2) : S1x64.Idx → EReal) (ix2 u d) := by
  obtain ⟨-, -, -, -, e0, e1, -⟩ := linIndex3 t
  show (V c (Pipeline.arrRef spec3 2) : S1x64.Idx → EReal) (((cfg3.win 2).blk t).view.emb (ix2 u d)) = _
  refine congrArg _ (funext fun a => Fin.ext ?_)
  match a with
  | ⟨0, _⟩ => show win3_2.index t (0 : Fin 2) * 1 + 1 * u.val = u.val; omega
  | ⟨1, _⟩ => show win3_2.index t (1 : Fin 2) * 64 + 1 * d.val = d.val; omega

/-- What point t writes back to the output array is block t of h · W + b of the arrays the region finds. -/
theorem linFlushed3_eq (c : Dev nD) (t : Fin cfg3.N) :
    (dat3 (F := Ideal) V c).flushed 3 t
      = ((cfg3.win 3).blk t).view.read (Elt Ideal)
          (lin64 (V c (Pipeline.arrRef spec3 0)) (V c (Pipeline.arrRef spec3 1)) (V c (Pipeline.arrRef spec3 2))) := by
  show (cfg3.win 3).cut (grid3.coords t) ((dat3 V c).after 3 t) = _
  rw [after3_3]
  unfold out3_3
  rw [View.canon_unit_zero linZeroOffsets3]
  simp only [View.ld_unit_zero (S := S2000x128) linZeroOffsets3, View.ld_unit_zero (S := S128x64) linZeroOffsets3,
    View.ld_unit_zero (S := S1x64) linZeroOffsets3]
  obtain ⟨-, -, -, -, -, -, e0, e1⟩ := linIndex3 t
  have hN : cfg3.N = 50 := N_3
  have ht : t.val < 50 := hN ▸ t.isLt
  funext j
  obtain ⟨r, d, rfl⟩ : ∃ (r : Fin 2000) (d : Fin 64), j = ix2 r d := ⟨j 0, j 1, eq_ix2 j⟩
  have hr : r.val < 2000 := r.isLt
  have hemb : ((cfg3.win 3).blk t).view.emb (ix2 r d) = (ix2 (⟨t.val * 2000 + r.val, by omega⟩ : Fin 100000) d : S100000x64.Idx) := by
    funext a; apply Fin.ext
    match a with
    | ⟨0, _⟩ => show win3_3.index t (0 : Fin 2) * 2000 + 1 * r.val = t.val * 2000 + r.val; omega
    | ⟨1, _⟩ => show win3_3.index t (1 : Fin 2) * 64 + 1 * d.val = d.val; omega
  show k3_pay1 (F := Ideal) (iblk3 V c 0 t) (iblk3 V c 1 t) (iblk3 V c 2 t) (ix2 r d)
    = lin64 (V c (Pipeline.arrRef spec3 0)) (V c (Pipeline.arrRef spec3 1)) (V c (Pipeline.arrRef spec3 2))
        (((cfg3.win 3).blk t).view.emb (ix2 r d))
  rw [hemb, lin64_ix2]
  refine (linPayload3_apply (iblk3 V c 0 t) (iblk3 V c 1 t) (iblk3 V c 2 t) r d).trans ?_
  unfold lin64At
  refine congrArg₂ (· + ·) (Finset.sum_congr rfl fun k _ => congrArg₂ (· * ·) ?_ ?_) ?_
  · exact linRows3_apply V c t r k _ rfl
  · exact linWeight3_apply V c t k d
  · exact linBias3_apply V c t 0 d

/-- An index of the output array is in point t's block iff each coordinate is in the block's range on its axis. -/
theorem linMemBlock3 (t : Fin cfg3.N) (i : S100000x64.Idx) :
    i ∈ ((cfg3.win 3).blk t).view.set
      ↔ ∀ a : Fin 2, win3_3.index t a * S2000x64.size a ≤ (i a).val
          ∧ (i a).val < win3_3.index t a * S2000x64.size a + S2000x64.size a := by
  show i ∈ ((View.whole main_v61).slice (win3_3.rect t)).set ↔ _
  rw [View.set_slice_whole, Rect.mem_set_unit]
  exact Iff.rfl

/-- Every index (n, d) of the output array is in the block of the point n / 2000, which writes back. -/
theorem linCover3 (i : S100000x64.Idx) :
    ∃ t : Fin cfg3.N, (cfg3.win 3).flush t = true ∧ i ∈ ((cfg3.win 3).blk t).view.set := by
  have hN : cfg3.N = 50 := N_3
  have hi0 : (i 0).val < 100000 := (i 0).isLt
  have hi1 : (i 1).val < 64 := (i 1).isLt
  obtain ⟨t, ht⟩ : ∃ t : Fin cfg3.N, t.val = (i 0).val / 2000 := ⟨⟨(i 0).val / 2000, by rw [hN]; omega⟩, rfl⟩
  obtain ⟨-, -, -, -, -, -, e0, e1⟩ := linIndex3 t
  refine ⟨t, flush3_3 t, ?_⟩
  rw [linMemBlock3]
  intro a
  match a with
  | ⟨0, _⟩ =>
    show win3_3.index t (0 : Fin 2) * 2000 ≤ (i 0).val ∧ (i 0).val < win3_3.index t (0 : Fin 2) * 2000 + 2000
    omega
  | ⟨1, _⟩ =>
    show win3_3.index t (1 : Fin 2) * 64 ≤ (i 1).val ∧ (i 1).val < win3_3.index t (1 : Fin 2) * 64 + 64
    omega

/-- After region 3 the output array is h · W + b of the input, weight and bias arrays the region finds. -/
theorem final3 (c : Dev nD) :
    (dat3 (F := Ideal) V c).arrAt 3 cfg3.N
      = lin64 (V c (Pipeline.arrRef spec3 0)) (V c (Pipeline.arrRef spec3 1)) (V c (Pipeline.arrRef spec3 2)) :=
  (dat3 (F := Ideal) V c).arrAt_eq_of_cover 3 _ (fun t _ => linFlushed3_eq V c t) linCover3

end Cert.KernelIdeal.RegVal

end
-- ==== Proof.RegStats.lean ====
/-
  The batch-normalisation statistics region: two 1 × 128 rows carried across the 50 grid points. The first point
  zeroes both rows; every point then adds, onto the carried rows, its 2000 × 128 row block's column sums and column
  sums of squares. Entries are extended reals, whose addition is a commutative monoid, so the 50 block sums added in
  order onto zero are the sum over all 100000 rows (rows split as n = 2000 · t + r). What remains in the two result
  arrays is what the last point writes back: the column sums and the column sums of squares of the input array.
-/
import proofs.«132517_j26465588478695_1_alg».proof.Proof.Gen.KernelIdeal.Frame
import proofs.«132517_j26465588478695_1_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

namespace Cert.KernelIdeal.RegVal

open Idealize.ShloMosaic Idealize.ShloMosaic.TcCoe Idealize.SL.Sem Idealize.ShloMosaic.ValueIdx Cert.KernelIdeal Cert.KernelIdeal.Gen Cert.Spec
open Idealize.ShloMosaic.Tactic
open Idealize.ShloMosaic.Pipeline (Dat)

namespace Stats

/-! ## Splitting a sum over 100000 rows into 50 blocks of 2000 -/

section SumBlocks
variable {M : Type*} [AddCommMonoid M]

/-- Row `r` of block `t`: row `2000 · t + r` of the whole array. -/
def rowIdx (t : Fin 50) (r : Fin 2000) : Fin 100000 :=
  ⟨2000 * t.val + r.val, by have := t.isLt; have := r.isLt; omega⟩

/-- A sum over all 100000 rows is the sum over the 50 blocks of each block's 2000 rows:
    `(t, r) ↦ 2000 · t + r` is a bijection from pairs onto rows. -/
theorem sum_blocks (f : Fin 100000 → M) :
    ∑ n : Fin 100000, f n = ∑ t : Fin 50, ∑ r : Fin 2000, f (rowIdx t r) := by
  refine Eq.trans ?_ (Fintype.sum_prod_type' (fun t r => f (rowIdx t r)))
  exact (Fintype.sum_equiv (finProdFinEquiv (m := 50) (n := 2000)) (fun p => f (rowIdx p.1 p.2)) f
    (fun p => congrArg f (Fin.ext (by
      show 2000 * p.1.val + p.2.val = p.2.val + 2000 * p.1.val
      omega)))).symm

/-- Block `t`'s sum, as a function of a natural number: zero past the 50 blocks. -/
def bs (f : Fin 100000 → M) (t : ℕ) : M :=
  if h : t < 50 then ∑ r : Fin 2000, f (rowIdx ⟨t, h⟩ r) else 0

/-- The 50 block sums, added in order, are the sum over all rows. -/
theorem sum_range_bs (f : Fin 100000 → M) : ∑ t ∈ Finset.range 50, bs f t = ∑ n : Fin 100000, f n := by
  rw [sum_blocks f, ← Fin.sum_univ_eq_sum_range (fun t => bs f t) 50]
  exact Finset.sum_congr rfl fun t _ => dif_pos t.isLt

end SumBlocks

/-! ## What each case of the body leaves in the two carried rows -/

theorem hz : (![0, 0] : Fin 2 → Nat) = fun _ => 0 := funext fun a => by fin_cases a <;> rfl

section Pieces
variable {F : FTy → Type} [FloatOps F]

/-- A later point: the one covering store of output 1 holds the carried row plus the block's column sums. -/
theorem out_B_1 (c : Dev nD) (i : grid1.Coords) (a1 : Memref sig .tc .vmem S2000x128 .f32) (h1 : a1.IsWhole)
    (a2 : Memref sig .tc .vmem S1x128 .f32) (h2 : a2.IsWhole) (a3 : Memref sig .tc .vmem S1x128 .f32) (h3 : a3.IsWhole)
    (hc : ¬cond1_0 i) (x : Vec F S2000x128 .f32) (xo1 xo2 : Vec F S1x128 .f32) :
    out1_B_1 c i a1 h1 a2 h2 a3 h3 hc x xo1 xo2 = k1_pay4 x xo1 := by
  unfold out1_B_1
  rw [View.read_writes_eq_canon _ _ _ (cover1_B_1 c i a1 h1 a2 h2 a3 h3 hc x xo1 xo2)]
  unfold kernelRun1_B
  dsimp only
  rw [View.canon_unit_zero hz]
  simp only [View.readAt_eq_ld, h1.read_unread, h2.read_unread, View.ld_unit_zero (S := S2000x128) hz,
    View.ld_unit_zero (S := S1x128) hz]

/-- A later point, output 2: the carried row plus the block's column sums of squares. -/
theorem out_B_2 (c : Dev nD) (i : grid1.Coords) (a1 : Memref sig .tc .vmem S2000x128 .f32) (h1 : a1.IsWhole)
    (a2 : Memref sig .tc .vmem S1x128 .f32) (h2 : a2.IsWhole) (a3 : Memref sig .tc .vmem S1x128 .f32) (h3 : a3.IsWhole)
    (hc : ¬cond1_0 i) (x : Vec F S2000x128 .f32) (xo1 xo2 : Vec F S1x128 .f32) :
    out1_B_2 c i a1 h1 a2 h2 a3 h3 hc x xo1 xo2 = k1_pay5 x xo2 := by
  unfold out1_B_2
  rw [View.read_writes_eq_canon _ _ _ (cover1_B_2 c i a1 h1 a2 h2 a3 h3 hc x xo1 xo2)]
  unfold kernelRun1_B
  dsimp only
  rw [View.canon_unit_zero hz]
  simp only [View.readAt_eq_ld, h1.read_unread, h3.read_unread, View.ld_unit_zero (S := S2000x128) hz,
    View.ld_unit_zero (S := S1x128) hz]

/-- The first point: the row is zeroed, read back, and the block's column sums are added onto it. -/
theorem out_A_1 (c : Dev nD) (i : grid1.Coords) (a1 : Memref sig .tc .vmem S2000x128 .f32) (h1 : a1.IsWhole)
    (a2 : Memref sig .tc .vmem S1x128 .f32) (h2 : a2.IsWhole) (a3 : Memref sig .tc .vmem S1x128 .f32) (h3 : a3.IsWhole)
    (hc : cond1_0 i) (x : Vec F S2000x128 .f32) :
    out1_A_1 c i a1 h1 a2 h2 a3 h3 hc x = k1_pay4 x k1_pay2 := by
  unfold out1_A_1
  rw [View.read_writes_eq_canon _ _ _ (cover1_A_1 c i a1 h1 a2 h2 a3 h3 hc x)]
  unfold kernelRun1_A
  dsimp only
  sl_unfold_words
  rw [View.canon_cons_unit_zero (S := S1x128) hz, View.readCov_unit_zero (S := S1x128) _ hz]
  simp only [View.readAt_eq_ld, h1.read_unread, View.ld_unit_zero (S := S2000x128) hz]

/-- The first point, output 2. -/
theorem out_A_2 (c : Dev nD) (i : grid1.Coords) (a1 : Memref sig .tc .vmem S2000x128 .f32) (h1 : a1.IsWhole)
    (a2 : Memref sig .tc .vmem S1x128 .f32) (h2 : a2.IsWhole) (a3 : Memref sig .tc .vmem S1x128 .f32) (h3 : a3.IsWhole)
    (hc : cond1_0 i) (x : Vec F S2000x128 .f32) :
    out1_A_2 c i a1 h1 a2 h2 a3 h3 hc x = k1_pay5 x k1_pay3 := by
  unfold out1_A_2
  rw [View.read_writes_eq_canon _ _ _ (cover1_A_2 c i a1 h1 a2 h2 a3 h3 hc x)]
  unfold kernelRun1_A
  dsimp only
  sl_unfold_words
  rw [View.canon_cons_unit_zero (S := S1x128) hz, View.readCov_unit_zero (S := S1x128) _ hz]
  simp only [View.readAt_eq_ld, h1.read_unread, View.ld_unit_zero (S := S2000x128) hz]

end Pieces

/-! ## The payloads read at an index, entries extended reals -/

/-- The leading same-shape cast of the loaded block is the block. -/
theorem pay1_eq (x : Vec Ideal S2000x128 .f32) : k1_pay1 (F := Ideal) x = x := by
  unfold k1_pay1
  exact shapeCast_self x _

/-- The zero row stored at the first point. -/
theorem pay2_apply (d : Fin 128) : k1_pay2 (F := Ideal) (ix2 (0 : Fin 1) d) = 0 := by
  unfold k1_pay2
  exact Ideal.ofBits_zero_f32

theorem pay3_apply (d : Fin 128) : k1_pay3 (F := Ideal) (ix2 (0 : Fin 1) d) = 0 := by
  unfold k1_pay3
  exact Ideal.ofBits_zero_f32

/-- Entry (0, d) of the new row of sums: the carried entry plus the sum of column d over the block's 2000 rows. -/
theorem pay4_apply (x : Vec Ideal S2000x128 .f32) (xo : Vec Ideal S1x128 .f32) (d : Fin 128) :
    k1_pay4 (F := Ideal) x xo (ix2 (0 : Fin 1) d) = xo (ix2 (0 : Fin 1) d) + ∑ r : Fin 2000, x (ix2 r d) := by
  unfold k1_pay4
  refine (addf_apply _ _ _).trans ?_
  refine congrArg₂ (· + ·) ?_ ?_
  · exact congrFun (shapeCast_self xo _) _
  · refine (shapeCast_a_1a_apply _ _ (0 : Fin 1) d).trans ?_
    refine (Ideal.multiReduction_add_single _ _ _ _ _ (ix1 d)).trans ?_
    refine Finset.sum_congr rfl fun r _ => ?_
    refine (congrFun (pay1_eq x) _).trans ?_
    exact congrArg x (funext fun a => by
      match a with
      | ⟨0, _⟩ => rfl
      | ⟨1, _⟩ => rfl)

/-- Entry (0, d) of the new row of sums of squares. -/
theorem pay5_apply (x : Vec Ideal S2000x128 .f32) (xo : Vec Ideal S1x128 .f32) (d : Fin 128) :
    k1_pay5 (F := Ideal) x xo (ix2 (0 : Fin 1) d)
      = xo (ix2 (0 : Fin 1) d) + ∑ r : Fin 2000, x (ix2 r d) * x (ix2 r d) := by
  unfold k1_pay5
  refine (addf_apply _ _ _).trans ?_
  refine congrArg₂ (· + ·) ?_ ?_
  · exact congrFun (shapeCast_self xo _) _
  · refine (shapeCast_a_1a_apply _ _ (0 : Fin 1) d).trans ?_
    refine (Ideal.multiReduction_add_single _ _ _ _ _ (ix1 d)).trans ?_
    refine Finset.sum_congr rfl fun r _ => ?_
    refine (mulf_apply _ _ _).trans ?_
    have e : k1_pay1 (F := Ideal) x (reduces_S2000x128_S128.lift (ix1 d) r) = x (ix2 r d) := by
      refine (congrFun (pay1_eq x) _).trans ?_
      exact congrArg x (funext fun a => by
        match a with
        | ⟨0, _⟩ => rfl
        | ⟨1, _⟩ => rfl)
    exact congrArg₂ (· * ·) e e

/-! ## The region's input block, the carried rows point by point, and the final arrays -/

section Region
variable (V : (c : Dev nD) → (b : Ref sig .tc) → Buf (Elt Ideal) ((c : Thread nD τ).loc b))

/-- The region's input array, its 100000 × 128 entries extended reals. -/
abbrev inArr (c : Dev nD) : SNx128.Idx → EReal := V c (Pipeline.arrRef spec1 0)

/-- The input block at point `t`: 2000 × 128 entries. -/
abbrev inBlk (c : Dev nD) (t : Fin cfg1.N) : Vec Ideal S2000x128 .f32 := iblk1 (F := Ideal) V c 0 t

/-- Window 0's block index at point `t` is `(t, 0)` — decided over the grid. -/
theorem index1_0 : ∀ t : Fin grid1.N, win1_0.index t 0 = t.val ∧ win1_0.index t 1 = 0 := by decide +kernel

/-- Entry (r, d) of the input block at point `t` is entry (2000 · t + r, d) of the input array. -/
theorem iblk_apply (c : Dev nD) (t : Fin cfg1.N) (hN : t.val < 50) (r : Fin 2000) (d : Fin 128) :
    inBlk V c t (ix2 r d)
      = inArr V c (ix2 (rowIdx ⟨t.val, hN⟩ r) d) := by
  have hi := index1_0 t
  unfold inBlk inArr iblk1
  rw [View.read_apply]
  show V c _ _ = V c _ _
  congr 1
  funext a
  apply Fin.ext
  match a with
  | ⟨0, _⟩ =>
    show win1_0.index t 0 * 2000 + 1 * r.val = 2000 * t.val + r.val
    rw [hi.1]; omega
  | ⟨1, _⟩ =>
    show win1_0.index t 1 * 128 + 1 * d.val = d.val
    rw [hi.2]; omega

/-- Column d of the block at point `t`, summed over its rows: block `t`'s share of column d's sum. -/
theorem blk_sum (c : Dev nD) (t : Fin cfg1.N) (d : Fin 128) :
    ∑ r : Fin 2000, inBlk V c t (ix2 r d)
      = bs (fun n => inArr V c (ix2 n d)) t.val := by
  have hN : t.val < 50 := lt_of_lt_of_eq t.isLt (show cfg1.N = 50 from N_1)
  unfold bs
  rw [dif_pos hN]
  exact Finset.sum_congr rfl fun r _ => iblk_apply V c t hN r d

/-- The same for the squares. -/
theorem blk_sumSq (c : Dev nD) (t : Fin cfg1.N) (d : Fin 128) :
    ∑ r : Fin 2000, inBlk V c t (ix2 r d)
        * inBlk V c t (ix2 r d)
      = bs (fun n => inArr V c (ix2 n d)
          * inArr V c (ix2 n d)) t.val := by
  have hN : t.val < 50 := lt_of_lt_of_eq t.isLt (show cfg1.N = 50 from N_1)
  unfold bs
  rw [dif_pos hN]
  exact Finset.sum_congr rfl fun r _ => congrArg₂ (· * ·) (iblk_apply V c t hN r d) (iblk_apply V c t hN r d)

/-- After the first point the carried rows are the zero rows with the first block added. -/
theorem outs_zero_1 (c : Dev nD) (h : 0 < cfg1.N) :
    (outsAt1 (F := Ideal) V c 0 h).1 = k1_pay4 (iblk1 V c 0 ⟨0, h⟩) (k1_pay2 (F := Ideal)) :=
  (congrArg Prod.fst (outsAt1_A V c ⟨0, h⟩ rfl)).trans
    (out_A_1 c (grid1.coords ⟨0, h⟩) (ms1_0 ⟨0, h⟩) (hs1_0 ⟨0, h⟩) (ms1_1 ⟨0, h⟩) (hs1_1 ⟨0, h⟩) (ms1_2 ⟨0, h⟩)
      (hs1_2 ⟨0, h⟩) ((hcond1_0 ⟨0, h⟩).mpr rfl) (iblk1 V c 0 ⟨0, h⟩))

theorem outs_zero_2 (c : Dev nD) (h : 0 < cfg1.N) :
    (outsAt1 (F := Ideal) V c 0 h).2 = k1_pay5 (iblk1 V c 0 ⟨0, h⟩) (k1_pay3 (F := Ideal)) :=
  (congrArg Prod.snd (outsAt1_A V c ⟨0, h⟩ rfl)).trans
    (out_A_2 c (grid1.coords ⟨0, h⟩) (ms1_0 ⟨0, h⟩) (hs1_0 ⟨0, h⟩) (ms1_1 ⟨0, h⟩) (hs1_1 ⟨0, h⟩) (ms1_2 ⟨0, h⟩)
      (hs1_2 ⟨0, h⟩) ((hcond1_0 ⟨0, h⟩).mpr rfl) (iblk1 V c 0 ⟨0, h⟩))

/-- After a later point each carried row is the row the point before left with this point's block added. -/
theorem outs_succ_1 (c : Dev nD) (t : Fin cfg1.N) (h0 : ¬t.val % 50 = 0) :
    (outsAt1 (F := Ideal) V c t.val t.isLt).1
      = k1_pay4 (iblk1 V c 0 t) (outsAt1 V c (t.val - 1) (Nat.lt_of_le_of_lt (Nat.sub_le _ _) t.isLt)).1 :=
  (congrArg Prod.fst (outsAt1_B V c t h0)).trans
    (out_B_1 c (grid1.coords t) (ms1_0 t) (hs1_0 t) (ms1_1 t) (hs1_1 t) (ms1_2 t) (hs1_2 t)
      (fun h => h0 ((hcond1_0 t).mp h)) (iblk1 V c 0 t)
      (outsAt1 V c (t.val - 1) (Nat.lt_of_le_of_lt (Nat.sub_le _ _) t.isLt)).1
      (outsAt1 V c (t.val - 1) (Nat.lt_of_le_of_lt (Nat.sub_le _ _) t.isLt)).2)

theorem outs_succ_2 (c : Dev nD) (t : Fin cfg1.N) (h0 : ¬t.val % 50 = 0) :
    (outsAt1 (F := Ideal) V c t.val t.isLt).2
      = k1_pay5 (iblk1 V c 0 t) (outsAt1 V c (t.val - 1) (Nat.lt_of_le_of_lt (Nat.sub_le _ _) t.isLt)).2 :=
  (congrArg Prod.snd (outsAt1_B V c t h0)).trans
    (out_B_2 c (grid1.coords t) (ms1_0 t) (hs1_0 t) (ms1_1 t) (hs1_1 t) (ms1_2 t) (hs1_2 t)
      (fun h => h0 ((hcond1_0 t).mp h)) (iblk1 V c 0 t)
      (outsAt1 V c (t.val - 1) (Nat.lt_of_le_of_lt (Nat.sub_le _ _) t.isLt)).1
      (outsAt1 V c (t.val - 1) (Nat.lt_of_le_of_lt (Nat.sub_le _ _) t.isLt)).2)

/-- THE INVARIANT, sums: after point `n` entry (0, d) of the first carried row is the sum of column d over
    the first `n + 1` blocks, added in order onto zero. -/
theorem inv_sum (c : Dev nD) (d : Fin 128) : ∀ (n : ℕ) (h : n < cfg1.N),
    (outsAt1 (F := Ideal) V c n h).1 (ix2 (0 : Fin 1) d)
      = ∑ t ∈ Finset.range (n + 1), bs (fun m => inArr V c (ix2 m d)) t
  | 0, h => by
    refine (congrFun (outs_zero_1 V c h) (ix2 (0 : Fin 1) d)).trans ?_
    refine (pay4_apply _ _ d).trans ?_
    rw [pay2_apply, zero_add, Finset.sum_range_one]
    exact blk_sum V c ⟨0, h⟩ d
  | n + 1, h => by
    have hN : cfg1.N = 50 := N_1
    have hB : ¬(⟨n + 1, h⟩ : Fin cfg1.N).val % 50 = 0 := by dsimp only; omega
    refine (congrFun (outs_succ_1 V c ⟨n + 1, h⟩ hB) (ix2 (0 : Fin 1) d)).trans ?_
    refine (pay4_apply _ _ d).trans ?_
    rw [Finset.sum_range_succ _ (n + 1)]
    exact congrArg₂ (· + ·) (inv_sum c d n (Nat.lt_of_succ_lt h)) (blk_sum V c ⟨n + 1, h⟩ d)

/-- THE INVARIANT, sums of squares. -/
theorem inv_sq (c : Dev nD) (d : Fin 128) : ∀ (n : ℕ) (h : n < cfg1.N),
    (outsAt1 (F := Ideal) V c n h).2 (ix2 (0 : Fin 1) d)
      = ∑ t ∈ Finset.range (n + 1), bs (fun m => inArr V c (ix2 m d)
          * inArr V c (ix2 m d)) t
  | 0, h => by
    refine (congrFun (outs_zero_2 V c h) (ix2 (0 : Fin 1) d)).trans ?_
    refine (pay5_apply _ _ d).trans ?_
    rw [pay3_apply, zero_add, Finset.sum_range_one]
    exact blk_sumSq V c ⟨0, h⟩ d
  | n + 1, h => by
    have hN : cfg1.N = 50 := N_1
    have hB : ¬(⟨n + 1, h⟩ : Fin cfg1.N).val % 50 = 0 := by dsimp only; omega
    refine (congrFun (outs_succ_2 V c ⟨n + 1, h⟩ hB) (ix2 (0 : Fin 1) d)).trans ?_
    refine (pay5_apply _ _ d).trans ?_
    rw [Finset.sum_range_succ _ (n + 1)]
    exact congrArg₂ (· + ·) (inv_sq c d n (Nat.lt_of_succ_lt h)) (blk_sumSq V c ⟨n + 1, h⟩ d)

/-- The last point. -/
abbrev t49 : Fin cfg1.N := ⟨49, lt_of_lt_of_eq (by decide : 49 < 50) N_1.symm⟩

/-- After the last point the first carried row is the row of column sums over all 100000 rows. -/
theorem last_sum (c : Dev nD) (h : 49 < cfg1.N) :
    (outsAt1 (F := Ideal) V c 49 h).1 = colSum (V c (Pipeline.arrRef spec1 0)) := by
  funext j
  obtain ⟨a, b, rfl⟩ : ∃ (a : Fin 1) (b : Fin 128), j = ix2 a b := ⟨j 0, j 1, eq_ix2 j⟩
  obtain rfl : a = 0 := Subsingleton.elim _ _
  refine (inv_sum V c b 49 h).trans ?_
  exact sum_range_bs (fun m => inArr V c (ix2 m b))

theorem last_sq (c : Dev nD) (h : 49 < cfg1.N) :
    (outsAt1 (F := Ideal) V c 49 h).2 = colSumSq (V c (Pipeline.arrRef spec1 0)) := by
  funext j
  obtain ⟨a, b, rfl⟩ : ∃ (a : Fin 1) (b : Fin 128), j = ix2 a b := ⟨j 0, j 1, eq_ix2 j⟩
  obtain rfl : a = 0 := Subsingleton.elim _ _
  refine (inv_sq V c b 49 h).trans ?_
  exact sum_range_bs (fun m => inArr V c (ix2 m b) * inArr V c (ix2 m b))

/-- Output 1's one write-back, at the last point, writes the row of column sums: its block is the whole 1 × 128 array. -/
theorem flushed_eq_1 (c : Dev nD) (t : Fin cfg1.N) (hf : (cfg1.win 1).flush t = true) :
    (dat1 (F := Ideal) V c).flushed 1 t
      = ((cfg1.win 1).blk t).view.read (Elt Ideal) (colSum (V c (Pipeline.arrRef spec1 0))) := by
  have hN : cfg1.N = 50 := N_1
  have h49 : t.val = 49 := by have := (flush1_1 t).mp hf; have := t.isLt; omega
  obtain rfl : t = t49 := Fin.ext h49
  show (cfg1.win 1).cut (grid1.coords t49) ((dat1 V c).after 1 t49) = _
  rw [after1_1]
  show (cfg1.win 1).cut (grid1.coords t49) (outsAt1 V c 49 t49.isLt).1 = _
  rw [last_sum V c t49.isLt]
  have hz' : (fun a => win1_1.index t49 a * main_v42_0.ty.shape.size a) = fun _ => 0 :=
    funext fun a => by fin_cases a <;> rfl
  exact (Memref.read_access_unit_zero (Elt Ideal) main_v42_0 hz' (fun a => by rw [congrFun hz' a]; simp)
    (colSum (V c (Pipeline.arrRef spec1 0)))).symm

theorem flushed_eq_2 (c : Dev nD) (t : Fin cfg1.N) (hf : (cfg1.win 2).flush t = true) :
    (dat1 (F := Ideal) V c).flushed 2 t
      = ((cfg1.win 2).blk t).view.read (Elt Ideal) (colSumSq (V c (Pipeline.arrRef spec1 0))) := by
  have hN : cfg1.N = 50 := N_1
  have h49 : t.val = 49 := by have := (flush1_2 t).mp hf; have := t.isLt; omega
  obtain rfl : t = t49 := Fin.ext h49
  show (cfg1.win 2).cut (grid1.coords t49) ((dat1 V c).after 2 t49) = _
  rw [after1_2]
  show (cfg1.win 2).cut (grid1.coords t49) (outsAt1 V c 49 t49.isLt).2 = _
  rw [last_sq V c t49.isLt]
  have hz' : (fun a => win1_2.index t49 a * main_v42_1.ty.shape.size a) = fun _ => 0 :=
    funext fun a => by fin_cases a <;> rfl
  exact (Memref.read_access_unit_zero (Elt Ideal) main_v42_1 hz' (fun a => by rw [congrFun hz' a]; simp)
    (colSumSq (V c (Pipeline.arrRef spec1 0)))).symm

end Region

end Stats

/-! ## The two result arrays after the region -/

section Final
variable (V : (c : Dev nD) → (b : Ref sig .tc) → Buf (Elt Ideal) ((c : Thread nD τ).loc b))
open Stats

/-- After the region output window 1's array holds the column sums over all 100000 rows. -/
theorem final1_sum (c : Dev nD) :
    (dat1 (F := Ideal) V c).arrAt 1 cfg1.N = colSum (V c (Pipeline.arrRef spec1 0)) :=
  (dat1 (F := Ideal) V c).arrAt_eq_of_cover 1 (colSum (V c (Pipeline.arrRef spec1 0))) (flushed_eq_1 V c) fun i =>
    ⟨t49, (flush1_1 t49).mpr rfl, by
      show i ∈ ((View.whole main_v42_0).slice (win1_1.rect t49)).set
      rw [View.set_slice_whole, Rect.mem_set_unit]
      intro a
      have h0 : (i 0 : Nat) < 1 := (i 0).isLt
      have h1 : (i 1 : Nat) < 128 := (i 1).isLt
      match a with
      | ⟨0, _⟩ =>
        show win1_1.index t49 0 * win1_1.size 0 ≤ (i 0 : Nat) ∧ (i 0 : Nat) < win1_1.index t49 0 * win1_1.size 0 + win1_1.xsize (grid1.coords t49) 0
        rw [show win1_1.index t49 0 * win1_1.size 0 = 0 from by decide +kernel, show win1_1.xsize (grid1.coords t49) 0 = 1 from by decide +kernel]; omega
      | ⟨1, _⟩ =>
        show win1_1.index t49 1 * win1_1.size 1 ≤ (i 1 : Nat) ∧ (i 1 : Nat) < win1_1.index t49 1 * win1_1.size 1 + win1_1.xsize (grid1.coords t49) 1
        rw [show win1_1.index t49 1 * win1_1.size 1 = 0 from by decide +kernel, show win1_1.xsize (grid1.coords t49) 1 = 128 from by decide +kernel]; omega⟩

/-- After the region output window 2's array holds the column sums of squares over all 100000 rows. -/
theorem final1_sq (c : Dev nD) :
    (dat1 (F := Ideal) V c).arrAt 2 cfg1.N = colSumSq (V c (Pipeline.arrRef spec1 0)) :=
  (dat1 (F := Ideal) V c).arrAt_eq_of_cover 2 (colSumSq (V c (Pipeline.arrRef spec1 0))) (flushed_eq_2 V c) fun i =>
    ⟨t49, (flush1_2 t49).mpr rfl, by
      show i ∈ ((View.whole main_v42_1).slice (win1_2.rect t49)).set
      rw [View.set_slice_whole, Rect.mem_set_unit]
      intro a
      have h0 : (i 0 : Nat) < 1 := (i 0).isLt
      have h1 : (i 1 : Nat) < 128 := (i 1).isLt
      match a with
      | ⟨0, _⟩ =>
        show win1_2.index t49 0 * win1_2.size 0 ≤ (i 0 : Nat) ∧ (i 0 : Nat) < win1_2.index t49 0 * win1_2.size 0 + win1_2.xsize (grid1.coords t49) 0
        rw [show win1_2.index t49 0 * win1_2.size 0 = 0 from by decide +kernel, show win1_2.xsize (grid1.coords t49) 0 = 1 from by decide +kernel]; omega
      | ⟨1, _⟩ =>
        show win1_2.index t49 1 * win1_2.size 1 ≤ (i 1 : Nat) ∧ (i 1 : Nat) < win1_2.index t49 1 * win1_2.size 1 + win1_2.xsize (grid1.coords t49) 1
        rw [show win1_2.index t49 1 * win1_2.size 1 = 0 from by decide +kernel, show win1_2.xsize (grid1.coords t49) 1 = 128 from by decide +kernel]; omega⟩

end Final

end Cert.KernelIdeal.RegVal

end
-- ==== Proof.RegAffine.lean ====
/-
  The affine-and-rectifier region, read as a value at the ideal instance: over a grid of 50 points, each owning a block
  of 2000 consecutive rows of a 100000 × 128 array, with a 1 × 128 scale row and a 1 × 128 shift row seen whole at
  every point, the body writes lrelu(x · scale_d + shift_d) entry by entry into the matching block of the result
  (lrelu y = y where y > 0, else 0.01 · y).  Entry (r, d) of block t is entry (2000 t + r, d) of its array; the 50
  blocks cover every row (row n lies in block n / 2000); so the result array ends as the rectified affine map of the
  three arrays as the region found them.
-/
import proofs.«132517_j26465588478695_1_alg».proof.Proof.Gen.KernelIdeal.Frame
import proofs.«132517_j26465588478695_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegVal

open Idealize.ShloMosaic Idealize.ShloMosaic.TcCoe Idealize.SL.Sem Idealize.ShloMosaic.ValueIdx Cert.KernelIdeal Cert.KernelIdeal.Gen Cert.Spec

variable (V : (c : Dev nD) → (b : Ref sig .tc) → Buf (Elt Ideal) ((c : Thread nD τ).loc b))

/-- The offset vector (0, 0) of a whole-block access is the constant zero function. -/
theorem affine_offsets_zero : (![0, 0] : Fin 2 → Nat) = fun _ => 0 := funext fun a => by fin_cases a <;> rfl

/-- Entry (r, d) of the body's result on one block: the leaky rectifier of x · scale_d + shift_d, the scale and shift
    rows being repeated down the block's 2000 rows. -/
theorem affine_payload_apply (x : Vec Ideal S2000x128 .f32) (s b : Vec Ideal S1x128 .f32) (r : Fin 2000) (d : Fin 128) :
    k2_pay1 (F := Ideal) x s b (ix2 r d)
      = lrelu (x (ix2 r d) * s (ix2 (0 : Fin 1) d) + b (ix2 (0 : Fin 1) d)) := by
  have hs : broadcastTo S2000x128 s broadcasts_S1x128_S2000x128 (ix2 r d) = s (ix2 (0 : Fin 1) d) :=
    broadcastTo_1b_ab_apply s broadcasts_S1x128_S2000x128 r d
  have hb : broadcastTo S2000x128 b broadcasts_S1x128_S2000x128 (ix2 r d) = b (ix2 (0 : Fin 1) d) :=
    broadcastTo_1b_ab_apply b broadcasts_S1x128_S2000x128 r d
  unfold k2_pay1 lrelu
  simp only [shapeCast_self]
  simp only [select_apply, cmpf_apply, mulf_apply, addf_apply, broadcast_apply]
  rw [hs, hb]
  rfl

/-- The printed index maps, decided over the 50 grid points: the big array's and the result's block index is (t, 0),
    the scale and shift rows are whole-array blocks at index (0, 0). -/
theorem affine_index_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- Entry (r, d) of window 0's block at point t is entry (2000 t + r, d) of the window's array. -/
theorem affine_block0_entry (c : Dev nD) (t : Fin cfg2.N) (r : Fin 2000) (d : Fin 128) (k : S100000x128.Idx)
    (hk0 : (k 0).val = 2000 * t.val + r.val) (hk1 : (k 1).val = d.val) :
    (iblk2 V c 0 t : Vec Ideal S2000x128 .f32) (ix2 r d) = (V c (Pipeline.arrRef spec2 0) : S100000x128.Idx → EReal) k := by
  obtain ⟨e00, e01, e10, e11, e20, e21, e30, e31⟩ := affine_index_facts t
  unfold iblk2
  rw [View.read_apply]
  show (V c (Pipeline.arrRef spec2 0) : S100000x128.Idx → EReal) _ = _
  congr 1
  funext a; apply Fin.ext
  match a with
  | ⟨0, _⟩ => show win2_0.index t (0 : Fin 2) * 2000 + 1 * r.val = (k 0).val; omega
  | ⟨1, _⟩ => show win2_0.index t (1 : Fin 2) * 128 + 1 * d.val = (k 1).val; omega

/-- Window 1's block at every point is the whole scale row: its entry (0, d) is the row's entry (0, d). -/
theorem affine_block1_entry (c : Dev nD) (t : Fin cfg2.N) (d : Fin 128) :
    (iblk2 V c 1 t : Vec Ideal S1x128 .f32) (ix2 (0 : Fin 1) d)
      = (V c (Pipeline.arrRef spec2 1) : S1x128.Idx → EReal) (ix2 (0 : Fin 1) d) := by
  obtain ⟨e00, e01, e10, e11, e20, e21, e30, e31⟩ := affine_index_facts t
  unfold iblk2
  rw [View.read_apply]
  show (V c (Pipeline.arrRef spec2 1) : S1x128.Idx → EReal) _ = _
  congr 1
  funext a; apply Fin.ext
  match a with
  | ⟨0, _⟩ => show win2_1.index t (0 : Fin 2) * 1 + 1 * 0 = 0; omega
  | ⟨1, _⟩ => show win2_1.index t (1 : Fin 2) * 128 + 1 * d.val = d.val; omega

/-- Window 2's block at every point is the whole shift row: its entry (0, d) is the row's entry (0, d). -/
theorem affine_block2_entry (c : Dev nD) (t : Fin cfg2.N) (d : Fin 128) :
    (iblk2 V c 2 t : Vec Ideal S1x128 .f32) (ix2 (0 : Fin 1) d)
      = (V c (Pipeline.arrRef spec2 2) : S1x128.Idx → EReal) (ix2 (0 : Fin 1) d) := by
  obtain ⟨e00, e01, e10, e11, e20, e21, e30, e31⟩ := affine_index_facts t
  unfold iblk2
  rw [View.read_apply]
  show (V c (Pipeline.arrRef spec2 2) : S1x128.Idx → EReal) _ = _
  congr 1
  funext a; apply Fin.ext
  match a with
  | ⟨0, _⟩ => show win2_2.index t (0 : Fin 2) * 1 + 1 * 0 = 0; omega
  | ⟨1, _⟩ => show win2_2.index t (1 : Fin 2) * 128 + 1 * d.val = d.val; omega

/-- Reading any array of the result's shape through point t's block of the result window: entry (r, d) of the block is
    entry (2000 t + r, d) of the array. -/
theorem affine_out_block_entry (G : S100000x128.Idx → EReal) (t : Fin cfg2.N) (r : Fin 2000) (d : Fin 128) (k : S100000x128.Idx)
    (hk0 : (k 0).val = 2000 * t.val + r.val) (hk1 : (k 1).val = d.val) :
    (((cfg2.win 3).blk t).view.read (Elt Ideal) G : Vec Ideal S2000x128 .f32) (ix2 r d) = G k := by
  obtain ⟨e00, e01, e10, e11, e20, e21, e30, e31⟩ := affine_index_facts t
  rw [View.read_apply]
  show G _ = _
  congr 1
  funext a; apply Fin.ext
  match a with
  | ⟨0, _⟩ => show win2_3.index t (0 : Fin 2) * 2000 + 1 * r.val = (k 0).val; omega
  | ⟨1, _⟩ => show win2_3.index t (1 : Fin 2) * 128 + 1 * d.val = (k 1).val; omega

/-- What grid point t writes back is block t of the rectified affine map of the three arrays the region finds. -/
theorem affine_flushed_eq (c : Dev nD) (t : Fin cfg2.N) :
    (dat2 (F := Ideal) V c).flushed 3 t = ((cfg2.win 3).blk t).view.read (Elt Ideal)
      (affineAct (V c (Pipeline.arrRef spec2 0)) (V c (Pipeline.arrRef spec2 1)) (V c (Pipeline.arrRef spec2 2))) := by
  show (cfg2.win 3).cut (grid2.coords t) ((dat2 (F := Ideal) V c).after 3 t) = _
  rw [after2_3]
  unfold out2_3
  rw [View.canon_unit_zero affine_offsets_zero]
  simp only [View.ld_unit_zero (S := S2000x128) affine_offsets_zero, View.ld_unit_zero (S := S1x128) affine_offsets_zero]
  funext j
  obtain ⟨r, d, rfl⟩ : ∃ (r : Fin 2000) (d : Fin 128), j = ix2 r d := ⟨j 0, j 1, eq_ix2 j⟩
  refine (affine_payload_apply (iblk2 V c 0 t) (iblk2 V c 1 t) (iblk2 V c 2 t) r d).trans ?_
  have ht : t.val < 50 := Nat.lt_of_lt_of_eq t.isLt (show cfg2.N = 50 from N_2)
  have hk : 2000 * t.val + r.val < 100000 := by have := r.isLt; omega
  rw [affine_block0_entry V c t r d (ix2 ⟨2000 * t.val + r.val, hk⟩ d) rfl rfl,
    affine_block1_entry V c t d, affine_block2_entry V c t d]
  exact (affine_out_block_entry (affineAct (V c (Pipeline.arrRef spec2 0)) (V c (Pipeline.arrRef spec2 1)) (V c (Pipeline.arrRef spec2 2)))
    t r d (ix2 ⟨2000 * t.val + r.val, hk⟩ d) rfl rfl).symm

/-- An index of the result array lies in point t's block iff each coordinate lies in the block's range on its axis. -/
theorem affine_mem_block (t : Fin cfg2.N) (i : S100000x128.Idx) :
    i ∈ ((cfg2.win 3).blk t).view.set ↔ ∀ a : Fin 2, win2_3.index t a * S2000x128.size a ≤ (i a).val ∧ (i a).val < win2_3.index t a * S2000x128.size a + S2000x128.size a := by
  show i ∈ ((View.whole main_v59).slice (win2_3.rect t)).set ↔ _
  rw [View.set_slice_whole, Rect.mem_set_unit]
  exact Iff.rfl

/-- Every index of the result array lies in the block of the point numbered by its row divided by 2000. -/
theorem affine_cover (i : S100000x128.Idx) :
    ∃ t : Fin cfg2.N, (cfg2.win 3).flush t = true ∧ i ∈ ((cfg2.win 3).blk t).view.set := by
  have hN : cfg2.N = 50 := N_2
  have hi0 : (i 0).val < 100000 := (i 0).isLt
  have hi1 : (i 1).val < 128 := (i 1).isLt
  let t : Fin cfg2.N := ⟨(i 0).val / 2000, by rw [hN]; omega⟩
  obtain ⟨-, -, -, -, -, -, e30, e31⟩ := affine_index_facts t
  have ht : t.val = (i 0).val / 2000 := rfl
  refine ⟨t, flush2_3 t, ?_⟩
  rw [affine_mem_block]
  intro a
  match a with
  | ⟨0, _⟩ => show win2_3.index t (0 : Fin 2) * 2000 ≤ (i 0).val ∧ (i 0).val < win2_3.index t (0 : Fin 2) * 2000 + 2000; omega
  | ⟨1, _⟩ => show win2_3.index t (1 : Fin 2) * 128 ≤ (i 1).val ∧ (i 1).val < win2_3.index t (1 : Fin 2) * 128 + 128; omega

/-- The result array after the region: the rectified affine map of the array in window 0 by the scale row in window 1
    and the shift row in window 2, as the region finds them. -/
theorem final2 (c : Dev nD) :
    (dat2 (F := Ideal) V c).arrAt 3 cfg2.N
      = affineAct (V c (Pipeline.arrRef spec2 0)) (V c (Pipeline.arrRef spec2 1)) (V c (Pipeline.arrRef spec2 2)) :=
  (dat2 (F := Ideal) V c).arrAt_eq_of_cover 3 _ (fun t _ => affine_flushed_eq V c t) affine_cover

end Cert.KernelIdeal.RegVal

end
-- ==== Proof.LibLayout.lean ====
/-
  Layout operations read at an index, for the shapes a row-batched kernel meets: a stack [a, b, c] of b rows per
  member flattened to [a·b, c] and back (row p·b + n of the flat array is row n of member p), a per-member row [a, c]
  given a unit middle axis [a, 1, c] and broadcast over the b rows of its member, and a vector [a] stood up as a
  column [a, 1].  Row-major order: the position of (p, n, d) in [a, b, c] is (p·b + n)·c + d.
-/
import Idealize.ShloMosaic.Lib.Pipeline.Value
import Idealize.ShloMosaic.Lib.ValueIdx
import Idealize.ShloMosaic.Lib.ValueLayout

noncomputable section

namespace Cert.LibLayout

open Idealize.ShloMosaic Idealize.ShloMosaic.ValueIdx

variable {α : Type}

/-- [a, b, c] flattened to [m, c] with m = a·b: row r = p·b + n of the result is row n of member p. -/
theorem shapeCast_abc_mc_apply {a b c m : ℕ} (x : (⟨3, ![a, b, c]⟩ : Shape).Idx → α)
    (h : (⟨3, ![a, b, c]⟩ : Shape).ShapeCasts ⟨2, ![m, c]⟩) (r : Fin m) (p : Fin a) (n : Fin b) (d : Fin c)
    (hr : r.val = p.val * b + n.val) : shapeCast ⟨2, ![m, c]⟩ x h (ix2 r d) = x (ix3 p n d) :=
  shapeCast_apply x h _ _ (by
    rw [Shape.rowMajor_val_three, Shape.rowMajor_val_two]
    show (p.val * b + n.val) * c + d.val = r.val * c + d.val
    rw [hr])

/-- [m, c] with m = a·b split to [a, b, c]: row n of member p is row r = p·b + n of the operand. -/
theorem shapeCast_mc_abc_apply {a b c m : ℕ} (x : (⟨2, ![m, c]⟩ : Shape).Idx → α)
    (h : (⟨2, ![m, c]⟩ : Shape).ShapeCasts ⟨3, ![a, b, c]⟩) (r : Fin m) (p : Fin a) (n : Fin b) (d : Fin c)
    (hr : r.val = p.val * b + n.val) : shapeCast ⟨3, ![a, b, c]⟩ x h (ix3 p n d) = x (ix2 r d) :=
  shapeCast_apply x h _ _ (by
    rw [Shape.rowMajor_val_three, Shape.rowMajor_val_two]
    show r.val * c + d.val = (p.val * b + n.val) * c + d.val
    rw [hr])

/-- [a, c] given a unit middle axis [a, 1, c]: the entries are the same. -/
theorem shapeCast_ac_a1c_apply {a c : ℕ} (x : (⟨2, ![a, c]⟩ : Shape).Idx → α)
    (h : (⟨2, ![a, c]⟩ : Shape).ShapeCasts ⟨3, ![a, 1, c]⟩) (p : Fin a) (u : Fin 1) (d : Fin c) :
    shapeCast ⟨3, ![a, 1, c]⟩ x h (ix3 p u d) = x (ix2 p d) :=
  shapeCast_apply x h _ _ (by
    have hu : u.val = 0 := by omega
    rw [Shape.rowMajor_val_three, Shape.rowMajor_val_two]
    show p.val * c + d.val = (p.val * 1 + u.val) * c + d.val
    rw [hu, Nat.mul_one, Nat.add_zero])

/-- [a, 1, c] broadcast over the middle axis to [a, b, c]: every row n of member p is the member's one row. -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (n : Fin b) (d : Fin c) :
    broadcastTo ⟨3, ![a, b, c]⟩ v h (ix3 p n d) = v (ix3 p (0 : Fin 1) d) := by
  refine broadcastTo_apply v h (ix3 p n d) (ix3 p (0 : Fin 1) d) fun ax => ?_
  match ax with
  | ⟨0, _⟩ =>
    show p.val = if a = 1 then 0 else p.val
    split
    · have := p.isLt; omega
    · rfl
  | ⟨1, _⟩ => rfl
  | ⟨2, _⟩ =>
    show d.val = if c = 1 then 0 else d.val
    split
    · have := d.isLt; omega
    · rfl

/-- A per-member row [a, c] given a unit middle axis and broadcast over its member's b rows: entry (p, n, d) is the
    member's entry (p, d). -/
theorem keep_apply {a b c : ℕ} (x : (⟨2, ![a, c]⟩ : Shape).Idx → α)
    (h1 : (⟨2, ![a, c]⟩ : Shape).ShapeCasts ⟨3, ![a, 1, c]⟩) (h2 : (⟨3, ![a, 1, c]⟩ : Shape).Broadcasts ⟨3, ![a, b, c]⟩)
    (p : Fin a) (n : Fin b) (d : Fin c) :
    broadcastTo ⟨3, ![a, b, c]⟩ (shapeCast ⟨3, ![a, 1, c]⟩ x h1) h2 (ix3 p n d) = x (ix2 p d) := by
  rw [broadcastTo_a1c_abc_apply, shapeCast_ac_a1c_apply]

/-- A vector [a] stood up as a column [a, 1]. -/
theorem shapeCast_a_a1_apply {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A bias vector [b] as a row [1, b] broadcast down a rows: entry (p, q) is the bias at q. -/
theorem bias_apply {a b : ℕ} (x : (⟨1, ![b]⟩ : Shape).Idx → α)
    (h1 : (⟨1, ![b]⟩ : Shape).ShapeCasts ⟨2, ![1, b]⟩) (h2 : (⟨2, ![1, b]⟩ : Shape).Broadcasts ⟨2, ![a, b]⟩)
    (p : Fin a) (q : Fin b) :
    broadcastTo ⟨2, ![a, b]⟩ (shapeCast ⟨2, ![1, b]⟩ x h1) h2 (ix2 p q) = x (ix1 q) := by
  rw [broadcastTo_1b_ab_apply, shapeCast_a_1a_apply]

end Cert.LibLayout

end
-- ==== Proof.RegL2.lean ====
/-
  The row-normalisation region, read as a value at the ideal instance: over a grid of 50 points, each owning a block of
  2000 consecutive rows of a 100000 × 64 array, the body scales every row of its block by
  1.8 / max(sqrt(the row's sum of squares), 1e-12): the squares are summed along the 64 lanes, the sums stood up as a
  2000 × 1 column, and the column of factors repeated along the lanes.  A block holds whole rows, so a row's sum of
  squares inside its block is its sum of squares in the array.  Entry (r, d) of block t is entry (2000 t + r, d) of
  its array; the 50 blocks cover every row (row n lies in block n / 2000); so the result array ends as the row scaling
  of the array as the region found it.
-/
import proofs.«132517_j26465588478695_1_alg».proof.Proof.Gen.KernelIdeal.Frame
import proofs.«132517_j26465588478695_1_alg».proof.Proof.Spec
import Idealize.ShloMosaic.Lib.Pipeline.Value
import Idealize.ShloMosaic.Lib.ValueIdx
import Idealize.ShloMosaic.Lib.ValueLayout
import Idealize.ShloMosaic.PureOps.Ideal.Laws
import proofs.«132517_j26465588478695_1_alg».proof.Proof.LibLayout
set_option maxRecDepth 16384

noncomputable section

namespace Cert.KernelIdeal.RegVal

open Idealize.ShloMosaic Idealize.ShloMosaic.TcCoe Idealize.SL.Sem Idealize.ShloMosaic.ValueIdx Cert.KernelIdeal Cert.KernelIdeal.Gen Cert.Spec

variable (V : (c : Dev nD) → (b : Ref sig .tc) → Buf (Elt Ideal) ((c : Thread nD τ).loc b))

/-- The offset vector (0, 0) of a whole-block access is the constant zero function. -/
theorem l2_offsets_zero : (![0, 0] : Fin 2 → Nat) = fun _ => 0 := funext fun a => by fin_cases a <;> rfl

/-- The sum over the 64 lanes of a 2000 × 64 block, read at row r: the sum of the row's 64 entries. -/
theorem l2_lane_sum_apply (y : Vec Ideal S2000x64 .f32) (r : Fin 2000) :
    multiReduction (F := Ideal) .add [1] S2000 y 0x00000000#32 reduces_S2000x64_S2000 (.inl rfl) rfl (ix1 r)
      = ∑ k : Fin 64, y (ix2 r k) := by
  refine (Ideal.multiReduction_add_single y 0x00000000#32 reduces_S2000x64_S2000 (.inl rfl) rfl (ix1 r)).trans ?_
  refine Finset.sum_congr rfl fun k _ => congrArg y ?_
  funext a; apply Fin.ext
  match a with
  | ⟨0, _⟩ => rfl
  | ⟨1, _⟩ => rfl

/-- A column [a, 1] repeated along b lanes: entry (p, q) is the column's entry (p, 0). -/
theorem l2_column_broadcast_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- Entry (r, d) of the body's result on one block: the entry times 1.8 / max(sqrt(row r's sum of squares), 1e-12). -/
theorem l2_payload_apply (x : Vec Ideal S2000x64 .f32) (r : Fin 2000) (d : Fin 64) :
    k4_pay1 (F := Ideal) x (ix2 r d)
      = x (ix2 r d) * Ideal.div (Ideal.ofBits .f32 0x3FE66666#32)
          (max (Ideal.sqrt (∑ k : Fin 64, x (ix2 r k) * x (ix2 r k))) (Ideal.ofBits .f32 0x2B8CBCCC#32)) := by
  unfold k4_pay1
  simp only [shapeCast_self]
  rw [mulf_apply]
  refine congrArg (fun z => x (ix2 r d) * z) ?_
  refine (l2_column_broadcast_apply _ broadcasts_S2000x1_S2000x64 r d).trans ?_
  rw [divf_apply, maximumf_apply, broadcast_apply, broadcast_apply]
  show Ideal.div _ (max (Ideal.sqrt (shapeCast S2000x1 _ shapeCasts_S2000_S2000x1 (ix2 r (0 : Fin 1)))) _) = _
  rw [Cert.LibLayout.shapeCast_a_a1_apply _ shapeCasts_S2000_S2000x1 r (0 : Fin 1), l2_lane_sum_apply]
  rfl

/-- The printed index maps, decided over the 50 grid points: both windows' block index is (t, 0). -/
theorem l2_index_facts : ∀ t : Fin cfg4.N,
    win4_0.index t (0 : Fin 2) = t.val ∧ win4_0.index t (1 : Fin 2) = 0
    ∧ win4_1.index t (0 : Fin 2) = t.val ∧ win4_1.index t (1 : Fin 2) = 0 :=
  (by decide +kernel : ∀ t : Fin grid4.N, _)

/-- Entry (r, d) of window 0's block at point t is entry (2000 t + r, d) of the window's array. -/
theorem l2_block0_entry (c : Dev nD) (t : Fin cfg4.N) (r : Fin 2000) (d : Fin 64) (k : S100000x64.Idx)
    (hk0 : (k 0).val = 2000 * t.val + r.val) (hk1 : (k 1).val = d.val) :
    (iblk4 V c 0 t : Vec Ideal S2000x64 .f32) (ix2 r d) = (V c (Pipeline.arrRef spec4 0) : S100000x64.Idx → EReal) k := by
  obtain ⟨e00, e01, e10, e11⟩ := l2_index_facts t
  unfold iblk4
  rw [View.read_apply]
  show (V c (Pipeline.arrRef spec4 0) : S100000x64.Idx → EReal) _ = _
  congr 1
  funext a; apply Fin.ext
  match a with
  | ⟨0, _⟩ => show win4_0.index t (0 : Fin 2) * 2000 + 1 * r.val = (k 0).val; omega
  | ⟨1, _⟩ => show win4_0.index t (1 : Fin 2) * 64 + 1 * d.val = (k 1).val; omega

/-- Reading any array of the result's shape through point t's block of the result window: entry (r, d) of the block is
    entry (2000 t + r, d) of the array. -/
theorem l2_out_block_entry (G : S100000x64.Idx → EReal) (t : Fin cfg4.N) (r : Fin 2000) (d : Fin 64) (k : S100000x64.Idx)
    (hk0 : (k 0).val = 2000 * t.val + r.val) (hk1 : (k 1).val = d.val) :
    (((cfg4.win 1).blk t).view.read (Elt Ideal) G : Vec Ideal S2000x64 .f32) (ix2 r d) = G k := by
  obtain ⟨e00, e01, e10, e11⟩ := l2_index_facts t
  rw [View.read_apply]
  show G _ = _
  congr 1
  funext a; apply Fin.ext
  match a with
  | ⟨0, _⟩ => show win4_1.index t (0 : Fin 2) * 2000 + 1 * r.val = (k 0).val; omega
  | ⟨1, _⟩ => show win4_1.index t (1 : Fin 2) * 64 + 1 * d.val = (k 1).val; omega

/-- If row r of a block agrees entry by entry with row n of an array, the block's scaled entry (r, d) — the entry times
    1.8 / max(sqrt(the block row's sum of squares), 1e-12) — is the array's row scaling at (n, d). -/
theorem l2_scale_of_rows_agree (B : Vec Ideal S2000x64 .f32) (A : S100000x64.Idx → EReal) (r : Fin 2000) (n : Fin 100000)
    (d : Fin 64) (h : ∀ q : Fin 64, B (ix2 r q) = A (ix2 n q)) :
    B (ix2 r d) * Ideal.div (Ideal.ofBits .f32 0x3FE66666#32)
        (max (Ideal.sqrt (∑ k : Fin 64, B (ix2 r k) * B (ix2 r k))) (Ideal.ofBits .f32 0x2B8CBCCC#32))
      = l2scale A (ix2 n d) := by
  have hs : (∑ k : Fin 64, B (ix2 r k) * B (ix2 r k)) = ∑ k : Fin 64, A (ix2 n k) * A (ix2 n k) :=
    Finset.sum_congr rfl fun q _ => by rw [h q]
  rw [l2scale_ix2, h d, hs]
  rfl

/-- What grid point t writes back is block t of the row scaling of the array the region finds: a block holds whole
    rows, so a row's sum of squares inside the block is the row's sum of squares in the array. -/
theorem l2_flushed_eq (c : Dev nD) (t : Fin cfg4.N) :
    (dat4 (F := Ideal) V c).flushed 1 t = ((cfg4.win 1).blk t).view.read (Elt Ideal)
      (l2scale (V c (Pipeline.arrRef spec4 0))) := by
  show (cfg4.win 1).cut (grid4.coords t) ((dat4 (F := Ideal) V c).after 1 t) = _
  rw [after4_1]
  unfold out4_1
  rw [View.canon_unit_zero l2_offsets_zero]
  simp only [View.ld_unit_zero (S := S2000x64) l2_offsets_zero]
  funext j
  obtain ⟨r, d, rfl⟩ : ∃ (r : Fin 2000) (d : Fin 64), j = ix2 r d := ⟨j 0, j 1, eq_ix2 j⟩
  refine (l2_payload_apply (iblk4 V c 0 t) r d).trans ?_
  have ht : t.val < 50 := Nat.lt_of_lt_of_eq t.isLt (show cfg4.N = 50 from N_4)
  have hk : 2000 * t.val + r.val < 100000 := by have := r.isLt; omega
  have hent : ∀ q : Fin 64, (iblk4 V c 0 t : Vec Ideal S2000x64 .f32) (ix2 r q)
      = (V c (Pipeline.arrRef spec4 0) : S100000x64.Idx → EReal) (ix2 ⟨2000 * t.val + r.val, hk⟩ q) :=
    fun q => l2_block0_entry V c t r q (ix2 ⟨2000 * t.val + r.val, hk⟩ q) rfl rfl
  exact (l2_scale_of_rows_agree (iblk4 V c 0 t) (V c (Pipeline.arrRef spec4 0)) r ⟨2000 * t.val + r.val, hk⟩ d hent).trans
    (l2_out_block_entry (l2scale (V c (Pipeline.arrRef spec4 0))) t r d (ix2 ⟨2000 * t.val + r.val, hk⟩ d) rfl rfl).symm

/-- An index of the result array lies in point t's block iff each coordinate lies in the block's range on its axis. -/
theorem l2_mem_block (t : Fin cfg4.N) (i : S100000x64.Idx) :
    i ∈ ((cfg4.win 1).blk t).view.set ↔ ∀ a : Fin 2, win4_1.index t a * S2000x64.size a ≤ (i a).val ∧ (i a).val < win4_1.index t a * S2000x64.size a + S2000x64.size a := by
  show i ∈ ((View.whole main_v79).slice (win4_1.rect t)).set ↔ _
  rw [View.set_slice_whole, Rect.mem_set_unit]
  exact Iff.rfl

/-- Every index of the result array lies in the block of the point numbered by its row divided by 2000. -/
theorem l2_cover (i : S100000x64.Idx) :
    ∃ t : Fin cfg4.N, (cfg4.win 1).flush t = true ∧ i ∈ ((cfg4.win 1).blk t).view.set := by
  have hN : cfg4.N = 50 := N_4
  have hi0 : (i 0).val < 100000 := (i 0).isLt
  have hi1 : (i 1).val < 64 := (i 1).isLt
  let t : Fin cfg4.N := ⟨(i 0).val / 2000, by rw [hN]; omega⟩
  obtain ⟨-, -, e10, e11⟩ := l2_index_facts t
  have ht : t.val = (i 0).val / 2000 := rfl
  refine ⟨t, flush4_1 t, ?_⟩
  rw [l2_mem_block]
  intro a
  match a with
  | ⟨0, _⟩ => show win4_1.index t (0 : Fin 2) * 2000 ≤ (i 0).val ∧ (i 0).val < win4_1.index t (0 : Fin 2) * 2000 + 2000; omega
  | ⟨1, _⟩ => show win4_1.index t (1 : Fin 2) * 64 ≤ (i 1).val ∧ (i 1).val < win4_1.index t (1 : Fin 2) * 64 + 64; omega

/-- The result array after the region: every row of the array in window 0, as the region finds it, scaled by
    1.8 / max(sqrt(the row's sum of squares), 1e-12). -/
theorem final4 (c : Dev nD) :
    (dat4 (F := Ideal) V c).arrAt 1 cfg4.N = l2scale (V c (Pipeline.arrRef spec4 0)) :=
  (dat4 (F := Ideal) V c).arrAt_eq_of_cover 1 _ (fun t _ => l2_flushed_eq V c t) l2_cover

end Cert.KernelIdeal.RegVal

end
-- ==== Proof.RegReparam.lean ====
/-
  The reparameterisation region, read as a value at the ideal instance: over a grid of 50 points, each owning a block
  of 2000 consecutive rows of three 100000 × 64 arrays (mu, logstd, noise), the body writes mu + noise · exp(logstd)
  entry by entry into the matching block of the result.  Entry (r, d) of block t is entry (2000 t + r, d) of its
  array; the 50 blocks cover every row (row n lies in block n / 2000); so the result array ends as
  mu + noise · exp(logstd) of the three arrays as the region found them.
-/
import proofs.«132517_j26465588478695_1_alg».proof.Proof.Gen.KernelIdeal.Frame
import proofs.«132517_j26465588478695_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegVal

open Idealize.ShloMosaic Idealize.ShloMosaic.TcCoe Idealize.SL.Sem Idealize.ShloMosaic.ValueIdx Cert.KernelIdeal Cert.KernelIdeal.Gen Cert.Spec

variable (V : (c : Dev nD) → (b : Ref sig .tc) → Buf (Elt Ideal) ((c : Thread nD τ).loc b))

/-- The offset vector (0, 0) of a whole-block access is the constant zero function. -/
theorem reparam_offsets_zero : (![0, 0] : Fin 2 → Nat) = fun _ => 0 := funext fun a => by fin_cases a <;> rfl

/-- Entry (r, d) of the body's result on one block: mu + noise · exp(logstd), entry by entry. -/
theorem reparam_payload_apply (mu noise ls : Vec Ideal S2000x64 .f32) (r : Fin 2000) (d : Fin 64) :
    k5_pay1 (F := Ideal) mu noise ls (ix2 r d) = mu (ix2 r d) + noise (ix2 r d) * Ideal.exp (ls (ix2 r d)) := by
  unfold k5_pay1
  simp only [shapeCast_self]
  rfl

/-- The printed index maps, decided over the 50 grid points: every window's block index is (t, 0). -/
theorem reparam_index_facts : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0
    ∧ win5_3.index t (0 : Fin 2) = t.val ∧ win5_3.index t (1 : Fin 2) = 0 :=
  (by decide +kernel : ∀ t : Fin grid5.N, _)

/-- Entry (r, d) of window 0's block at point t is entry (2000 t + r, d) of the window's array. -/
theorem reparam_block0_entry (c : Dev nD) (t : Fin cfg5.N) (r : Fin 2000) (d : Fin 64) (k : S100000x64.Idx)
    (hk0 : (k 0).val = 2000 * t.val + r.val) (hk1 : (k 1).val = d.val) :
    (iblk5 V c 0 t : Vec Ideal S2000x64 .f32) (ix2 r d) = (V c (Pipeline.arrRef spec5 0) : S100000x64.Idx → EReal) k := by
  obtain ⟨e00, e01, e10, e11, e20, e21, e30, e31⟩ := reparam_index_facts t
  unfold iblk5
  rw [View.read_apply]
  show (V c (Pipeline.arrRef spec5 0) : S100000x64.Idx → EReal) _ = _
  congr 1
  funext a; apply Fin.ext
  match a with
  | ⟨0, _⟩ => show win5_0.index t (0 : Fin 2) * 2000 + 1 * r.val = (k 0).val; omega
  | ⟨1, _⟩ => show win5_0.index t (1 : Fin 2) * 64 + 1 * d.val = (k 1).val; omega

/-- Entry (r, d) of window 1's block at point t is entry (2000 t + r, d) of the window's array. -/
theorem reparam_block1_entry (c : Dev nD) (t : Fin cfg5.N) (r : Fin 2000) (d : Fin 64) (k : S100000x64.Idx)
    (hk0 : (k 0).val = 2000 * t.val + r.val) (hk1 : (k 1).val = d.val) :
    (iblk5 V c 1 t : Vec Ideal S2000x64 .f32) (ix2 r d) = (V c (Pipeline.arrRef spec5 1) : S100000x64.Idx → EReal) k := by
  obtain ⟨e00, e01, e10, e11, e20, e21, e30, e31⟩ := reparam_index_facts t
  unfold iblk5
  rw [View.read_apply]
  show (V c (Pipeline.arrRef spec5 1) : S100000x64.Idx → EReal) _ = _
  congr 1
  funext a; apply Fin.ext
  match a with
  | ⟨0, _⟩ => show win5_1.index t (0 : Fin 2) * 2000 + 1 * r.val = (k 0).val; omega
  | ⟨1, _⟩ => show win5_1.index t (1 : Fin 2) * 64 + 1 * d.val = (k 1).val; omega

/-- Entry (r, d) of window 2's block at point t is entry (2000 t + r, d) of the window's array. -/
theorem reparam_block2_entry (c : Dev nD) (t : Fin cfg5.N) (r : Fin 2000) (d : Fin 64) (k : S100000x64.Idx)
    (hk0 : (k 0).val = 2000 * t.val + r.val) (hk1 : (k 1).val = d.val) :
    (iblk5 V c 2 t : Vec Ideal S2000x64 .f32) (ix2 r d) = (V c (Pipeline.arrRef spec5 2) : S100000x64.Idx → EReal) k := by
  obtain ⟨e00, e01, e10, e11, e20, e21, e30, e31⟩ := reparam_index_facts t
  unfold iblk5
  rw [View.read_apply]
  show (V c (Pipeline.arrRef spec5 2) : S100000x64.Idx → EReal) _ = _
  congr 1
  funext a; apply Fin.ext
  match a with
  | ⟨0, _⟩ => show win5_2.index t (0 : Fin 2) * 2000 + 1 * r.val = (k 0).val; omega
  | ⟨1, _⟩ => show win5_2.index t (1 : Fin 2) * 64 + 1 * d.val = (k 1).val; omega

/-- Reading any array of the result's shape through point t's block of the result window: entry (r, d) of the block is
    entry (2000 t + r, d) of the array. -/
theorem reparam_out_block_entry (G : S100000x64.Idx → EReal) (t : Fin cfg5.N) (r : Fin 2000) (d : Fin 64) (k : S100000x64.Idx)
    (hk0 : (k 0).val = 2000 * t.val + r.val) (hk1 : (k 1).val = d.val) :
    (((cfg5.win 3).blk t).view.read (Elt Ideal) G : Vec Ideal S2000x64 .f32) (ix2 r d) = G k := by
  obtain ⟨e00, e01, e10, e11, e20, e21, e30, e31⟩ := reparam_index_facts t
  rw [View.read_apply]
  show G _ = _
  congr 1
  funext a; apply Fin.ext
  match a with
  | ⟨0, _⟩ => show win5_3.index t (0 : Fin 2) * 2000 + 1 * r.val = (k 0).val; omega
  | ⟨1, _⟩ => show win5_3.index t (1 : Fin 2) * 64 + 1 * d.val = (k 1).val; omega

/-- What grid point t writes back is block t of mu + noise · exp(logstd) of the three arrays the region finds. -/
theorem reparam_flushed_eq (c : Dev nD) (t : Fin cfg5.N) :
    (dat5 (F := Ideal) V c).flushed 3 t = ((cfg5.win 3).blk t).view.read (Elt Ideal)
      (reparam (V c (Pipeline.arrRef spec5 0)) (V c (Pipeline.arrRef spec5 1)) (V c (Pipeline.arrRef spec5 2))) := by
  show (cfg5.win 3).cut (grid5.coords t) ((dat5 (F := Ideal) V c).after 3 t) = _
  rw [after5_3]
  unfold out5_3
  rw [View.canon_unit_zero reparam_offsets_zero]
  simp only [View.ld_unit_zero (S := S2000x64) reparam_offsets_zero]
  funext j
  obtain ⟨r, d, rfl⟩ : ∃ (r : Fin 2000) (d : Fin 64), j = ix2 r d := ⟨j 0, j 1, eq_ix2 j⟩
  refine (reparam_payload_apply (iblk5 V c 0 t) (iblk5 V c 2 t) (iblk5 V c 1 t) r d).trans ?_
  have ht : t.val < 50 := Nat.lt_of_lt_of_eq t.isLt (show cfg5.N = 50 from N_5)
  have hk : 2000 * t.val + r.val < 100000 := by have := r.isLt; omega
  rw [reparam_block0_entry V c t r d (ix2 ⟨2000 * t.val + r.val, hk⟩ d) rfl rfl,
    reparam_block1_entry V c t r d (ix2 ⟨2000 * t.val + r.val, hk⟩ d) rfl rfl,
    reparam_block2_entry V c t r d (ix2 ⟨2000 * t.val + r.val, hk⟩ d) rfl rfl]
  exact (reparam_out_block_entry (reparam (V c (Pipeline.arrRef spec5 0)) (V c (Pipeline.arrRef spec5 1)) (V c (Pipeline.arrRef spec5 2)))
    t r d (ix2 ⟨2000 * t.val + r.val, hk⟩ d) rfl rfl).symm

/-- An index of the result array lies in point t's block iff each coordinate lies in the block's range on its axis. -/
theorem reparam_mem_block (t : Fin cfg5.N) (i : S100000x64.Idx) :
    i ∈ ((cfg5.win 3).blk t).view.set ↔ ∀ a : Fin 2, win5_3.index t a * S2000x64.size a ≤ (i a).val ∧ (i a).val < win5_3.index t a * S2000x64.size a + S2000x64.size a := by
  show i ∈ ((View.whole main_v97).slice (win5_3.rect t)).set ↔ _
  rw [View.set_slice_whole, Rect.mem_set_unit]
  exact Iff.rfl

/-- Every index of the result array lies in the block of the point numbered by its row divided by 2000. -/
theorem reparam_cover (i : S100000x64.Idx) :
    ∃ t : Fin cfg5.N, (cfg5.win 3).flush t = true ∧ i ∈ ((cfg5.win 3).blk t).view.set := by
  have hN : cfg5.N = 50 := N_5
  have hi0 : (i 0).val < 100000 := (i 0).isLt
  have hi1 : (i 1).val < 64 := (i 1).isLt
  let t : Fin cfg5.N := ⟨(i 0).val / 2000, by rw [hN]; omega⟩
  obtain ⟨-, -, -, -, -, -, e30, e31⟩ := reparam_index_facts t
  have ht : t.val = (i 0).val / 2000 := rfl
  refine ⟨t, flush5_3 t, ?_⟩
  rw [reparam_mem_block]
  intro a
  match a with
  | ⟨0, _⟩ => show win5_3.index t (0 : Fin 2) * 2000 ≤ (i 0).val ∧ (i 0).val < win5_3.index t (0 : Fin 2) * 2000 + 2000; omega
  | ⟨1, _⟩ => show win5_3.index t (1 : Fin 2) * 64 ≤ (i 1).val ∧ (i 1).val < win5_3.index t (1 : Fin 2) * 64 + 64; omega

/-- The result array after the region: mu + noise · exp(logstd) of the arrays the region finds in windows 0, 1 and 2. -/
theorem final5 (c : Dev nD) :
    (dat5 (F := Ideal) V c).arrAt 3 cfg5.N
      = reparam (V c (Pipeline.arrRef spec5 0)) (V c (Pipeline.arrRef spec5 1)) (V c (Pipeline.arrRef spec5 2)) :=
  (dat5 (F := Ideal) V c).arrAt_eq_of_cover 3 _ (fun t _ => reparam_flushed_eq V c t) reparam_cover

end Cert.KernelIdeal.RegVal

end
-- ==== Proof.KFold.lean ====
/-
  The idealized kernel program's three results as functions of its ten argument arrays.
  The run leaves every buffer at the fold of twelve segments; here that fold is read at the buffers that
  matter, boundary by boundary: the edge and self-loop weights and the bias row after the first stretch; the
  first projection x·W1 + b1 after region 0; its propagation after the second stretch; the column sums and
  sums of squares after region 1; the scale and shift rows after the third stretch; the rectified affine map
  after region 2; the second projection after region 3; its propagation (the first result, mu); the scaled
  rows after region 4; their propagation (the second result, logstd); and mu + noise · exp(logstd) after
  region 5 (the third result). A region's output array is what its points wrote back, which the region
  modules identify with a whole-array function; every other buffer a region or a stretch passes is unchanged.
-/
import proofs.«132517_j26465588478695_1_alg».proof.Proof.Gen.KernelIdeal.Frame
import proofs.«132517_j26465588478695_1_alg».proof.Proof.KStages
import proofs.«132517_j26465588478695_1_alg».proof.Proof.KFoldCarry
import proofs.«132517_j26465588478695_1_alg».proof.Proof.Spec
import proofs.«132517_j26465588478695_1_alg».proof.Proof.RegLin0
import proofs.«132517_j26465588478695_1_alg».proof.Proof.RegLin3
import proofs.«132517_j26465588478695_1_alg».proof.Proof.RegStats
import proofs.«132517_j26465588478695_1_alg».proof.Proof.RegAffine
import proofs.«132517_j26465588478695_1_alg».proof.Proof.RegL2
import proofs.«132517_j26465588478695_1_alg».proof.Proof.RegReparam
import Idealize.ShloMosaic.Lib.StableHlo.Run
import Idealize.ShloMosaic.PureOps.Ideal

set_option maxRecDepth 16384

noncomputable section

namespace Cert.KernelIdeal.KFold

open Idealize.ShloMosaic Idealize.ShloMosaic.TcCoe Idealize.SL.Sem Idealize.ShloMosaic.StableHlo
open Cert.KernelIdeal Cert.KernelIdeal.Gen Cert.KernelIdeal.KStages Cert.Spec

variable (m : (ℓ : Loc nD τ sig) → Buf (Elt Ideal) ℓ) (ρ : Dev nD → PrngReg)

/-! ## After the first stretch: the weights, the bias row, and the arguments as launched -/

set_option maxHeartbeats 2000000 in
theorem W1_v21 (c : Dev nD) : W1 m ρ c (Proc.devRef .tc main_v21) = edgeW (W0 m ρ c (Proc.devRef .tc main_arg1)) (W0 m ρ c (Proc.devRef .tc main_arg2)) := by
  show StableHlo.after hostOps0 (W0 m ρ c) (Proc.devRef .tc main_v21) = _
  after_results_simp
  unfold edgeW dinv wrapIdx
  with_reducible rfl

set_option maxHeartbeats 2000000 in
theorem W1_v22 (c : Dev nD) : W1 m ρ c (Proc.devRef .tc main_v22) = selfW (W0 m ρ c (Proc.devRef .tc main_arg2)) := by
  show StableHlo.after hostOps0 (W0 m ρ c) (Proc.devRef .tc main_v22) = _
  after_results_simp
  unfold selfW dinv
  with_reducible rfl

set_option maxHeartbeats 2000000 in
theorem W1_v23 (c : Dev nD) : W1 m ρ c (Proc.devRef .tc main_v23) = row128 (W0 m ρ c (Proc.devRef .tc main_arg4)) := by
  show StableHlo.after hostOps0 (W0 m ρ c) (Proc.devRef .tc main_v23) = _
  after_results_simp
  rfl

set_option maxHeartbeats 2000000 in
theorem W1_arg0 (c : Dev nD) : W1 m ρ c (Proc.devRef .tc main_arg0) = (W0 m ρ c (Proc.devRef .tc main_arg0)) := by
  show StableHlo.after hostOps0 (W0 m ρ c) (Proc.devRef .tc main_arg0) = _
  after_results_simp

set_option maxHeartbeats 2000000 in
theorem W1_arg1 (c : Dev nD) : W1 m ρ c (Proc.devRef .tc main_arg1) = (W0 m ρ c (Proc.devRef .tc main_arg1)) := by
  show StableHlo.after hostOps0 (W0 m ρ c) (Proc.devRef .tc main_arg1) = _
  after_results_simp

set_option maxHeartbeats 2000000 in
theorem W1_arg2 (c : Dev nD) : W1 m ρ c (Proc.devRef .tc main_arg2) = (W0 m ρ c (Proc.devRef .tc main_arg2)) := by
  show StableHlo.after hostOps0 (W0 m ρ c) (Proc.devRef .tc main_arg2) = _
  after_results_simp

set_option maxHeartbeats 2000000 in
theorem W1_arg3 (c : Dev nD) : W1 m ρ c (Proc.devRef .tc main_arg3) = (W0 m ρ c (Proc.devRef .tc main_arg3)) := by
  show StableHlo.after hostOps0 (W0 m ρ c) (Proc.devRef .tc main_arg3) = _
  after_results_simp

set_option maxHeartbeats 2000000 in
theorem W1_arg5 (c : Dev nD) : W1 m ρ c (Proc.devRef .tc main_arg5) = (W0 m ρ c (Proc.devRef .tc main_arg5)) := by
  show StableHlo.after hostOps0 (W0 m ρ c) (Proc.devRef .tc main_arg5) = _
  after_results_simp

set_option maxHeartbeats 2000000 in
theorem W1_arg6 (c : Dev nD) : W1 m ρ c (Proc.devRef .tc main_arg6) = (W0 m ρ c (Proc.devRef .tc main_arg6)) := by
  show StableHlo.after hostOps0 (W0 m ρ c) (Proc.devRef .tc main_arg6) = _
  after_results_simp

set_option maxHeartbeats 2000000 in
theorem W1_arg7 (c : Dev nD) : W1 m ρ c (Proc.devRef .tc main_arg7) = (W0 m ρ c (Proc.devRef .tc main_arg7)) := by
  show StableHlo.after hostOps0 (W0 m ρ c) (Proc.devRef .tc main_arg7) = _
  after_results_simp

set_option maxHeartbeats 2000000 in
theorem W1_arg8 (c : Dev nD) : W1 m ρ c (Proc.devRef .tc main_arg8) = (W0 m ρ c (Proc.devRef .tc main_arg8)) := by
  show StableHlo.after hostOps0 (W0 m ρ c) (Proc.devRef .tc main_arg8) = _
  after_results_simp

set_option maxHeartbeats 2000000 in
theorem W1_arg9 (c : Dev nD) : W1 m ρ c (Proc.devRef .tc main_arg9) = (W0 m ρ c (Proc.devRef .tc main_arg9)) := by
  show StableHlo.after hostOps0 (W0 m ρ c) (Proc.devRef .tc main_arg9) = _
  after_results_simp

/-! ## Region 0: the first projection -/

theorem W2_v24 (c : Dev nD) : W2 m ρ c (Proc.devRef .tc main_v24) = lin128 (W0 m ρ c (Proc.devRef .tc main_arg0)) (W0 m ρ c (Proc.devRef .tc main_arg3)) (row128 (W0 m ρ c (Proc.devRef .tc main_arg4))) := by
  refine ((W2_arr m ρ c 3).trans (Cert.KernelIdeal.RegVal.final0 (V1 m ρ) c)).trans ?_
  show lin128 (W1 m ρ c (Proc.devRef .tc main_arg0)) (W1 m ρ c (Proc.devRef .tc main_arg3)) (W1 m ρ c (Proc.devRef .tc main_v23)) = _
  rw [W1_arg0, W1_arg3, W1_v23]

/-! ## The second stretch: the first propagation -/

set_option maxHeartbeats 2000000 in
theorem W3_v41 (c : Dev nD) : W3 m ρ c (Proc.devRef .tc main_v41) = agg128 (W2 m ρ c (Proc.devRef .tc main_v24)) (W2 m ρ c (Proc.devRef .tc main_arg1)) (W2 m ρ c (Proc.devRef .tc main_arg2)) (W2 m ρ c (Proc.devRef .tc main_v21)) (W2 m ρ c (Proc.devRef .tc main_v22)) := by
  show StableHlo.after hostOps1 (W2 m ρ c) (Proc.devRef .tc main_v41) = _
  after_results_simp
  unfold agg128 wrapIdx
  with_reducible rfl

/-- The propagated first projection, of the arguments. -/
def h1 (c : Dev nD) : SNx128.Idx → EReal :=
  agg128 (F := Ideal) (lin128 (W0 m ρ c (Proc.devRef .tc main_arg0)) (W0 m ρ c (Proc.devRef .tc main_arg3)) (row128 (W0 m ρ c (Proc.devRef .tc main_arg4)))) (W0 m ρ c (Proc.devRef .tc main_arg1)) (W0 m ρ c (Proc.devRef .tc main_arg2)) (edgeW (W0 m ρ c (Proc.devRef .tc main_arg1)) (W0 m ρ c (Proc.devRef .tc main_arg2))) (selfW (W0 m ρ c (Proc.devRef .tc main_arg2)))

theorem W3_h1 (c : Dev nD) : W3 m ρ c (Proc.devRef .tc main_v41) = h1 m ρ c := by
  rw [W3_v41, W2_v24, W2_arg1, W2_arg2, W2_v21, W2_v22, W1_arg1, W1_arg2, W1_v21, W1_v22]
  rfl

/-! ## Region 1: the column sums; the third stretch: the scale and shift rows -/

theorem W4_v42_0 (c : Dev nD) : W4 m ρ c (Proc.devRef .tc main_v42_0) = colSum (h1 m ρ c) := by
  refine ((W4_arr m ρ c 1).trans (Cert.KernelIdeal.RegVal.final1_sum (V3 m ρ) c)).trans ?_
  show colSum (W3 m ρ c (Proc.devRef .tc main_v41)) = _
  rw [W3_h1]
theorem W4_v42_1 (c : Dev nD) : W4 m ρ c (Proc.devRef .tc main_v42_1) = colSumSq (h1 m ρ c) := by
  refine ((W4_arr m ρ c 2).trans (Cert.KernelIdeal.RegVal.final1_sq (V3 m ρ) c)).trans ?_
  show colSumSq (W3 m ρ c (Proc.devRef .tc main_v41)) = _
  rw [W3_h1]
theorem W4_v41 (c : Dev nD) : W4 m ρ c (Proc.devRef .tc main_v41) = h1 m ρ c :=
  ((W4_arr m ρ c 0).trans (((dat1 (V3 m ρ) c).arrAt_in 0 rfl _).trans (A_eq1 (V3 m ρ) c 0))).trans (W3_h1 m ρ c)

set_option maxHeartbeats 2000000 in
theorem W5_v57 (c : Dev nD) : W5 m ρ c (Proc.devRef .tc main_v57) = row128 (bnScaleV (W4 m ρ c (Proc.devRef .tc main_v42_0)) (W4 m ρ c (Proc.devRef .tc main_v42_1)) (W4 m ρ c (Proc.devRef .tc main_arg5))) := by
  show StableHlo.after hostOps2 (W4 m ρ c) (Proc.devRef .tc main_v57) = _
  after_results_simp
  unfold bnScaleV bnMean vec128
  rfl

set_option maxHeartbeats 2000000 in
theorem W5_v58 (c : Dev nD) : W5 m ρ c (Proc.devRef .tc main_v58) = row128 (bnShiftV (W4 m ρ c (Proc.devRef .tc main_v42_0)) (W4 m ρ c (Proc.devRef .tc main_v42_1)) (W4 m ρ c (Proc.devRef .tc main_arg5)) (W4 m ρ c (Proc.devRef .tc main_arg6))) := by
  show StableHlo.after hostOps2 (W4 m ρ c) (Proc.devRef .tc main_v58) = _
  after_results_simp
  unfold bnShiftV bnScaleV bnMean vec128
  rfl

set_option maxHeartbeats 2000000 in
theorem W5_v41 (c : Dev nD) : W5 m ρ c (Proc.devRef .tc main_v41) = (W4 m ρ c (Proc.devRef .tc main_v41)) := by
  show StableHlo.after hostOps2 (W4 m ρ c) (Proc.devRef .tc main_v41) = _
  after_results_simp

/-- The scale row and the shift row, of the arguments. -/
def scaleRow (c : Dev nD) : SRow128.Idx → EReal :=
  row128 (F := Ideal) (bnScaleV (colSum (h1 m ρ c)) (colSumSq (h1 m ρ c)) (W0 m ρ c (Proc.devRef .tc main_arg5)))
def shiftRow (c : Dev nD) : SRow128.Idx → EReal :=
  row128 (F := Ideal) (bnShiftV (colSum (h1 m ρ c)) (colSumSq (h1 m ρ c)) (W0 m ρ c (Proc.devRef .tc main_arg5)) (W0 m ρ c (Proc.devRef .tc main_arg6)))

theorem W5_scale (c : Dev nD) : W5 m ρ c (Proc.devRef .tc main_v57) = scaleRow m ρ c := by
  rw [W5_v57, W4_v42_0, W4_v42_1, W4_arg5, W1_arg5]; rfl
theorem W5_shift (c : Dev nD) : W5 m ρ c (Proc.devRef .tc main_v58) = shiftRow m ρ c := by
  rw [W5_v58, W4_v42_0, W4_v42_1, W4_arg5, W4_arg6, W1_arg5, W1_arg6]; rfl

/-! ## Region 2: the rectified affine map -/

/-- The normalised, rectified features, of the arguments. -/
def h2 (c : Dev nD) : SNx128.Idx → EReal := affineAct (h1 m ρ c) (scaleRow m ρ c) (shiftRow m ρ c)

theorem W6_v59 (c : Dev nD) : W6 m ρ c (Proc.devRef .tc main_v59) = h2 m ρ c := by
  refine ((W6_arr m ρ c 3).trans (Cert.KernelIdeal.RegVal.final2 (V5 m ρ) c)).trans ?_
  show affineAct (W5 m ρ c (Proc.devRef .tc main_v41)) (W5 m ρ c (Proc.devRef .tc main_v57)) (W5 m ρ c (Proc.devRef .tc main_v58)) = _
  rw [W5_v41, W4_v41, W5_scale, W5_shift]; rfl

/-! ## The fourth stretch and region 3: the second projection -/

set_option maxHeartbeats 2000000 in
theorem W7_v60 (c : Dev nD) : W7 m ρ c (Proc.devRef .tc main_v60) = row64 (W6 m ρ c (Proc.devRef .tc main_arg8)) := by
  show StableHlo.after hostOps3 (W6 m ρ c) (Proc.devRef .tc main_v60) = _
  after_results_simp
  rfl

set_option maxHeartbeats 2000000 in
theorem W7_v59 (c : Dev nD) : W7 m ρ c (Proc.devRef .tc main_v59) = (W6 m ρ c (Proc.devRef .tc main_v59)) := by
  show StableHlo.after hostOps3 (W6 m ρ c) (Proc.devRef .tc main_v59) = _
  after_results_simp

/-- The second projection, of the arguments. -/
def l (c : Dev nD) : SNx64.Idx → EReal := lin64 (h2 m ρ c) (W0 m ρ c (Proc.devRef .tc main_arg7)) (row64 (F := Ideal) (W0 m ρ c (Proc.devRef .tc main_arg8)))

theorem W8_v61 (c : Dev nD) : W8 m ρ c (Proc.devRef .tc main_v61) = l m ρ c := by
  refine ((W8_arr m ρ c 3).trans (Cert.KernelIdeal.RegVal.final3 (V7 m ρ) c)).trans ?_
  show lin64 (W7 m ρ c (Proc.devRef .tc main_v59)) (W7 m ρ c (Proc.devRef .tc main_arg7)) (W7 m ρ c (Proc.devRef .tc main_v60)) = _
  rw [W7_v59, W6_v59, W7_arg7, W1_arg7, W7_v60, W6_arg8, W1_arg8]; rfl

/-! ## The fifth stretch: mu -/

set_option maxHeartbeats 2000000 in
theorem W9_v78 (c : Dev nD) : W9 m ρ c (Proc.devRef .tc main_v78) = agg64 (W8 m ρ c (Proc.devRef .tc main_v61)) (W8 m ρ c (Proc.devRef .tc main_arg1)) (W8 m ρ c (Proc.devRef .tc main_arg2)) (W8 m ρ c (Proc.devRef .tc main_v21)) (W8 m ρ c (Proc.devRef .tc main_v22)) := by
  show StableHlo.after hostOps4 (W8 m ρ c) (Proc.devRef .tc main_v78) = _
  after_results_simp
  unfold agg64 wrapIdx
  with_reducible rfl

set_option maxHeartbeats 2000000 in
theorem W9_v61 (c : Dev nD) : W9 m ρ c (Proc.devRef .tc main_v61) = (W8 m ρ c (Proc.devRef .tc main_v61)) := by
  show StableHlo.after hostOps4 (W8 m ρ c) (Proc.devRef .tc main_v61) = _
  after_results_simp

/-- The first result, of the arguments. -/
def mu (c : Dev nD) : SNx64.Idx → EReal :=
  agg64 (F := Ideal) (l m ρ c) (W0 m ρ c (Proc.devRef .tc main_arg1)) (W0 m ρ c (Proc.devRef .tc main_arg2)) (edgeW (W0 m ρ c (Proc.devRef .tc main_arg1)) (W0 m ρ c (Proc.devRef .tc main_arg2))) (selfW (W0 m ρ c (Proc.devRef .tc main_arg2)))

theorem W9_mu (c : Dev nD) : W9 m ρ c (Proc.devRef .tc main_v78) = mu m ρ c := by
  rw [W9_v78, W8_v61, W8_arg1, W8_arg2, W8_v21, W8_v22, W2_arg1, W2_arg2, W2_v21, W2_v22, W1_arg1, W1_arg2, W1_v21, W1_v22]; rfl

/-! ## Region 4 and the sixth stretch: logstd -/

/-- The rows of the second projection scaled to length 1.8, of the arguments. -/
def ln (c : Dev nD) : SNx64.Idx → EReal := l2scale (l m ρ c)

theorem W10_v79 (c : Dev nD) : W10 m ρ c (Proc.devRef .tc main_v79) = ln m ρ c := by
  refine ((W10_arr m ρ c 1).trans (Cert.KernelIdeal.RegVal.final4 (V9 m ρ) c)).trans ?_
  show l2scale (W9 m ρ c (Proc.devRef .tc main_v61)) = _
  rw [W9_v61, W8_v61]; rfl
theorem W10_v78 (c : Dev nD) : W10 m ρ c (Proc.devRef .tc main_v78) = mu m ρ c :=
  (W10_of_ne m ρ c main_v78 (by decide)).trans (W9_mu m ρ c)

set_option maxHeartbeats 2000000 in
theorem W11_v96 (c : Dev nD) : W11 m ρ c (Proc.devRef .tc main_v96) = agg64 (W10 m ρ c (Proc.devRef .tc main_v79)) (W10 m ρ c (Proc.devRef .tc main_arg1)) (W10 m ρ c (Proc.devRef .tc main_arg2)) (W10 m ρ c (Proc.devRef .tc main_v21)) (W10 m ρ c (Proc.devRef .tc main_v22)) := by
  show StableHlo.after hostOps5 (W10 m ρ c) (Proc.devRef .tc main_v96) = _
  after_results_simp
  unfold agg64 wrapIdx
  with_reducible rfl

set_option maxHeartbeats 2000000 in
theorem W11_v78 (c : Dev nD) : W11 m ρ c (Proc.devRef .tc main_v78) = (W10 m ρ c (Proc.devRef .tc main_v78)) := by
  show StableHlo.after hostOps5 (W10 m ρ c) (Proc.devRef .tc main_v78) = _
  after_results_simp

/-- The second result, of the arguments. -/
def logstd (c : Dev nD) : SNx64.Idx → EReal :=
  agg64 (F := Ideal) (ln m ρ c) (W0 m ρ c (Proc.devRef .tc main_arg1)) (W0 m ρ c (Proc.devRef .tc main_arg2)) (edgeW (W0 m ρ c (Proc.devRef .tc main_arg1)) (W0 m ρ c (Proc.devRef .tc main_arg2))) (selfW (W0 m ρ c (Proc.devRef .tc main_arg2)))

theorem W11_logstd (c : Dev nD) : W11 m ρ c (Proc.devRef .tc main_v96) = logstd m ρ c := by
  rw [W11_v96, W10_v79, W10_arg1, W10_arg2, W10_v21, W10_v22, W8_arg1, W8_arg2, W8_v21, W8_v22, W2_arg1, W2_arg2, W2_v21, W2_v22, W1_arg1, W1_arg2, W1_v21, W1_v22]; rfl

/-! ## Region 5: zeta; and the three results at the last boundary -/

/-- The third result, of the arguments. -/
def zeta (c : Dev nD) : SNx64.Idx → EReal := reparam (mu m ρ c) (logstd m ρ c) (W0 m ρ c (Proc.devRef .tc main_arg9))

theorem W12_zeta (c : Dev nD) : W12 m ρ c (Proc.devRef .tc main_v97) = zeta m ρ c := by
  refine ((W12_arr m ρ c 3).trans (Cert.KernelIdeal.RegVal.final5 (V11 m ρ) c)).trans ?_
  show reparam (W11 m ρ c (Proc.devRef .tc main_v78)) (W11 m ρ c (Proc.devRef .tc main_v96)) (W11 m ρ c (Proc.devRef .tc main_arg9)) = _
  rw [W11_v78, W10_v78, W11_logstd, W11_arg9, W1_arg9]; rfl
theorem W12_mu (c : Dev nD) : W12 m ρ c (Proc.devRef .tc main_v78) = mu m ρ c :=
  ((W12_arr m ρ c 0).trans (((dat5 (V11 m ρ) c).arrAt_in 0 rfl _).trans (A_eq5 (V11 m ρ) c 0))).trans
    ((W11_v78 m ρ c).trans (W10_v78 m ρ c))
theorem W12_logstd (c : Dev nD) : W12 m ρ c (Proc.devRef .tc main_v96) = logstd m ρ c :=
  ((W12_arr m ρ c 1).trans (((dat5 (V11 m ρ) c).arrAt_in 1 rfl _).trans (A_eq5 (V11 m ρ) c 1))).trans (W11_logstd m ρ c)

end Cert.KernelIdeal.KFold

end
-- ==== Proof.KOut.lean ====
/-
  The idealized kernel program's run, read: every weakly fair execution from any launch memory terminates
  without fault with the three result buffers at the functions of the argument arrays that the fold of its
  segments computes (mu, logstd, zeta), and the ten argument arrays as launched.
-/
import proofs.«132517_j26465588478695_1_alg».proof.Proof.KRun
import proofs.«132517_j26465588478695_1_alg».proof.Proof.KFold

set_option maxRecDepth 16384

noncomputable section

namespace Cert.KernelIdeal.KOut

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg)

theorem run_values : θ_run defs (onTc (τ := τ) (main (F := Ideal))) ⟨m, fun _ => 0, ρ⟩ (fun r => ∀ c : Dev nD,
      r.2.mem ((c.tc : Thread nD τ).loc main_v78) = KFold.mu m ρ c
      ∧ r.2.mem ((c.tc : Thread nD τ).loc main_v96) = KFold.logstd m ρ c
      ∧ r.2.mem ((c.tc : Thread nD τ).loc main_v97) = KFold.zeta m ρ c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c =>
    ⟨(h c _ (mem_uc main_v78 (by decide))).trans (KFold.W12_mu m ρ c),
     (h c _ (mem_uc main_v96 (by decide))).trans (KFold.W12_logstd m ρ c),
     (h c _ (mem_uc main_v97 (by decide))).trans (KFold.W12_zeta m ρ c),
     (h c _ (mem_uc main_arg0 (by decide))).trans (W12_main_arg0 m ρ c),
     (h c _ (mem_uc main_arg1 (by decide))).trans (W12_main_arg1 m ρ c),
     (h c _ (mem_uc main_arg2 (by decide))).trans (W12_main_arg2 m ρ c),
     (h c _ (mem_uc main_arg3 (by decide))).trans (W12_main_arg3 m ρ c),
     (h c _ (mem_uc main_arg4 (by decide))).trans (W12_main_arg4 m ρ c),
     (h c _ (mem_uc main_arg5 (by decide))).trans (W12_main_arg5 m ρ c),
     (h c _ (mem_uc main_arg6 (by decide))).trans (W12_main_arg6 m ρ c),
     (h c _ (mem_uc main_arg7 (by decide))).trans (W12_main_arg7 m ρ c),
     (h c _ (mem_uc main_arg8 (by decide))).trans (W12_main_arg8 m ρ c),
     (h c _ (mem_uc main_arg9 (by decide))).trans (W12_main_arg9 m ρ c)⟩)
    (KRun.run_all m ρ)

end Cert.KernelIdeal.KOut

end
-- ==== Proof.RefOps.lean ====
import proofs.«132517_j26465588478695_1_alg».proof.Proof.Gen.ReferenceIdeal
import Idealize.ShloMosaic.Lib.StableHlo.Run

/-! The reference program's host operations, window by window of @main, in the order they run. An operation of a
    module-local function stands where the function is called, over the buffers of that call's record: the
    function's parameters are the call's operands, its own values the record's fields. Beside each list, the fact
    that every operation touches TensorCore buffers only, one lemma per operation. -/

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations of @main's window 0 (main_part0): 1 … 60 of the whole line. -/
abbrev ops0 : List (HloOp τ sig (Elt F)) :=
  [ binary main_arg0 main_arg3 main_v0 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg4 main_v1 (broadcastInDim S1x128 ![1] bcast_S128_S1x128_1 : (⟨S128, .f32⟩ : BufTy).Contents (Elt F) → (⟨S1x128, .f32⟩ : BufTy).Contents (Elt F)),
    unary main_v1 main_v2 (broadcastInDim S100000x128 ![0, 1] bcast_S1x128_S100000x128_0_1 : (⟨S1x128, .f32⟩ : BufTy).Contents (Elt F) → (⟨S100000x128, .f32⟩ : BufTy).Contents (Elt F)),
    binary main_v0 main_v2 main_v3 (addf : (⟨S100000x128, .f32⟩ : BufTy).Contents (Elt F) → (⟨S100000x128, .f32⟩ : BufTy).Contents (Elt F) → (⟨S100000x128, .f32⟩ : BufTy).Contents (Elt F)),
    nullary main_cst (constant S_ .f32 0x3F800000#32),
    unary main_cst main_v4 (broadcastInDim S1600000 ![] bcast_S_S1600000 : (⟨S_, .f32⟩ : BufTy).Contents (Elt F) → (⟨S1600000, .f32⟩ : BufTy).Contents (Elt F)),
    nullary main_cst_0 (constant S_ .f32 0x00000000#32),
    unary main_cst_0 main_v5 (broadcastInDim S100000 ![] bcast_S_S100000 : (⟨S_, .f32⟩ : BufTy).Contents (Elt F) → (⟨S100000, .f32⟩ : BufTy).Contents (Elt F)),
    unary main_arg2 main_v6 (broadcastInDim S1600000x1 ![0] bcast_S1600000_S1600000x1_0 : (⟨S1600000, .i32⟩ : BufTy).Contents (Elt F) → (⟨S1600000x1, .i32⟩ : BufTy).Contents (Elt F)),
    ternary main_v5 main_v6 main_v4 main_v7 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_1 (constant S_ .f32 0x3F800000#32),
    unary main_cst_1 main_v8 (broadcastInDim S100000 ![] bcast_S_S100000 : (⟨S_, .f32⟩ : BufTy).Contents (Elt F) → (⟨S100000, .f32⟩ : BufTy).Contents (Elt F)),
    binary main_v7 main_v8 main_v9 (addf : (⟨S100000, .f32⟩ : BufTy).Contents (Elt F) → (⟨S100000, .f32⟩ : BufTy).Contents (Elt F) → (⟨S100000, .f32⟩ : BufTy).Contents (Elt F)),
    unary main_v9 main_v10 (Host.rsqrt : (⟨S100000, .f32⟩ : BufTy).Contents (Elt F) → (⟨S100000, .f32⟩ : BufTy).Contents (Elt F)),
    nullary main_c (constantI S_ 32 0#32),
    unary main_c main_v11 (broadcastInDim S1600000 ![] bcast_S_S1600000 : (⟨S_, .i32⟩ : BufTy).Contents (Elt F) → (⟨S1600000, .i32⟩ : BufTy).Contents (Elt F)),
    binary main_arg1 main_v11 main_v12 (cmpi .slt : (⟨S1600000, .i32⟩ : BufTy).Contents (Elt F) → (⟨S1600000, .i32⟩ : BufTy).Contents (Elt F) → (⟨S1600000, .i1⟩ : BufTy).Contents (Elt F)),
    nullary main_c_2 (constantI S_ 32 100000#32),
    unary main_c_2 main_v13 (broadcastInDim S1600000 ![] bcast_S_S1600000 : (⟨S_, .i32⟩ : BufTy).Contents (Elt F) → (⟨S1600000, .i32⟩ : BufTy).Contents (Elt F)),
    binary main_arg1 main_v13 main_v14 (addi : (⟨S1600000, .i32⟩ : BufTy).Contents (Elt F) → (⟨S1600000, .i32⟩ : BufTy).Contents (Elt F) → (⟨S1600000, .i32⟩ : BufTy).Contents (Elt F)),
    ternary main_v12 main_v14 main_arg1 main_v15 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v15 main_v16 (broadcastInDim S1600000x1 ![0] bcast_S1600000_S1600000x1_0 : (⟨S1600000, .i32⟩ : BufTy).Contents (Elt F) → (⟨S1600000x1, .i32⟩ : BufTy).Contents (Elt F)),
    binary main_v10 main_v16 main_v17 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    nullary main_c_3 (constantI S_ 32 0#32),
    unary main_c_3 main_v18 (broadcastInDim S1600000 ![] bcast_S_S1600000 : (⟨S_, .i32⟩ : BufTy).Contents (Elt F) → (⟨S1600000, .i32⟩ : BufTy).Contents (Elt F)),
    binary main_arg2 main_v18 main_v19 (cmpi .slt : (⟨S1600000, .i32⟩ : BufTy).Contents (Elt F) → (⟨S1600000, .i32⟩ : BufTy).Contents (Elt F) → (⟨S1600000, .i1⟩ : BufTy).Contents (Elt F)),
    nullary main_c_4 (constantI S_ 32 100000#32),
    unary main_c_4 main_v20 (broadcastInDim S1600000 ![] bcast_S_S1600000 : (⟨S_, .i32⟩ : BufTy).Contents (Elt F) → (⟨S1600000, .i32⟩ : BufTy).Contents (Elt F)),
    binary main_arg2 main_v20 main_v21 (addi : (⟨S1600000, .i32⟩ : BufTy).Contents (Elt F) → (⟨S1600000, .i32⟩ : BufTy).Contents (Elt F) → (⟨S1600000, .i32⟩ : BufTy).Contents (Elt F)),
    ternary main_v19 main_v21 main_arg2 main_v22 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v22 main_v23 (broadcastInDim S1600000x1 ![0] bcast_S1600000_S1600000x1_0 : (⟨S1600000, .i32⟩ : BufTy).Contents (Elt F) → (⟨S1600000x1, .i32⟩ : BufTy).Contents (Elt F)),
    binary main_v10 main_v23 main_v24 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    binary main_v17 main_v24 main_v25 (mulf : (⟨S1600000, .f32⟩ : BufTy).Contents (Elt F) → (⟨S1600000, .f32⟩ : BufTy).Contents (Elt F) → (⟨S1600000, .f32⟩ : BufTy).Contents (Elt F)),
    nullary main_c_5 (constantI S_ 32 0#32),
    unary main_c_5 main_v26 (broadcastInDim S1600000 ![] bcast_S_S1600000 : (⟨S_, .i32⟩ : BufTy).Contents (Elt F) → (⟨S1600000, .i32⟩ : BufTy).Contents (Elt F)),
    binary main_arg1 main_v26 main_v27 (cmpi .slt : (⟨S1600000, .i32⟩ : BufTy).Contents (Elt F) → (⟨S1600000, .i32⟩ : BufTy).Contents (Elt F) → (⟨S1600000, .i1⟩ : BufTy).Contents (Elt F)),
    nullary main_c_6 (constantI S_ 32 100000#32),
    unary main_c_6 main_v28 (broadcastInDim S1600000 ![] bcast_S_S1600000 : (⟨S_, .i32⟩ : BufTy).Contents (Elt F) → (⟨S1600000, .i32⟩ : BufTy).Contents (Elt F)),
    binary main_arg1 main_v28 main_v29 (addi : (⟨S1600000, .i32⟩ : BufTy).Contents (Elt F) → (⟨S1600000, .i32⟩ : BufTy).Contents (Elt F) → (⟨S1600000, .i32⟩ : BufTy).Contents (Elt F)),
    ternary main_v27 main_v29 main_arg1 main_v30 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v30 main_v31 (broadcastInDim S1600000x1 ![0] bcast_S1600000_S1600000x1_0 : (⟨S1600000, .i32⟩ : BufTy).Contents (Elt F) → (⟨S1600000x1, .i32⟩ : BufTy).Contents (Elt F)),
    binary main_v3 main_v31 main_v32 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    unary main_v25 main_v33 (broadcastInDim S1600000x1 ![0] bcast_S1600000_S1600000x1_0 : (⟨S1600000, .f32⟩ : BufTy).Contents (Elt F) → (⟨S1600000x1, .f32⟩ : BufTy).Contents (Elt F)),
    unary main_v33 main_v34 (broadcastInDim S1600000x128 ![0, 1] bcast_S1600000x1_S1600000x128_0_1 : (⟨S1600000x1, .f32⟩ : BufTy).Contents (Elt F) → (⟨S1600000x128, .f32⟩ : BufTy).Contents (Elt F)),
    binary main_v32 main_v34 main_v35 (mulf : (⟨S1600000x128, .f32⟩ : BufTy).Contents (Elt F) → (⟨S1600000x128, .f32⟩ : BufTy).Contents (Elt F) → (⟨S1600000x128, .f32⟩ : BufTy).Contents (Elt F)),
    nullary main_cst_7 (constant S_ .f32 0x00000000#32),
    unary main_cst_7 main_v36 (broadcastInDim S100000x128 ![] bcast_S_S100000x128 : (⟨S_, .f32⟩ : BufTy).Contents (Elt F) → (⟨S100000x128, .f32⟩ : BufTy).Contents (Elt F)),
    unary main_arg2 main_v37 (broadcastInDim S1600000x1 ![0] bcast_S1600000_S1600000x1_0 : (⟨S1600000, .i32⟩ : BufTy).Contents (Elt F) → (⟨S1600000x1, .i32⟩ : BufTy).Contents (Elt F)),
    ternary main_v36 main_v37 main_v35 main_v38 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    binary main_v10 main_v10 main_v39 (mulf : (⟨S100000, .f32⟩ : BufTy).Contents (Elt F) → (⟨S100000, .f32⟩ : BufTy).Contents (Elt F) → (⟨S100000, .f32⟩ : BufTy).Contents (Elt F)),
    unary main_v39 main_v40 (broadcastInDim S100000x1 ![0] bcast_S100000_S100000x1_0 : (⟨S100000, .f32⟩ : BufTy).Contents (Elt F) → (⟨S100000x1, .f32⟩ : BufTy).Contents (Elt F)),
    unary main_v40 main_v41 (broadcastInDim S100000x128 ![0, 1] bcast_S100000x1_S100000x128_0_1 : (⟨S100000x1, .f32⟩ : BufTy).Contents (Elt F) → (⟨S100000x128, .f32⟩ : BufTy).Contents (Elt F)),
    binary main_v3 main_v41 main_v42 (mulf : (⟨S100000x128, .f32⟩ : BufTy).Contents (Elt F) → (⟨S100000x128, .f32⟩ : BufTy).Contents (Elt F) → (⟨S100000x128, .f32⟩ : BufTy).Contents (Elt F)),
    binary main_v38 main_v42 main_v43 (addf : (⟨S100000x128, .f32⟩ : BufTy).Contents (Elt F) → (⟨S100000x128, .f32⟩ : BufTy).Contents (Elt F) → (⟨S100000x128, .f32⟩ : BufTy).Contents (Elt F)),
    nullary main_cst_8 (constant S_ .f32 0x00000000#32),
    binary main_v43 main_cst_8 main_v44 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_9 (constant S_ .f32 0x47C35000#32),
    unary main_cst_9 main_v45 (broadcastInDim S128 ![] bcast_S_S128 : (⟨S_, .f32⟩ : BufTy).Contents (Elt F) → (⟨S128, .f32⟩ : BufTy).Contents (Elt F)),
    binary main_v44 main_v45 main_v46 (Host.divf : (⟨S128, .f32⟩ : BufTy).Contents (Elt F) → (⟨S128, .f32⟩ : BufTy).Contents (Elt F) → (⟨S128, .f32⟩ : BufTy).Contents (Elt F)),
    nullary main_c_10 (constantI S_ 32 0#32) ]

set_option maxRecDepth 8192 in
theorem ops0_sub : (ops0 : List (HloOp τ sig (Elt F))).Forall fun op => op.bufs ⊆ tcRefs τ sig :=
  ⟨binary_bufs_sub .., unary_bufs_sub .., unary_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., binary_bufs_sub .., unary_bufs_sub .., unary_bufs_sub .., binary_bufs_sub .., binary_bufs_sub .., nullary_bufs_sub .., binary_bufs_sub .., nullary_bufs_sub .., unary_bufs_sub .., binary_bufs_sub .., nullary_bufs_sub ..⟩

/-- The operations of @main's window 1 (main_part1): 61 … 141 of the whole line. -/
abbrev ops1 : List (HloOp τ sig (Elt F)) :=
  [ TRef.nullary main_call0.cst (constant S_ .f32 0x00000000#32),
    TRef.binary (.of main_v43) main_call0.cst main_call0.v0 (fun x v => Host.reduceAdd x v reducesTo_S100000x128_S128_d0 h_S_),
    TRef.unary main_call0.v0 main_call0.v1 (broadcastInDim S1x128 ![1] bcast_S128_S1x128_1),
    TRef.nullary main_call0.cst_0 (constant S_ .f32 0x47C35000#32),
    TRef.unary main_call0.cst_0 main_call0.v2 (broadcastInDim S1x128 ![] bcast_S_S1x128),
    TRef.binary main_call0.v1 main_call0.v2 main_call0.v3 Host.divf,
    TRef.unary main_call0.v3 main_call0.v4 (broadcastInDim S100000x128 ![0, 1] bcast_S1x128_S100000x128_0_1),
    TRef.binary (.of main_v43) main_call0.v4 main_call0.v5 subf,
    TRef.binary main_call0.v5 main_call0.v5 main_call0.v6 mulf,
    TRef.unary (.of main_c_10) main_call0.v7 (sitofp .f32),
    TRef.nullary main_call0.cst_1 (constant S_ .f32 0x47C35000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S100000x128_S128_d0 h_S_),
    TRef.unary main_call0.v8 main_call0.v10 (broadcastInDim S128 ![] bcast_S_S128),
    TRef.binary main_call0.v9 main_call0.v10 main_call0.v11 Host.divf,
    TRef.nullary main_call0.cst_3 (constant S_ .f32 0x00000000#32),
    TRef.binary main_call0.v8 main_call0.cst_3 main_call0.v12 (cmpf .ogt),
    TRef.nullary main_call0.cst_4 (constant S_ .f32 0x7FC00000#32),
    TRef.unary main_call0.cst_4 main_call0.call0.v0 id,
    TRef.unary main_call0.call0.v0 main_call0.call0.v1 (broadcastInDim S128 ![] bcast_S_S128),
    TRef.ternary main_call0.v12 main_call0.v11 main_call0.call0.v1 main_call0.call0.v2 (fun p a b => select (broadcastInDim S128 ![] bcast_S_S128 p) a b),
    unary main_v46 main_v48 (broadcastInDim S1x128 ![1] bcast_S128_S1x128_1 : (⟨S128, .f32⟩ : BufTy).Contents (Elt F) → (⟨S1x128, .f32⟩ : BufTy).Contents (Elt F)),
    unary main_v48 main_v49 (broadcastInDim S100000x128 ![0, 1] bcast_S1x128_S100000x128_0_1 : (⟨S1x128, .f32⟩ : BufTy).Contents (Elt F) → (⟨S100000x128, .f32⟩ : BufTy).Contents (Elt F)),
    binary main_v43 main_v49 main_v50 (subf : (⟨S100000x128, .f32⟩ : BufTy).Contents (Elt F) → (⟨S100000x128, .f32⟩ : BufTy).Contents (Elt F) → (⟨S100000x128, .f32⟩ : BufTy).Contents (Elt F)),
    unary main_arg5 main_v51 (broadcastInDim S1x128 ![1] bcast_S128_S1x128_1 : (⟨S128, .f32⟩ : BufTy).Contents (Elt F) → (⟨S1x128, .f32⟩ : BufTy).Contents (Elt F)),
    unary main_v51 main_v52 (broadcastInDim S100000x128 ![0, 1] bcast_S1x128_S100000x128_0_1 : (⟨S1x128, .f32⟩ : BufTy).Contents (Elt F) → (⟨S100000x128, .f32⟩ : BufTy).Contents (Elt F)),
    binary main_v52 main_v50 main_v53 (mulf : (⟨S100000x128, .f32⟩ : BufTy).Contents (Elt F) → (⟨S100000x128, .f32⟩ : BufTy).Contents (Elt F) → (⟨S100000x128, .f32⟩ : BufTy).Contents (Elt F)),
    nullary main_cst_11 (constant S_ .f32 0x3727C5AC#32),
    unary main_cst_11 main_v54 (broadcastInDim S128 ![] bcast_S_S128 : (⟨S_, .f32⟩ : BufTy).Contents (Elt F) → (⟨S128, .f32⟩ : BufTy).Contents (Elt F)),
    binary main_v47 main_v54 main_v55 (addf : (⟨S128, .f32⟩ : BufTy).Contents (Elt F) → (⟨S128, .f32⟩ : BufTy).Contents (Elt F) → (⟨S128, .f32⟩ : BufTy).Contents (Elt F)),
    unary main_v55 main_v56 (Host.rsqrt : (⟨S128, .f32⟩ : BufTy).Contents (Elt F) → (⟨S128, .f32⟩ : BufTy).Contents (Elt F)),
    unary main_v56 main_v57 (broadcastInDim S1x128 ![1] bcast_S128_S1x128_1 : (⟨S128, .f32⟩ : BufTy).Contents (Elt F) → (⟨S1x128, .f32⟩ : BufTy).Contents (Elt F)),
    unary main_v57 main_v58 (broadcastInDim S100000x128 ![0, 1] bcast_S1x128_S100000x128_0_1 : (⟨S1x128, .f32⟩ : BufTy).Contents (Elt F) → (⟨S100000x128, .f32⟩ : BufTy).Contents (Elt F)),
    binary main_v53 main_v58 main_v59 (mulf : (⟨S100000x128, .f32⟩ : BufTy).Contents (Elt F) → (⟨S100000x128, .f32⟩ : BufTy).Contents (Elt F) → (⟨S100000x128, .f32⟩ : BufTy).Contents (Elt F)),
    unary main_arg6 main_v60 (broadcastInDim S1x128 ![1] bcast_S128_S1x128_1 : (⟨S128, .f32⟩ : BufTy).Contents (Elt F) → (⟨S1x128, .f32⟩ : BufTy).Contents (Elt F)),
    unary main_v60 main_v61 (broadcastInDim S100000x128 ![0, 1] bcast_S1x128_S100000x128_0_1 : (⟨S1x128, .f32⟩ : BufTy).Contents (Elt F) → (⟨S100000x128, .f32⟩ : BufTy).Contents (Elt F)),
    binary main_v59 main_v61 main_v62 (addf : (⟨S100000x128, .f32⟩ : BufTy).Contents (Elt F) → (⟨S100000x128, .f32⟩ : BufTy).Contents (Elt F) → (⟨S100000x128, .f32⟩ : BufTy).Contents (Elt F)),
    nullary main_cst_12 (constant S_ .f32 0x00000000#32),
    unary main_cst_12 main_v63 (broadcastInDim S100000x128 ![] bcast_S_S100000x128 : (⟨S_, .f32⟩ : BufTy).Contents (Elt F) → (⟨S100000x128, .f32⟩ : BufTy).Contents (Elt F)),
    binary main_v62 main_v63 main_v64 (cmpf .ogt : (⟨S100000x128, .f32⟩ : BufTy).Contents (Elt F) → (⟨S100000x128, .f32⟩ : BufTy).Contents (Elt F) → (⟨S100000x128, .i1⟩ : BufTy).Contents (Elt F)),
    nullary main_cst_13 (constant S_ .f32 0x3C23D70A#32),
    unary main_cst_13 main_v65 (broadcastInDim S100000x128 ![] bcast_S_S100000x128 : (⟨S_, .f32⟩ : BufTy).Contents (Elt F) → (⟨S100000x128, .f32⟩ : BufTy).Contents (Elt F)),
    binary main_v65 main_v62 main_v66 (mulf : (⟨S100000x128, .f32⟩ : BufTy).Contents (Elt F) → (⟨S100000x128, .f32⟩ : BufTy).Contents (Elt F) → (⟨S100000x128, .f32⟩ : BufTy).Contents (Elt F)),
    TRef.ternary (.of main_v64) (.of main_v62) (.of main_v66) main_call1.v0 select,
    binary main_v67 main_arg7 main_v68 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    unary main_arg8 main_v69 (broadcastInDim S1x64 ![1] bcast_S64_S1x64_1 : (⟨S64, .f32⟩ : BufTy).Contents (Elt F) → (⟨S1x64, .f32⟩ : BufTy).Contents (Elt F)),
    unary main_v69 main_v70 (broadcastInDim S100000x64 ![0, 1] bcast_S1x64_S100000x64_0_1 : (⟨S1x64, .f32⟩ : BufTy).Contents (Elt F) → (⟨S100000x64, .f32⟩ : BufTy).Contents (Elt F)),
    binary main_v68 main_v70 main_v71 (addf : (⟨S100000x64, .f32⟩ : BufTy).Contents (Elt F) → (⟨S100000x64, .f32⟩ : BufTy).Contents (Elt F) → (⟨S100000x64, .f32⟩ : BufTy).Contents (Elt F)),
    nullary main_cst_14 (constant S_ .f32 0x3F800000#32),
    unary main_cst_14 main_v72 (broadcastInDim S1600000 ![] bcast_S_S1600000 : (⟨S_, .f32⟩ : BufTy).Contents (Elt F) → (⟨S1600000, .f32⟩ : BufTy).Contents (Elt F)),
    nullary main_cst_15 (constant S_ .f32 0x00000000#32),
    unary main_cst_15 main_v73 (broadcastInDim S100000 ![] bcast_S_S100000 : (⟨S_, .f32⟩ : BufTy).Contents (Elt F) → (⟨S100000, .f32⟩ : BufTy).Contents (Elt F)),
    unary main_arg2 main_v74 (broadcastInDim S1600000x1 ![0] bcast_S1600000_S1600000x1_0 : (⟨S1600000, .i32⟩ : BufTy).Contents (Elt F) → (⟨S1600000x1, .i32⟩ : BufTy).Contents (Elt F)),
    ternary main_v73 main_v74 main_v72 main_v75 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_16 (constant S_ .f32 0x3F800000#32),
    unary main_cst_16 main_v76 (broadcastInDim S100000 ![] bcast_S_S100000 : (⟨S_, .f32⟩ : BufTy).Contents (Elt F) → (⟨S100000, .f32⟩ : BufTy).Contents (Elt F)),
    binary main_v75 main_v76 main_v77 (addf : (⟨S100000, .f32⟩ : BufTy).Contents (Elt F) → (⟨S100000, .f32⟩ : BufTy).Contents (Elt F) → (⟨S100000, .f32⟩ : BufTy).Contents (Elt F)),
    unary main_v77 main_v78 (Host.rsqrt : (⟨S100000, .f32⟩ : BufTy).Contents (Elt F) → (⟨S100000, .f32⟩ : BufTy).Contents (Elt F)),
    nullary main_c_17 (constantI S_ 32 0#32),
    unary main_c_17 main_v79 (broadcastInDim S1600000 ![] bcast_S_S1600000 : (⟨S_, .i32⟩ : BufTy).Contents (Elt F) → (⟨S1600000, .i32⟩ : BufTy).Contents (Elt F)),
    binary main_arg1 main_v79 main_v80 (cmpi .slt : (⟨S1600000, .i32⟩ : BufTy).Contents (Elt F) → (⟨S1600000, .i32⟩ : BufTy).Contents (Elt F) → (⟨S1600000, .i1⟩ : BufTy).Contents (Elt F)),
    nullary main_c_18 (constantI S_ 32 100000#32),
    unary main_c_18 main_v81 (broadcastInDim S1600000 ![] bcast_S_S1600000 : (⟨S_, .i32⟩ : BufTy).Contents (Elt F) → (⟨S1600000, .i32⟩ : BufTy).Contents (Elt F)),
    binary main_arg1 main_v81 main_v82 (addi : (⟨S1600000, .i32⟩ : BufTy).Contents (Elt F) → (⟨S1600000, .i32⟩ : BufTy).Contents (Elt F) → (⟨S1600000, .i32⟩ : BufTy).Contents (Elt F)),
    ternary main_v80 main_v82 main_arg1 main_v83 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v83 main_v84 (broadcastInDim S1600000x1 ![0] bcast_S1600000_S1600000x1_0 : (⟨S1600000, .i32⟩ : BufTy).Contents (Elt F) → (⟨S1600000x1, .i32⟩ : BufTy).Contents (Elt F)),
    binary main_v78 main_v84 main_v85 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    nullary main_c_19 (constantI S_ 32 0#32),
    unary main_c_19 main_v86 (broadcastInDim S1600000 ![] bcast_S_S1600000 : (⟨S_, .i32⟩ : BufTy).Contents (Elt F) → (⟨S1600000, .i32⟩ : BufTy).Contents (Elt F)),
    binary main_arg2 main_v86 main_v87 (cmpi .slt : (⟨S1600000, .i32⟩ : BufTy).Contents (Elt F) → (⟨S1600000, .i32⟩ : BufTy).Contents (Elt F) → (⟨S1600000, .i1⟩ : BufTy).Contents (Elt F)),
    nullary main_c_20 (constantI S_ 32 100000#32),
    unary main_c_20 main_v88 (broadcastInDim S1600000 ![] bcast_S_S1600000 : (⟨S_, .i32⟩ : BufTy).Contents (Elt F) → (⟨S1600000, .i32⟩ : BufTy).Contents (Elt F)),
    binary main_arg2 main_v88 main_v89 (addi : (⟨S1600000, .i32⟩ : BufTy).Contents (Elt F) → (⟨S1600000, .i32⟩ : BufTy).Contents (Elt F) → (⟨S1600000, .i32⟩ : BufTy).Contents (Elt F)),
    ternary main_v87 main_v89 main_arg2 main_v90 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v90 main_v91 (broadcastInDim S1600000x1 ![0] bcast_S1600000_S1600000x1_0 : (⟨S1600000, .i32⟩ : BufTy).Contents (Elt F) → (⟨S1600000x1, .i32⟩ : BufTy).Contents (Elt F)),
    binary main_v78 main_v91 main_v92 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    binary main_v85 main_v92 main_v93 (mulf : (⟨S1600000, .f32⟩ : BufTy).Contents (Elt F) → (⟨S1600000, .f32⟩ : BufTy).Contents (Elt F) → (⟨S1600000, .f32⟩ : BufTy).Contents (Elt F)),
    nullary main_c_21 (constantI S_ 32 0#32),
    unary main_c_21 main_v94 (broadcastInDim S1600000 ![] bcast_S_S1600000 : (⟨S_, .i32⟩ : BufTy).Contents (Elt F) → (⟨S1600000, .i32⟩ : BufTy).Contents (Elt F)),
    binary main_arg1 main_v94 main_v95 (cmpi .slt : (⟨S1600000, .i32⟩ : BufTy).Contents (Elt F) → (⟨S1600000, .i32⟩ : BufTy).Contents (Elt F) → (⟨S1600000, .i1⟩ : BufTy).Contents (Elt F)) ]

set_option maxRecDepth 8192 in
theorem ops1_sub : (ops1 : List (HloOp τ sig (Elt F))).Forall fun op => op.bufs ⊆ tcRefs τ sig :=
  ⟨nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., binary_bufs_sub .., unary_bufs_sub .., unary_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub ..⟩

/-- The operations of @main's window 2 (main_part2): 142 … 205 of the whole line. -/
abbrev ops2 : List (HloOp τ sig (Elt F)) :=
  [ nullary main_c_22 (constantI S_ 32 100000#32),
    unary main_c_22 main_v96 (broadcastInDim S1600000 ![] bcast_S_S1600000 : (⟨S_, .i32⟩ : BufTy).Contents (Elt F) → (⟨S1600000, .i32⟩ : BufTy).Contents (Elt F)),
    binary main_arg1 main_v96 main_v97 (addi : (⟨S1600000, .i32⟩ : BufTy).Contents (Elt F) → (⟨S1600000, .i32⟩ : BufTy).Contents (Elt F) → (⟨S1600000, .i32⟩ : BufTy).Contents (Elt F)),
    ternary main_v95 main_v97 main_arg1 main_v98 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v98 main_v99 (broadcastInDim S1600000x1 ![0] bcast_S1600000_S1600000x1_0 : (⟨S1600000, .i32⟩ : BufTy).Contents (Elt F) → (⟨S1600000x1, .i32⟩ : BufTy).Contents (Elt F)),
    binary main_v71 main_v99 main_v100 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    unary main_v93 main_v101 (broadcastInDim S1600000x1 ![0] bcast_S1600000_S1600000x1_0 : (⟨S1600000, .f32⟩ : BufTy).Contents (Elt F) → (⟨S1600000x1, .f32⟩ : BufTy).Contents (Elt F)),
    unary main_v101 main_v102 (broadcastInDim S1600000x64 ![0, 1] bcast_S1600000x1_S1600000x64_0_1 : (⟨S1600000x1, .f32⟩ : BufTy).Contents (Elt F) → (⟨S1600000x64, .f32⟩ : BufTy).Contents (Elt F)),
    binary main_v100 main_v102 main_v103 (mulf : (⟨S1600000x64, .f32⟩ : BufTy).Contents (Elt F) → (⟨S1600000x64, .f32⟩ : BufTy).Contents (Elt F) → (⟨S1600000x64, .f32⟩ : BufTy).Contents (Elt F)),
    nullary main_cst_23 (constant S_ .f32 0x00000000#32),
    unary main_cst_23 main_v104 (broadcastInDim S100000x64 ![] bcast_S_S100000x64 : (⟨S_, .f32⟩ : BufTy).Contents (Elt F) → (⟨S100000x64, .f32⟩ : BufTy).Contents (Elt F)),
    unary main_arg2 main_v105 (broadcastInDim S1600000x1 ![0] bcast_S1600000_S1600000x1_0 : (⟨S1600000, .i32⟩ : BufTy).Contents (Elt F) → (⟨S1600000x1, .i32⟩ : BufTy).Contents (Elt F)),
    ternary main_v104 main_v105 main_v103 main_v106 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    binary main_v78 main_v78 main_v107 (mulf : (⟨S100000, .f32⟩ : BufTy).Contents (Elt F) → (⟨S100000, .f32⟩ : BufTy).Contents (Elt F) → (⟨S100000, .f32⟩ : BufTy).Contents (Elt F)),
    unary main_v107 main_v108 (broadcastInDim S100000x1 ![0] bcast_S100000_S100000x1_0 : (⟨S100000, .f32⟩ : BufTy).Contents (Elt F) → (⟨S100000x1, .f32⟩ : BufTy).Contents (Elt F)),
    unary main_v108 main_v109 (broadcastInDim S100000x64 ![0, 1] bcast_S100000x1_S100000x64_0_1 : (⟨S100000x1, .f32⟩ : BufTy).Contents (Elt F) → (⟨S100000x64, .f32⟩ : BufTy).Contents (Elt F)),
    binary main_v71 main_v109 main_v110 (mulf : (⟨S100000x64, .f32⟩ : BufTy).Contents (Elt F) → (⟨S100000x64, .f32⟩ : BufTy).Contents (Elt F) → (⟨S100000x64, .f32⟩ : BufTy).Contents (Elt F)),
    binary main_v106 main_v110 main_v111 (addf : (⟨S100000x64, .f32⟩ : BufTy).Contents (Elt F) → (⟨S100000x64, .f32⟩ : BufTy).Contents (Elt F) → (⟨S100000x64, .f32⟩ : BufTy).Contents (Elt F)),
    TRef.binary (.of main_v71) (.of main_v71) main_call2.v0 mulf,
    TRef.nullary main_call2.cst (constant S_ .f32 0x00000000#32),
    TRef.binary main_call2.v0 main_call2.cst main_call2.v1 (fun x v => Host.reduceAdd x v reducesTo_S100000x64_S100000_d1 h_S_),
    TRef.unary main_call2.v1 main_call2.v2 (broadcastInDim S100000x1 ![0] bcast_S100000_S100000x1_0),
    TRef.unary main_call2.v2 main_call2.v3 Host.sqrt,
    nullary main_cst_24 (constant S_ .f32 0x2B8CBCCC#32),
    unary main_cst_24 main_v113 (broadcastInDim S100000x1 ![] bcast_S_S100000x1 : (⟨S_, .f32⟩ : BufTy).Contents (Elt F) → (⟨S100000x1, .f32⟩ : BufTy).Contents (Elt F)),
    binary main_v112 main_v113 main_v114 (maximumf : (⟨S100000x1, .f32⟩ : BufTy).Contents (Elt F) → (⟨S100000x1, .f32⟩ : BufTy).Contents (Elt F) → (⟨S100000x1, .f32⟩ : BufTy).Contents (Elt F)),
    unary main_v114 main_v115 (broadcastInDim S100000x64 ![0, 1] bcast_S100000x1_S100000x64_0_1 : (⟨S100000x1, .f32⟩ : BufTy).Contents (Elt F) → (⟨S100000x64, .f32⟩ : BufTy).Contents (Elt F)),
    binary main_v71 main_v115 main_v116 (Host.divf : (⟨S100000x64, .f32⟩ : BufTy).Contents (Elt F) → (⟨S100000x64, .f32⟩ : BufTy).Contents (Elt F) → (⟨S100000x64, .f32⟩ : BufTy).Contents (Elt F)),
    nullary main_cst_25 (constant S_ .f32 0x3FE66666#32),
    unary main_cst_25 main_v117 (broadcastInDim S100000x64 ![] bcast_S_S100000x64 : (⟨S_, .f32⟩ : BufTy).Contents (Elt F) → (⟨S100000x64, .f32⟩ : BufTy).Contents (Elt F)),
    binary main_v116 main_v117 main_v118 (mulf : (⟨S100000x64, .f32⟩ : BufTy).Contents (Elt F) → (⟨S100000x64, .f32⟩ : BufTy).Contents (Elt F) → (⟨S100000x64, .f32⟩ : BufTy).Contents (Elt F)),
    nullary main_cst_26 (constant S_ .f32 0x3F800000#32),
    unary main_cst_26 main_v119 (broadcastInDim S1600000 ![] bcast_S_S1600000 : (⟨S_, .f32⟩ : BufTy).Contents (Elt F) → (⟨S1600000, .f32⟩ : BufTy).Contents (Elt F)),
    nullary main_cst_27 (constant S_ .f32 0x00000000#32),
    unary main_cst_27 main_v120 (broadcastInDim S100000 ![] bcast_S_S100000 : (⟨S_, .f32⟩ : BufTy).Contents (Elt F) → (⟨S100000, .f32⟩ : BufTy).Contents (Elt F)),
    unary main_arg2 main_v121 (broadcastInDim S1600000x1 ![0] bcast_S1600000_S1600000x1_0 : (⟨S1600000, .i32⟩ : BufTy).Contents (Elt F) → (⟨S1600000x1, .i32⟩ : BufTy).Contents (Elt F)),
    ternary main_v120 main_v121 main_v119 main_v122 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_28 (constant S_ .f32 0x3F800000#32),
    unary main_cst_28 main_v123 (broadcastInDim S100000 ![] bcast_S_S100000 : (⟨S_, .f32⟩ : BufTy).Contents (Elt F) → (⟨S100000, .f32⟩ : BufTy).Contents (Elt F)),
    binary main_v122 main_v123 main_v124 (addf : (⟨S100000, .f32⟩ : BufTy).Contents (Elt F) → (⟨S100000, .f32⟩ : BufTy).Contents (Elt F) → (⟨S100000, .f32⟩ : BufTy).Contents (Elt F)),
    unary main_v124 main_v125 (Host.rsqrt : (⟨S100000, .f32⟩ : BufTy).Contents (Elt F) → (⟨S100000, .f32⟩ : BufTy).Contents (Elt F)),
    nullary main_c_29 (constantI S_ 32 0#32),
    unary main_c_29 main_v126 (broadcastInDim S1600000 ![] bcast_S_S1600000 : (⟨S_, .i32⟩ : BufTy).Contents (Elt F) → (⟨S1600000, .i32⟩ : BufTy).Contents (Elt F)),
    binary main_arg1 main_v126 main_v127 (cmpi .slt : (⟨S1600000, .i32⟩ : BufTy).Contents (Elt F) → (⟨S1600000, .i32⟩ : BufTy).Contents (Elt F) → (⟨S1600000, .i1⟩ : BufTy).Contents (Elt F)),
    nullary main_c_30 (constantI S_ 32 100000#32),
    unary main_c_30 main_v128 (broadcastInDim S1600000 ![] bcast_S_S1600000 : (⟨S_, .i32⟩ : BufTy).Contents (Elt F) → (⟨S1600000, .i32⟩ : BufTy).Contents (Elt F)),
    binary main_arg1 main_v128 main_v129 (addi : (⟨S1600000, .i32⟩ : BufTy).Contents (Elt F) → (⟨S1600000, .i32⟩ : BufTy).Contents (Elt F) → (⟨S1600000, .i32⟩ : BufTy).Contents (Elt F)),
    ternary main_v127 main_v129 main_arg1 main_v130 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v130 main_v131 (broadcastInDim S1600000x1 ![0] bcast_S1600000_S1600000x1_0 : (⟨S1600000, .i32⟩ : BufTy).Contents (Elt F) → (⟨S1600000x1, .i32⟩ : BufTy).Contents (Elt F)),
    binary main_v125 main_v131 main_v132 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    nullary main_c_31 (constantI S_ 32 0#32),
    unary main_c_31 main_v133 (broadcastInDim S1600000 ![] bcast_S_S1600000 : (⟨S_, .i32⟩ : BufTy).Contents (Elt F) → (⟨S1600000, .i32⟩ : BufTy).Contents (Elt F)),
    binary main_arg2 main_v133 main_v134 (cmpi .slt : (⟨S1600000, .i32⟩ : BufTy).Contents (Elt F) → (⟨S1600000, .i32⟩ : BufTy).Contents (Elt F) → (⟨S1600000, .i1⟩ : BufTy).Contents (Elt F)),
    nullary main_c_32 (constantI S_ 32 100000#32),
    unary main_c_32 main_v135 (broadcastInDim S1600000 ![] bcast_S_S1600000 : (⟨S_, .i32⟩ : BufTy).Contents (Elt F) → (⟨S1600000, .i32⟩ : BufTy).Contents (Elt F)),
    binary main_arg2 main_v135 main_v136 (addi : (⟨S1600000, .i32⟩ : BufTy).Contents (Elt F) → (⟨S1600000, .i32⟩ : BufTy).Contents (Elt F) → (⟨S1600000, .i32⟩ : BufTy).Contents (Elt F)),
    ternary main_v134 main_v136 main_arg2 main_v137 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v137 main_v138 (broadcastInDim S1600000x1 ![0] bcast_S1600000_S1600000x1_0 : (⟨S1600000, .i32⟩ : BufTy).Contents (Elt F) → (⟨S1600000x1, .i32⟩ : BufTy).Contents (Elt F)),
    binary main_v125 main_v138 main_v139 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    binary main_v132 main_v139 main_v140 (mulf : (⟨S1600000, .f32⟩ : BufTy).Contents (Elt F) → (⟨S1600000, .f32⟩ : BufTy).Contents (Elt F) → (⟨S1600000, .f32⟩ : BufTy).Contents (Elt F)),
    nullary main_c_33 (constantI S_ 32 0#32),
    unary main_c_33 main_v141 (broadcastInDim S1600000 ![] bcast_S_S1600000 : (⟨S_, .i32⟩ : BufTy).Contents (Elt F) → (⟨S1600000, .i32⟩ : BufTy).Contents (Elt F)),
    binary main_arg1 main_v141 main_v142 (cmpi .slt : (⟨S1600000, .i32⟩ : BufTy).Contents (Elt F) → (⟨S1600000, .i32⟩ : BufTy).Contents (Elt F) → (⟨S1600000, .i1⟩ : BufTy).Contents (Elt F)),
    nullary main_c_34 (constantI S_ 32 100000#32) ]

set_option maxRecDepth 8192 in
theorem ops2_sub : (ops2 : List (HloOp τ sig (Elt F))).Forall fun op => op.bufs ⊆ tcRefs τ sig :=
  ⟨nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., binary_bufs_sub .., unary_bufs_sub .., unary_bufs_sub .., binary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., nullary_bufs_sub .., unary_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub ..⟩

/-- The operations of @main's window 3 (main_part3): 206 … 225 of the whole line. -/
abbrev ops3 : List (HloOp τ sig (Elt F)) :=
  [ unary main_c_34 main_v143 (broadcastInDim S1600000 ![] bcast_S_S1600000 : (⟨S_, .i32⟩ : BufTy).Contents (Elt F) → (⟨S1600000, .i32⟩ : BufTy).Contents (Elt F)),
    binary main_arg1 main_v143 main_v144 (addi : (⟨S1600000, .i32⟩ : BufTy).Contents (Elt F) → (⟨S1600000, .i32⟩ : BufTy).Contents (Elt F) → (⟨S1600000, .i32⟩ : BufTy).Contents (Elt F)),
    ternary main_v142 main_v144 main_arg1 main_v145 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v145 main_v146 (broadcastInDim S1600000x1 ![0] bcast_S1600000_S1600000x1_0 : (⟨S1600000, .i32⟩ : BufTy).Contents (Elt F) → (⟨S1600000x1, .i32⟩ : BufTy).Contents (Elt F)),
    binary main_v118 main_v146 main_v147 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    unary main_v140 main_v148 (broadcastInDim S1600000x1 ![0] bcast_S1600000_S1600000x1_0 : (⟨S1600000, .f32⟩ : BufTy).Contents (Elt F) → (⟨S1600000x1, .f32⟩ : BufTy).Contents (Elt F)),
    unary main_v148 main_v149 (broadcastInDim S1600000x64 ![0, 1] bcast_S1600000x1_S1600000x64_0_1 : (⟨S1600000x1, .f32⟩ : BufTy).Contents (Elt F) → (⟨S1600000x64, .f32⟩ : BufTy).Contents (Elt F)),
    binary main_v147 main_v149 main_v150 (mulf : (⟨S1600000x64, .f32⟩ : BufTy).Contents (Elt F) → (⟨S1600000x64, .f32⟩ : BufTy).Contents (Elt F) → (⟨S1600000x64, .f32⟩ : BufTy).Contents (Elt F)),
    nullary main_cst_35 (constant S_ .f32 0x00000000#32),
    unary main_cst_35 main_v151 (broadcastInDim S100000x64 ![] bcast_S_S100000x64 : (⟨S_, .f32⟩ : BufTy).Contents (Elt F) → (⟨S100000x64, .f32⟩ : BufTy).Contents (Elt F)),
    unary main_arg2 main_v152 (broadcastInDim S1600000x1 ![0] bcast_S1600000_S1600000x1_0 : (⟨S1600000, .i32⟩ : BufTy).Contents (Elt F) → (⟨S1600000x1, .i32⟩ : BufTy).Contents (Elt F)),
    ternary main_v151 main_v152 main_v150 main_v153 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    binary main_v125 main_v125 main_v154 (mulf : (⟨S100000, .f32⟩ : BufTy).Contents (Elt F) → (⟨S100000, .f32⟩ : BufTy).Contents (Elt F) → (⟨S100000, .f32⟩ : BufTy).Contents (Elt F)),
    unary main_v154 main_v155 (broadcastInDim S100000x1 ![0] bcast_S100000_S100000x1_0 : (⟨S100000, .f32⟩ : BufTy).Contents (Elt F) → (⟨S100000x1, .f32⟩ : BufTy).Contents (Elt F)),
    unary main_v155 main_v156 (broadcastInDim S100000x64 ![0, 1] bcast_S100000x1_S100000x64_0_1 : (⟨S100000x1, .f32⟩ : BufTy).Contents (Elt F) → (⟨S100000x64, .f32⟩ : BufTy).Contents (Elt F)),
    binary main_v118 main_v156 main_v157 (mulf : (⟨S100000x64, .f32⟩ : BufTy).Contents (Elt F) → (⟨S100000x64, .f32⟩ : BufTy).Contents (Elt F) → (⟨S100000x64, .f32⟩ : BufTy).Contents (Elt F)),
    binary main_v153 main_v157 main_v158 (addf : (⟨S100000x64, .f32⟩ : BufTy).Contents (Elt F) → (⟨S100000x64, .f32⟩ : BufTy).Contents (Elt F) → (⟨S100000x64, .f32⟩ : BufTy).Contents (Elt F)),
    unary main_v158 main_v159 (Host.exp : (⟨S100000x64, .f32⟩ : BufTy).Contents (Elt F) → (⟨S100000x64, .f32⟩ : BufTy).Contents (Elt F)),
    binary main_arg9 main_v159 main_v160 (mulf : (⟨S100000x64, .f32⟩ : BufTy).Contents (Elt F) → (⟨S100000x64, .f32⟩ : BufTy).Contents (Elt F) → (⟨S100000x64, .f32⟩ : BufTy).Contents (Elt F)),
    binary main_v111 main_v160 main_v161 (addf : (⟨S100000x64, .f32⟩ : BufTy).Contents (Elt F) → (⟨S100000x64, .f32⟩ : BufTy).Contents (Elt F) → (⟨S100000x64, .f32⟩ : BufTy).Contents (Elt F)) ]

set_option maxRecDepth 8192 in
theorem ops3_sub : (ops3 : List (HloOp τ sig (Elt F))).Forall fun op => op.bufs ⊆ tcRefs τ sig :=
  ⟨unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., binary_bufs_sub .., unary_bufs_sub .., unary_bufs_sub .., binary_bufs_sub .., binary_bufs_sub .., unary_bufs_sub .., binary_bufs_sub .., binary_bufs_sub ..⟩

end Cert.ReferenceIdeal.RefRun

end
-- ==== Proof.RefRun.lean ====
import proofs.«132517_j26465588478695_1_alg».proof.Proof.RefOps

/-! The reference program's run. @main is a straight line of host operations (its four windows one after the
    other, each module-local function's operations standing at its call): the program equals the sequencing of that
    line, the signature scopes nothing, every operation touches TensorCore buffers only; hence every weakly fair
    execution terminates with each buffer at the fold of the operations' results over the launch contents. -/

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The whole line: the four windows' operations, in order. -/
abbrev ops : List (HloOp τ sig (Elt F)) := ops0 ++ (ops1 ++ (ops2 ++ ops3))

/-- The fold over two lines run one after the other is the second line's fold over the first's. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-- The whole line's fold, window by window. -/
theorem after_ops (V : Valuation τ sig (Elt F)) :
    after ops V = after ops3 (after ops2 (after ops1 (after ops0 V))) := by
  simp only [ops, after_app]

/-! Each window is the sequencing of its list: the window's statements are the list's operations in order, a called
    function's body unfolding to its own statements over the call's operands and record. -/

set_option maxRecDepth 8192 in
set_option maxHeartbeats 4000000 in
theorem main_part0_eq (c : Dev nD) : main_part0 (F := F) c = seq ops0 := rfl

set_option maxRecDepth 8192 in
set_option maxHeartbeats 4000000 in
theorem main_part1_eq (c : Dev nD) : main_part1 (F := F) c = seq ops1 := rfl

set_option maxRecDepth 8192 in
set_option maxHeartbeats 4000000 in
theorem main_part2_eq (c : Dev nD) : main_part2 (F := F) c = seq ops2 := rfl

set_option maxRecDepth 8192 in
set_option maxHeartbeats 4000000 in
theorem main_part3_eq (c : Dev nD) : main_part3 (F := F) c = seq ops3 := rfl

set_option maxRecDepth 8192 in
/-- @main runs its windows in order, and sequencing a concatenation is sequencing its parts in order. -/
theorem main_eq (c : Dev nD) : main (F := F) c = seq ops := by
  simp only [ops, seq_append, ← main_part0_eq c, ← main_part1_eq c, ← main_part2_eq c, ← main_part3_eq c]
  rfl

theorem scopedRefs_eq : (Finset.univ.filter fun b : Ref sig .tc => b.isScoped) = ∅ := by decide
theorem scopedSems_eq : (Finset.univ.filter fun sm : SemLoc sig => sm.isScoped .tc) = ∅ := by decide

/-- Every operation of the whole line touches TensorCore buffers only: each is in one of the four windows. -/
theorem ops_sub : (ops : List (HloOp τ sig (Elt F))).Forall fun op => op.bufs ⊆ tcRefs τ sig :=
  List.forall_iff_forall_mem.mpr fun op h => by
    simp only [ops, List.mem_append] at h
    rcases h with h | h | h | h
    exacts [List.forall_iff_forall_mem.mp ops0_sub op h, List.forall_iff_forall_mem.mp ops1_sub op h,
      List.forall_iff_forall_mem.mp ops2_sub op h, List.forall_iff_forall_mem.mp ops3_sub op h]

set_option maxRecDepth 8192 in
/-- On every device, for any float values, from any memory with zero counters: every weakly fair execution of @main on
    the TensorCores terminates, and every final state has each TensorCore buffer at the operations' fold over the
    launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefRun

end
-- ==== Proof.RefStagesDefs.lean ====
import proofs.«132517_j26465588478695_1_alg».proof.Proof.RefRun

/-! The reference's computation cut into stages: each stage function is the stage's host operations composed, at any
    float values. The first linear map, the propagation over the graph (at 128 and at 64 columns), the batch
    normalisation with its leaky rectifier, the second linear map, the row scaling, and the reparameterisation. -/

noncomputable section

namespace Cert.ReferenceIdeal.RefStages

open Cert.ReferenceIdeal Cert.ReferenceIdeal.Gen Cert.ReferenceIdeal.RefRun Idealize.ShloMosaic Idealize.ShloMosaic.TcCoe Idealize.SL.Sem Idealize.ShloMosaic.StableHlo

variable {F : FTy → Type} [FloatOps F]

/-! ## The stage functions -/

/-- x · W + b: the contraction over the shared coordinate, plus the bias laid as one row and repeated down the rows. -/
def refLin128 (x : (⟨S100000x128, .f32⟩ : BufTy).Contents (Elt F)) (W : (⟨S128x128, .f32⟩ : BufTy).Contents (Elt F))
    (b : (⟨S128, .f32⟩ : BufTy).Contents (Elt F)) : (⟨S100000x128, .f32⟩ : BufTy).Contents (Elt F) :=
  addf (Host.dotGeneral dot_S100000x128_S128x128_S100000x128_1_0_0_1_n_n none x W)
    (broadcastInDim S100000x128 ![0, 1] bcast_S1x128_S100000x128_0_1 (broadcastInDim S1x128 ![1] bcast_S128_S1x128_1 b))

/-- An index array as the column of start indices a gather takes, a negative entry first wrapped round by the row count. -/
def wrapIdx (i : (⟨S1600000, .i32⟩ : BufTy).Contents (Elt F)) : (⟨S1600000x1, .i32⟩ : BufTy).Contents (Elt F) :=
  broadcastInDim S1600000x1 ![0] bcast_S1600000_S1600000x1_0
    (select (cmpi .slt i (broadcastInDim S1600000 ![] bcast_S_S1600000 (constantI S_ 32 0#32)))
      (addi i (broadcastInDim S1600000 ![] bcast_S_S1600000 (constantI S_ 32 100000#32))) i)

/-- Each row's weight: one more than the number of edges arriving at it (ones scatter-added onto zeros at the edges'
    ends), to the power −1/2. -/
def degRsqrt (dst : (⟨S1600000, .i32⟩ : BufTy).Contents (Elt F)) : (⟨S100000, .f32⟩ : BufTy).Contents (Elt F) :=
  Host.rsqrt (addf
    (Host.scatterAdd scatter_S100000_S1600000x1_S1600000_n_0_0_1
      (broadcastInDim S100000 ![] bcast_S_S100000 (constant S_ .f32 0x00000000#32))
      (broadcastInDim S1600000x1 ![0] bcast_S1600000_S1600000x1_0 dst)
      (broadcastInDim S1600000 ![] bcast_S_S1600000 (constant S_ .f32 0x3F800000#32)))
    (broadcastInDim S100000 ![] bcast_S_S100000 (constant S_ .f32 0x3F800000#32)))

/-- Each edge's coefficient: the product of the weights of its two ends. -/
def edgeCoef (src dst : (⟨S1600000, .i32⟩ : BufTy).Contents (Elt F)) : (⟨S1600000, .f32⟩ : BufTy).Contents (Elt F) :=
  mulf (Host.gather gather_S100000_S1600000x1_S1600000_n_0_n_n_0_1_1 (degRsqrt dst) (wrapIdx src))
    (Host.gather gather_S100000_S1600000x1_S1600000_n_0_n_n_0_1_1 (degRsqrt dst) (wrapIdx dst))

/-- One propagation step over 128 columns: every edge carries its source row times the edge's coefficient to its
    destination row (scatter-added onto zeros), and every row adds itself times its own weight squared. -/
def refAppnp128 (feat : (⟨S100000x128, .f32⟩ : BufTy).Contents (Elt F))
    (src dst : (⟨S1600000, .i32⟩ : BufTy).Contents (Elt F)) : (⟨S100000x128, .f32⟩ : BufTy).Contents (Elt F) :=
  addf
    (Host.scatterAdd scatter_S100000x128_S1600000x1_S1600000x128_1_0_0_1
      (broadcastInDim S100000x128 ![] bcast_S_S100000x128 (constant S_ .f32 0x00000000#32))
      (broadcastInDim S1600000x1 ![0] bcast_S1600000_S1600000x1_0 dst)
      (mulf (Host.gather gather_S100000x128_S1600000x1_S1600000x128_1_0_n_n_0_1_1128 feat (wrapIdx src))
        (broadcastInDim S1600000x128 ![0, 1] bcast_S1600000x1_S1600000x128_0_1
          (broadcastInDim S1600000x1 ![0] bcast_S1600000_S1600000x1_0 (edgeCoef src dst)))))
    (mulf feat
      (broadcastInDim S100000x128 ![0, 1] bcast_S100000x1_S100000x128_0_1
        (broadcastInDim S100000x1 ![0] bcast_S100000_S100000x1_0 (mulf (degRsqrt dst) (degRsqrt dst)))))

/-- A length-128 vector laid as one row and repeated down the 100000 rows. -/
def downRows (v : (⟨S128, .f32⟩ : BufTy).Contents (Elt F)) : (⟨S100000x128, .f32⟩ : BufTy).Contents (Elt F) :=
  broadcastInDim S100000x128 ![0, 1] bcast_S1x128_S100000x128_0_1 (broadcastInDim S1x128 ![1] bcast_S128_S1x128_1 v)

/-- The column means: each column's sum over the rows, divided by 100000. -/
def colMean (h : (⟨S100000x128, .f32⟩ : BufTy).Contents (Elt F)) : (⟨S128, .f32⟩ : BufTy).Contents (Elt F) :=
  Host.divf (Host.reduceAdd h (constant S_ .f32 0x00000000#32) reducesTo_S100000x128_S128_d0 h_S_)
    (broadcastInDim S128 ![] bcast_S_S128 (constant S_ .f32 0x47C35000#32))

/-- The column means as the variance computes them for itself: one row, the sums divided by 100000. -/
def meanRow (h : (⟨S100000x128, .f32⟩ : BufTy).Contents (Elt F)) : (⟨S1x128, .f32⟩ : BufTy).Contents (Elt F) :=
  Host.divf
    (broadcastInDim S1x128 ![1] bcast_S128_S1x128_1
      (Host.reduceAdd h (constant S_ .f32 0x00000000#32) reducesTo_S100000x128_S128_d0 h_S_))
    (broadcastInDim S1x128 ![] bcast_S_S1x128 (constant S_ .f32 0x47C35000#32))

/-- The variance's divisor: 100000 less the correction, the correction being the integer 0 converted. -/
def varDenom : (⟨S_, .f32⟩ : BufTy).Contents (Elt F) :=
  subf (constant (F := F) S_ .f32 0x47C35000#32) (sitofp (F := F) .f32 (constantI S_ 32 0#32))

/-- The column variances: the squared deviations from the column means summed over the rows and divided by the
    divisor, where the divisor is positive; elsewhere the quiet not-a-number. -/
def colVar (h : (⟨S100000x128, .f32⟩ : BufTy).Contents (Elt F)) : (⟨S128, .f32⟩ : BufTy).Contents (Elt F) :=
  select (broadcastInDim S128 ![] bcast_S_S128 (cmpf .ogt (varDenom (F := F)) (constant S_ .f32 0x00000000#32)))
    (Host.divf
      (Host.reduceAdd
        (mulf (subf h (broadcastInDim S100000x128 ![0, 1] bcast_S1x128_S100000x128_0_1 (meanRow h)))
          (subf h (broadcastInDim S100000x128 ![0, 1] bcast_S1x128_S100000x128_0_1 (meanRow h))))
        (constant S_ .f32 0x00000000#32) reducesTo_S100000x128_S128_d0 h_S_)
      (broadcastInDim S128 ![] bcast_S_S128 varDenom))
    (broadcastInDim S128 ![] bcast_S_S128 (constant S_ .f32 0x7FC00000#32))

/-- The batch normalisation before the rectifier: gamma · (h − mean) · (var + 1e-5)^(−1/2) + beta, column by column. -/
def bnAffine (h : (⟨S100000x128, .f32⟩ : BufTy).Contents (Elt F)) (gamma beta : (⟨S128, .f32⟩ : BufTy).Contents (Elt F)) :
    (⟨S100000x128, .f32⟩ : BufTy).Contents (Elt F) :=
  addf
    (mulf (mulf (downRows gamma) (subf h (downRows (colMean h))))
      (downRows (Host.rsqrt (addf (colVar h) (broadcastInDim S128 ![] bcast_S_S128 (constant S_ .f32 0x3727C5AC#32))))))
    (downRows beta)

/-- The batch normalisation followed by the leaky rectifier: y where y > 0, else 0.01 · y. -/
def refBnAct (h : (⟨S100000x128, .f32⟩ : BufTy).Contents (Elt F)) (gamma beta : (⟨S128, .f32⟩ : BufTy).Contents (Elt F)) :
    (⟨S100000x128, .f32⟩ : BufTy).Contents (Elt F) :=
  select
    (cmpf .ogt (bnAffine h gamma beta) (broadcastInDim S100000x128 ![] bcast_S_S100000x128 (constant S_ .f32 0x00000000#32)))
    (bnAffine h gamma beta)
    (mulf (broadcastInDim S100000x128 ![] bcast_S_S100000x128 (constant S_ .f32 0x3C23D70A#32)) (bnAffine h gamma beta))

/-- h · W + b for the 128 → 64 projection. -/
def refLin64 (h : (⟨S100000x128, .f32⟩ : BufTy).Contents (Elt F)) (W : (⟨S128x64, .f32⟩ : BufTy).Contents (Elt F))
    (b : (⟨S64, .f32⟩ : BufTy).Contents (Elt F)) : (⟨S100000x64, .f32⟩ : BufTy).Contents (Elt F) :=
  addf (Host.dotGeneral dot_S100000x128_S128x64_S100000x64_1_0_0_1_n_n none h W)
    (broadcastInDim S100000x64 ![0, 1] bcast_S1x64_S100000x64_0_1 (broadcastInDim S1x64 ![1] bcast_S64_S1x64_1 b))

/-- One propagation step over 64 columns: as over 128. -/
def refAppnp64 (feat : (⟨S100000x64, .f32⟩ : BufTy).Contents (Elt F))
    (src dst : (⟨S1600000, .i32⟩ : BufTy).Contents (Elt F)) : (⟨S100000x64, .f32⟩ : BufTy).Contents (Elt F) :=
  addf
    (Host.scatterAdd scatter_S100000x64_S1600000x1_S1600000x64_1_0_0_1
      (broadcastInDim S100000x64 ![] bcast_S_S100000x64 (constant S_ .f32 0x00000000#32))
      (broadcastInDim S1600000x1 ![0] bcast_S1600000_S1600000x1_0 dst)
      (mulf (Host.gather gather_S100000x64_S1600000x1_S1600000x64_1_0_n_n_0_1_164 feat (wrapIdx src))
        (broadcastInDim S1600000x64 ![0, 1] bcast_S1600000x1_S1600000x64_0_1
          (broadcastInDim S1600000x1 ![0] bcast_S1600000_S1600000x1_0 (edgeCoef src dst)))))
    (mulf feat
      (broadcastInDim S100000x64 ![0, 1] bcast_S100000x1_S100000x64_0_1
        (broadcastInDim S100000x1 ![0] bcast_S100000_S100000x1_0 (mulf (degRsqrt dst) (degRsqrt dst)))))

/-- Every row divided by the larger of its Euclidean norm and 1e-12, then multiplied by 1.8. -/
def refScaleRows (l : (⟨S100000x64, .f32⟩ : BufTy).Contents (Elt F)) : (⟨S100000x64, .f32⟩ : BufTy).Contents (Elt F) :=
  mulf
    (Host.divf l
      (broadcastInDim S100000x64 ![0, 1] bcast_S100000x1_S100000x64_0_1
        (maximumf
          (Host.sqrt (broadcastInDim S100000x1 ![0] bcast_S100000_S100000x1_0
            (Host.reduceAdd (mulf l l) (constant S_ .f32 0x00000000#32) reducesTo_S100000x64_S100000_d1 h_S_)))
          (broadcastInDim S100000x1 ![] bcast_S_S100000x1 (constant S_ .f32 0x2B8CBCCC#32)))))
    (broadcastInDim S100000x64 ![] bcast_S_S100000x64 (constant S_ .f32 0x3FE66666#32))

/-- mu + noise · exp(logstd), entry by entry. -/
def refReparam (mu ls noise : (⟨S100000x64, .f32⟩ : BufTy).Contents (Elt F)) : (⟨S100000x64, .f32⟩ : BufTy).Contents (Elt F) :=
  addf mu (mulf noise (Host.exp ls))

end Cert.ReferenceIdeal.RefStages

end
-- ==== Proof.RefStages.lean ====
import proofs.«132517_j26465588478695_1_alg».proof.Proof.RefStagesDefs

/-! The reference's three results read back as the composition of its stage functions. The line of host operations is
    regrouped at the stage boundaries, each stage's result is read off its own stretch of the line, the stretches are
    chained, and the run's final contents are restated over the launch memory. -/

noncomputable section

namespace Cert.ReferenceIdeal.RefStages

open Cert.ReferenceIdeal Cert.ReferenceIdeal.Gen Cert.ReferenceIdeal.RefRun Idealize.ShloMosaic Idealize.ShloMosaic.TcCoe Idealize.SL.Sem Idealize.ShloMosaic.StableHlo

variable {F : FTy → Type} [FloatOps F]

/-! ## The line regrouped at the stage boundaries

The 225 operations, counted along the whole line: 1–4 the first linear map, 5–54 the first propagation, 55–105 the
batch normalisation and rectifier, 106–109 the second linear map, 110–159 the propagation giving mu, 160–172 the row
scaling, 173–222 the propagation giving logstd, 223–225 the reparameterisation. Each stretch is a slice of @main's
windows (a stretch that crosses a window boundary is the end of one window followed by the start of the next). -/

abbrev stA : List (HloOp τ sig (Elt F)) := ops0.take 4
abbrev stB : List (HloOp τ sig (Elt F)) := (ops0.drop 4).take 50
abbrev stC : List (HloOp τ sig (Elt F)) := ops0.drop 54 ++ ops1.take 45
abbrev stD : List (HloOp τ sig (Elt F)) := (ops1.drop 45).take 4
abbrev stE : List (HloOp τ sig (Elt F)) := ops1.drop 49 ++ ops2.take 18
abbrev stF : List (HloOp τ sig (Elt F)) := (ops2.drop 18).take 13
abbrev stG : List (HloOp τ sig (Elt F)) := ops2.drop 31 ++ ops3.take 17
abbrev stH : List (HloOp τ sig (Elt F)) := ops3.drop 17

set_option maxRecDepth 8192 in
/-- The whole line is the eight stretches in order: the same operations, regrouped. -/
theorem ops_stages : (ops : List (HloOp τ sig (Elt F))) = stA ++ (stB ++ (stC ++ (stD ++ (stE ++ (stF ++ (stG ++ stH)))))) := rfl

/-- The contents after the whole line, stretch by stretch. -/
theorem after_stages (V : Valuation τ sig (Elt F)) :
    after ops V = after stH (after stG (after stF (after stE (after stD (after stC (after stB (after stA V))))))) := by
  rw [ops_stages, after_app stA, after_app stB, after_app stC, after_app stD, after_app stE, after_app stF, after_app stG]

/-! The contents after the first one, …, eight stretches, from contents V. -/
local notation:max "VA(" V ")" => after stA V
local notation:max "VB(" V ")" => after stB (after stA V)
local notation:max "VC(" V ")" => after stC (after stB (after stA V))
local notation:max "VD(" V ")" => after stD (after stC (after stB (after stA V)))
local notation:max "VE(" V ")" => after stE (after stD (after stC (after stB (after stA V))))
local notation:max "VF(" V ")" => after stF (after stE (after stD (after stC (after stB (after stA V)))))
local notation:max "VG(" V ")" => after stG (after stF (after stE (after stD (after stC (after stB (after stA V))))))

/-! ## Each stretch's result, from the contents it starts at

The fold over a stretch at its result buffer is the stage function of the contents at the buffers the stretch reads:
the fold unrolls, each operation's result decides whether the buffer read is the one it writes, and what is left is
the stage function's own body. The reductions, gathers and scatters are kept folded meanwhile: the equation never
looks inside them. -/

attribute [local irreducible] Host.reduceAdd Host.gather Host.scatterAdd

set_option maxRecDepth 8192 in
theorem stA_v3 (W : Valuation τ sig (Elt F)) :
    after stA W (main_v3 : DevRef τ sig) = refLin128 (W main_arg0) (W main_arg3) (W main_arg4) := rfl

set_option maxRecDepth 8192 in
set_option maxHeartbeats 1000000 in
theorem stB_v43 (W : Valuation τ sig (Elt F)) :
    after stB W (main_v43 : DevRef τ sig) = refAppnp128 (W main_v3) (W main_arg1) (W main_arg2) := rfl

set_option maxRecDepth 8192 in
set_option maxHeartbeats 1000000 in
theorem stC_v67 (W : Valuation τ sig (Elt F)) :
    after stC W (main_v67 : DevRef τ sig) = refBnAct (W main_v43) (W main_arg5) (W main_arg6) := rfl

set_option maxRecDepth 8192 in
theorem stD_v71 (W : Valuation τ sig (Elt F)) :
    after stD W (main_v71 : DevRef τ sig) = refLin64 (W main_v67) (W main_arg7) (W main_arg8) := rfl

set_option maxRecDepth 8192 in
set_option maxHeartbeats 1000000 in
theorem stE_v111 (W : Valuation τ sig (Elt F)) :
    after stE W (main_v111 : DevRef τ sig) = refAppnp64 (W main_v71) (W main_arg1) (W main_arg2) := rfl

set_option maxRecDepth 8192 in
set_option maxHeartbeats 1000000 in
theorem stF_v118 (W : Valuation τ sig (Elt F)) :
    after stF W (main_v118 : DevRef τ sig) = refScaleRows (W main_v71) := rfl

set_option maxRecDepth 8192 in
set_option maxHeartbeats 1000000 in
theorem stG_v158 (W : Valuation τ sig (Elt F)) :
    after stG W (main_v158 : DevRef τ sig) = refAppnp64 (W main_v118) (W main_arg1) (W main_arg2) := rfl

set_option maxRecDepth 8192 in
theorem stH_v161 (W : Valuation τ sig (Elt F)) :
    after stH W (main_v161 : DevRef τ sig) = refReparam (W main_v111) (W main_v158) (W main_arg9) := rfl

/-! ## What the stretches leave alone

No operation writes an argument, and a stretch's result is written by that stretch only: the fold at such a buffer
passes every operation of the stretches in between. -/

set_option maxRecDepth 8192 in
theorem VA_arg1 (V : Valuation τ sig (Elt F)) : VA(V) (main_arg1 : DevRef τ sig) = V main_arg1 := rfl
set_option maxRecDepth 8192 in
theorem VA_arg2 (V : Valuation τ sig (Elt F)) : VA(V) (main_arg2 : DevRef τ sig) = V main_arg2 := rfl
set_option maxRecDepth 8192 in
theorem VB_arg5 (V : Valuation τ sig (Elt F)) : VB(V) (main_arg5 : DevRef τ sig) = V main_arg5 := rfl
set_option maxRecDepth 8192 in
theorem VB_arg6 (V : Valuation τ sig (Elt F)) : VB(V) (main_arg6 : DevRef τ sig) = V main_arg6 := rfl
set_option maxRecDepth 8192 in
theorem VC_arg7 (V : Valuation τ sig (Elt F)) : VC(V) (main_arg7 : DevRef τ sig) = V main_arg7 := rfl
set_option maxRecDepth 8192 in
theorem VC_arg8 (V : Valuation τ sig (Elt F)) : VC(V) (main_arg8 : DevRef τ sig) = V main_arg8 := rfl
set_option maxRecDepth 8192 in
theorem VD_arg1 (V : Valuation τ sig (Elt F)) : VD(V) (main_arg1 : DevRef τ sig) = V main_arg1 := rfl
set_option maxRecDepth 8192 in
theorem VD_arg2 (V : Valuation τ sig (Elt F)) : VD(V) (main_arg2 : DevRef τ sig) = V main_arg2 := rfl
set_option maxRecDepth 8192 in
theorem VF_arg1 (V : Valuation τ sig (Elt F)) : VF(V) (main_arg1 : DevRef τ sig) = V main_arg1 := rfl
set_option maxRecDepth 8192 in
theorem VF_arg2 (V : Valuation τ sig (Elt F)) : VF(V) (main_arg2 : DevRef τ sig) = V main_arg2 := rfl
set_option maxRecDepth 8192 in
theorem VG_arg9 (V : Valuation τ sig (Elt F)) : VG(V) (main_arg9 : DevRef τ sig) = V main_arg9 := rfl

set_option maxRecDepth 8192 in
theorem stE_keep_v71 (W : Valuation τ sig (Elt F)) : after stE W (main_v71 : DevRef τ sig) = W main_v71 := rfl
set_option maxRecDepth 8192 in
theorem stF_keep_v111 (W : Valuation τ sig (Elt F)) : after stF W (main_v111 : DevRef τ sig) = W main_v111 := rfl
set_option maxRecDepth 8192 in
theorem stG_keep_v111 (W : Valuation τ sig (Elt F)) : after stG W (main_v111 : DevRef τ sig) = W main_v111 := rfl
set_option maxRecDepth 8192 in
theorem stH_keep_v111 (W : Valuation τ sig (Elt F)) : after stH W (main_v111 : DevRef τ sig) = W main_v111 := rfl
set_option maxRecDepth 8192 in
theorem stH_keep_v158 (W : Valuation τ sig (Elt F)) : after stH W (main_v158 : DevRef τ sig) = W main_v158 := rfl

/-! ## The composition -/

/-- The first linear map of the arguments. -/
abbrev feat0 (V : Valuation τ sig (Elt F)) : (⟨S100000x128, .f32⟩ : BufTy).Contents (Elt F) :=
  refLin128 (V main_arg0) (V main_arg3) (V main_arg4)
/-- … propagated over the graph. -/
abbrev prop0 (V : Valuation τ sig (Elt F)) : (⟨S100000x128, .f32⟩ : BufTy).Contents (Elt F) :=
  refAppnp128 (feat0 V) (V main_arg1) (V main_arg2)
/-- … normalised and rectified. -/
abbrev hidden (V : Valuation τ sig (Elt F)) : (⟨S100000x128, .f32⟩ : BufTy).Contents (Elt F) :=
  refBnAct (prop0 V) (V main_arg5) (V main_arg6)
/-- The second projection of the arguments: the first linear map, propagated over the graph, normalised and rectified,
    projected to 64 columns. The arguments in @main's order. -/
def refL (a0 : (⟨S100000x128, .f32⟩ : BufTy).Contents (Elt F)) (a1 a2 : (⟨S1600000, .i32⟩ : BufTy).Contents (Elt F))
    (a3 : (⟨S128x128, .f32⟩ : BufTy).Contents (Elt F)) (a4 a5 a6 : (⟨S128, .f32⟩ : BufTy).Contents (Elt F))
    (a7 : (⟨S128x64, .f32⟩ : BufTy).Contents (Elt F)) (a8 : (⟨S64, .f32⟩ : BufTy).Contents (Elt F)) :
    (⟨S100000x64, .f32⟩ : BufTy).Contents (Elt F) :=
  refLin64 (refBnAct (refAppnp128 (refLin128 a0 a3 a4) a1 a2) a5 a6) a7 a8

/-- … projected to 64 columns: the second projection of the arguments' contents. -/
abbrev proj (V : Valuation τ sig (Elt F)) : (⟨S100000x64, .f32⟩ : BufTy).Contents (Elt F) :=
  refL (V main_arg0) (V main_arg1) (V main_arg2) (V main_arg3) (V main_arg4) (V main_arg5) (V main_arg6) (V main_arg7)
    (V main_arg8)

theorem proj_eq (V : Valuation τ sig (Elt F)) : refLin64 (hidden V) (V main_arg7) (V main_arg8) = proj V := rfl
/-- mu: the projection propagated. -/
abbrev muOf (V : Valuation τ sig (Elt F)) : (⟨S100000x64, .f32⟩ : BufTy).Contents (Elt F) :=
  refAppnp64 (proj V) (V main_arg1) (V main_arg2)
/-- logstd: the projection's rows scaled, then propagated. -/
abbrev logstdOf (V : Valuation τ sig (Elt F)) : (⟨S100000x64, .f32⟩ : BufTy).Contents (Elt F) :=
  refAppnp64 (refScaleRows (proj V)) (V main_arg1) (V main_arg2)
/-- zeta: mu + noise · exp(logstd). -/
abbrev zetaOf (V : Valuation τ sig (Elt F)) : (⟨S100000x64, .f32⟩ : BufTy).Contents (Elt F) :=
  refReparam (muOf V) (logstdOf V) (V main_arg9)

theorem VA_v3 (V : Valuation τ sig (Elt F)) : VA(V) (main_v3 : DevRef τ sig) = feat0 V := stA_v3 V

theorem VB_v43 (V : Valuation τ sig (Elt F)) : VB(V) (main_v43 : DevRef τ sig) = prop0 V := by
  rw [stB_v43, VA_v3, VA_arg1, VA_arg2]

theorem VC_v67 (V : Valuation τ sig (Elt F)) : VC(V) (main_v67 : DevRef τ sig) = hidden V := by
  rw [stC_v67, VB_v43, VB_arg5, VB_arg6]

theorem VD_v71 (V : Valuation τ sig (Elt F)) : VD(V) (main_v71 : DevRef τ sig) = proj V := by
  rw [stD_v71, VC_v67, VC_arg7, VC_arg8, proj_eq]

theorem VE_v111 (V : Valuation τ sig (Elt F)) : VE(V) (main_v111 : DevRef τ sig) = muOf V := by
  rw [stE_v111, VD_v71, VD_arg1, VD_arg2]

theorem VE_v71 (V : Valuation τ sig (Elt F)) : VE(V) (main_v71 : DevRef τ sig) = proj V := by
  rw [stE_keep_v71, VD_v71]

theorem VF_v118 (V : Valuation τ sig (Elt F)) : VF(V) (main_v118 : DevRef τ sig) = refScaleRows (proj V) := by
  rw [stF_v118, VE_v71]

theorem VG_v158 (V : Valuation τ sig (Elt F)) : VG(V) (main_v158 : DevRef τ sig) = logstdOf V := by
  rw [stG_v158, VF_v118, VF_arg1, VF_arg2]

theorem VG_v111 (V : Valuation τ sig (Elt F)) : VG(V) (main_v111 : DevRef τ sig) = muOf V := by
  rw [stG_keep_v111, stF_keep_v111, VE_v111]

/-! ## The three results and the ten arguments after the whole line -/

/-- mu: the first result. -/
theorem out_mu (V : Valuation τ sig (Elt F)) : after ops V (main_v111 : DevRef τ sig) = muOf V := by
  rw [after_stages, stH_keep_v111, VG_v111]

/-- logstd: the second result. -/
theorem out_logstd (V : Valuation τ sig (Elt F)) : after ops V (main_v158 : DevRef τ sig) = logstdOf V := by
  rw [after_stages, stH_keep_v158, VG_v158]

/-- zeta: the third result. -/
theorem out_zeta (V : Valuation τ sig (Elt F)) : after ops V (main_v161 : DevRef τ sig) = zetaOf V := by
  rw [after_stages, stH_v161, VG_v111, VG_v158, VG_arg9]

set_option maxRecDepth 8192 in
theorem arg0_kept (V : Valuation τ sig (Elt F)) : after ops V (main_arg0 : DevRef τ sig) = V main_arg0 := rfl
set_option maxRecDepth 8192 in
theorem arg1_kept (V : Valuation τ sig (Elt F)) : after ops V (main_arg1 : DevRef τ sig) = V main_arg1 := rfl
set_option maxRecDepth 8192 in
theorem arg2_kept (V : Valuation τ sig (Elt F)) : after ops V (main_arg2 : DevRef τ sig) = V main_arg2 := rfl
set_option maxRecDepth 8192 in
theorem arg3_kept (V : Valuation τ sig (Elt F)) : after ops V (main_arg3 : DevRef τ sig) = V main_arg3 := rfl
set_option maxRecDepth 8192 in
theorem arg4_kept (V : Valuation τ sig (Elt F)) : after ops V (main_arg4 : DevRef τ sig) = V main_arg4 := rfl
set_option maxRecDepth 8192 in
theorem arg5_kept (V : Valuation τ sig (Elt F)) : after ops V (main_arg5 : DevRef τ sig) = V main_arg5 := rfl
set_option maxRecDepth 8192 in
theorem arg6_kept (V : Valuation τ sig (Elt F)) : after ops V (main_arg6 : DevRef τ sig) = V main_arg6 := rfl
set_option maxRecDepth 8192 in
theorem arg7_kept (V : Valuation τ sig (Elt F)) : after ops V (main_arg7 : DevRef τ sig) = V main_arg7 := rfl
set_option maxRecDepth 8192 in
theorem arg8_kept (V : Valuation τ sig (Elt F)) : after ops V (main_arg8 : DevRef τ sig) = V main_arg8 := rfl
set_option maxRecDepth 8192 in
theorem arg9_kept (V : Valuation τ sig (Elt F)) : after ops V (main_arg9 : DevRef τ sig) = V main_arg9 := rfl

/-! ## The run over the launch memory -/

/-- On every device, for any float values, from any memory with zero counters: every weakly fair execution of @main
    terminates with the three results at the stage functions' composition of the arguments' launch contents, and the
    ten arguments unchanged. -/
theorem run_values (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v111) = refAppnp64 (refL (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))) (m ((c.tc : Thread nD τ).loc main_arg1)) (m ((c.tc : Thread nD τ).loc main_arg2))
      ∧ r.2.mem ((c.tc : Thread nD τ).loc main_v158) = refAppnp64 (refScaleRows (refL (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)))) (m ((c.tc : Thread nD τ).loc main_arg1)) (m ((c.tc : Thread nD τ).loc main_arg2))
      ∧ r.2.mem ((c.tc : Thread nD τ).loc main_v161) = refReparam (refAppnp64 (refL (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))) (m ((c.tc : Thread nD τ).loc main_arg1)) (m ((c.tc : Thread nD τ).loc main_arg2))) (refAppnp64 (refScaleRows (refL (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)))) (m ((c.tc : Thread nD τ).loc main_arg1)) (m ((c.tc : Thread nD τ).loc main_arg2))) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨(h c main_v111).trans (out_mu _), (h c main_v158).trans (out_logstd _),
      (h c main_v161).trans (out_zeta _),
      (h c main_arg0).trans (arg0_kept _),
      (h c main_arg1).trans (arg1_kept _),
      (h c main_arg2).trans (arg2_kept _),
      (h c main_arg3).trans (arg3_kept _),
      (h c main_arg4).trans (arg4_kept _),
      (h c main_arg5).trans (arg5_kept _),
      (h c main_arg6).trans (arg6_kept _),
      (h c main_arg7).trans (arg7_kept _),
      (h c main_arg8).trans (arg8_kept _),
      (h c main_arg9).trans (arg9_kept _)⟩)
    (run_all m ρ)

end Cert.ReferenceIdeal.RefStages

end
-- ==== Proof.LibRealSums.lean ====
/-
  Finite sums of real numbers read in the extended reals.

  The extended reals are a commutative monoid under addition, so a finite sum may be regrouped and reordered at will, the
  infinities included; what fails at the infinities is distributivity, and with it the associativity of a product of three
  matrices. Here: the cast of a finite real sum is the sum of the casts; for REAL-valued factors the two ways of
  associating a triple product agree entry by entry; and a sum over `Fin (m + d)` whose last `d` terms vanish is the sum
  of its first `m` terms (a contraction padded with zeros, or cut by a mask, is the unpadded contraction).
-/
import Mathlib.Data.EReal.Operations
import Mathlib.Algebra.BigOperators.Fin
import Mathlib.Algebra.BigOperators.Ring.Finset

namespace Cert.RealSums

open Finset

/-- The cast of a finite sum of reals is the sum of the casts. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The real identity: `∑ₖ (∑ⱼ aⱼ bⱼₖ) cₖ = ∑ⱼ aⱼ (∑ₖ bⱼₖ cₖ)`, one row `a` of the left factor against one column `c`
    of the right one. -/
theorem assoc_row_col {J K : Type*} [Fintype J] [Fintype K] (a : J → ℝ) (b : J → K → ℝ) (c : K → ℝ) :
    (∑ k, (∑ j, a j * b j k) * c k) = ∑ j, a j * ∑ k, b j k * c k := by
  simp only [Finset.sum_mul, Finset.mul_sum]
  rw [Finset.sum_comm]
  exact Finset.sum_congr rfl fun j _ => Finset.sum_congr rfl fun k _ => by ring

/-- The same read in the extended reals, each factor the cast of a real: `(A·B)·C` and `A·(B·C)` have equal entries
    when `A`'s row, `B` and `C`'s column are finite. -/
theorem assoc_row_col_coe {J K : Type*} [Fintype J] [Fintype K] (a : J → ℝ) (b : J → K → ℝ) (c : K → ℝ) :
    (∑ k, (∑ j, (a j : EReal) * (b j k : EReal)) * (c k : EReal))
      = ∑ j, (a j : EReal) * ∑ k, (b j k : EReal) * (c k : EReal) := by
  simp only [← EReal.coe_mul, ← coe_sum]
  rw [assoc_row_col]

/-- A sum over `Fin (m + d)` whose last `d` terms vanish is the sum of its first `m` terms. -/
theorem sum_castAdd_of_tail_zero {M : Type*} [AddCommMonoid M] {m d : ℕ} (f : Fin (m + d) → M)
    (hz : ∀ i : Fin d, f (Fin.natAdd m i) = 0) : ∑ i, f i = ∑ i : Fin m, f (Fin.castAdd d i) := by
  rw [Fin.sum_univ_add, Finset.sum_eq_zero (fun i _ => hz i), add_zero]

/-- A sum over `Fin (m + d)` is the sum of its first `m` terms plus the sum of its last `d` (a contraction done as a head
    product and a tail product). -/
theorem sum_head_add_tail {M : Type*} [AddCommMonoid M] {m d : ℕ} (f : Fin (m + d) → M) :
    ∑ i, f i = (∑ i : Fin m, f (Fin.castAdd d i)) + ∑ i : Fin d, f (Fin.natAdd m i) :=
  Fin.sum_univ_add f

end Cert.RealSums
-- ==== Proof.Alg.lean ====
/-
  The real-number algebra that joins the two programs, carried on the extended reals.
  Three facts. (1) Batch normalisation: with column sums s = Σ h and q = Σ h², the affine form
  h · (γ r) + (β − μ (γ r)), μ = s/N, r = (q/N − μ² + ε)^(-1/2), equals the centred form
  γ (h − μ) r' + β with r' = ((Σ (h − μ)²)/N + ε)^(-1/2): the two variances agree because
  Σ (h − μ)² = q − N μ² when μ = s/N and N is the number of rows, and both are ≥ 0, so the
  reciprocal square root is taken of a positive real. (2) Row scaling: l · (c / m) = (l / m) · c for a
  positive real m = max(‖row‖, tiny). (3) Closure: sums, products and differences of reals are reals.
  All three need the entries to be real numbers: on the extended reals distributivity fails at infinities.
-/
import Idealize.ShloMosaic.PureOps.Ideal
import Idealize.ShloMosaic.PureOps.Ideal.Laws
import proofs.«132517_j26465588478695_1_alg».proof.Proof.LibRealSums

noncomputable section

namespace Cert.Alg

open Idealize.ShloMosaic

/-! ## Real entries -/

/-- An extended real that is a real number. -/
def IsReal (x : EReal) : Prop := ∃ r : ℝ, x = (r : EReal)

theorem isReal_coe (r : ℝ) : IsReal (r : EReal) := ⟨r, rfl⟩
theorem isReal_zero : IsReal 0 := ⟨0, rfl⟩
theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.sub {x y : EReal} (hx : IsReal x) (hy : IsReal y) : IsReal (x - y) := by
  obtain ⟨a, rfl⟩ := hx; obtain ⟨b, rfl⟩ := hy; exact ⟨a - b, (EReal.coe_sub a b).symm⟩
theorem IsReal.sum {ι : Type*} (s : Finset ι) (f : ι → EReal) (h : ∀ i ∈ s, IsReal (f i)) : IsReal (∑ i ∈ s, f i) :=
  Finset.sum_induction f IsReal (fun _ _ => IsReal.add) isReal_zero h

/-! ## The literals -/

/-- f32 100000.0 is the real 100000. -/
theorem cN_eq : Ideal.ofBits .f32 0x47C35000#32 = ((100000 : ℝ) : EReal) := by
  simp [Ideal.ofBits, Ideal.ieee, -EReal.coe_mul]; norm_num
/-- f32 1.0 is the real 1. -/
theorem cOne_eq : Ideal.ofBits .f32 0x3F800000#32 = ((1 : ℝ) : EReal) := by
  simp [Ideal.ofBits, Ideal.ieee, -EReal.coe_mul]; norm_num
/-- The variance's epsilon, f32(1e-5), is a positive real. -/
theorem cEps_pos : ∃ e : ℝ, 0 < e ∧ Ideal.ofBits .f32 0x3727C5AC#32 = (e : EReal) := by
  simp [Ideal.ofBits, Ideal.ieee, -EReal.coe_mul]
/-- The norm's floor, f32(1e-12), is a positive real. -/
theorem cTiny_pos : ∃ e : ℝ, 0 < e ∧ Ideal.ofBits .f32 0x2B8CBCCC#32 = (e : EReal) := by
  simp [Ideal.ofBits, Ideal.ieee, -EReal.coe_mul]
/-- f32(1.8) is a real. -/
theorem c18_real : IsReal (Ideal.ofBits .f32 0x3FE66666#32) := by
  unfold IsReal; simp [Ideal.ofBits, Ideal.ieee, -EReal.coe_mul]
/-- The rectifier's slope, f32(0.01), is a real. -/
theorem cSlope_real : IsReal (Ideal.ofBits .f32 0x3C23D70A#32) := by
  unfold IsReal; simp [Ideal.ofBits, Ideal.ieee, -EReal.coe_mul]

/-! ## The operations with corners, on reals -/

theorem div_real (a : ℝ) {b : ℝ} (hb : b ≠ 0) : Ideal.div (a : EReal) (b : EReal) = ((a / b : ℝ) : EReal) := by
  rw [Ideal.div_coe hb, ← EReal.coe_mul]; congr 1; ring
theorem rsqrt_real {v : ℝ} (hv : 0 < v) : Ideal.rsqrt (v : EReal) = (((Real.sqrt v)⁻¹ : ℝ) : EReal) := by
  rw [Ideal.rsqrt_coe, if_neg (not_lt.mpr hv.le), if_neg hv.ne']
theorem sqrt_real {v : ℝ} (hv : 0 ≤ v) : Ideal.sqrt (v : EReal) = ((Real.sqrt v : ℝ) : EReal) := by
  rw [Ideal.sqrt_coe, if_neg (not_lt.mpr hv)]

/-! ## Batch normalisation -/

/-- Over the reals: the mean of squared deviations is the mean of squares minus the squared mean (100000 rows). -/
theorem var_identity (f : Fin 100000 → ℝ) :
    (∑ n, (f n - (∑ k, f k) / 100000) * (f n - (∑ k, f k) / 100000)) / 100000
      = (∑ n, f n * f n) / 100000 - ((∑ k, f k) / 100000) * ((∑ k, f k) / 100000) := by
  set μ := (∑ k, f k) / 100000 with hμ
  have h1 : ∑ n, (f n - μ) * (f n - μ) = ∑ n, f n * f n - 2 * μ * ∑ n, f n + 100000 * (μ * μ) := by
    have e : ∀ n, (f n - μ) * (f n - μ) = f n * f n - 2 * μ * f n + μ * μ := fun n => by ring
    simp only [e, Finset.sum_add_distrib, Finset.sum_sub_distrib, ← Finset.mul_sum, Finset.sum_const,
      Finset.card_univ, Fintype.card_fin, nsmul_eq_mul]
    norm_num
    ring
  have h2 : ∑ n, f n = 100000 * μ := by rw [hμ]; ring
  rw [h1, h2]; ring

theorem var_nonneg (f : Fin 100000 → ℝ) :
    0 ≤ (∑ n, (f n - (∑ k, f k) / 100000) * (f n - (∑ k, f k) / 100000)) / 100000 :=
  div_nonneg (Finset.sum_nonneg fun n _ => mul_self_nonneg _) (by norm_num)

/-- The kernel's scale from the column sums: γ · (q/N − (s/N)² + ε)^(-1/2). -/
def kScale (s q γ : EReal) : EReal :=
  γ * Ideal.rsqrt ((Ideal.div q (Ideal.ofBits .f32 0x47C35000#32)
      - Ideal.div s (Ideal.ofBits .f32 0x47C35000#32) * Ideal.div s (Ideal.ofBits .f32 0x47C35000#32))
    + Ideal.ofBits .f32 0x3727C5AC#32)
/-- The kernel's shift: β − (s/N) · scale. -/
def kShift (s q γ β : EReal) : EReal := β - Ideal.div s (Ideal.ofBits .f32 0x47C35000#32) * kScale s q γ

/-- The reference's column mean: (0 + Σ column) / N. -/
def rMean (col : Fin 100000 → EReal) : EReal :=
  Ideal.div (Ideal.ofBits .f32 0x00000000#32 + ∑ n, col n) (Ideal.ofBits .f32 0x47C35000#32)
/-- The reference's divisor: N minus the correction 0 (an integer read exactly). -/
def rCount : EReal := Ideal.ofBits .f32 0x47C35000#32 - ((((0#32 : BitVec 32).toInt : ℝ)) : EReal)
/-- The reference's column variance: where the divisor is positive, (0 + Σ (col − mean)²) / divisor; else the NaN word. -/
def rVar (col : Fin 100000 → EReal) : EReal :=
  Scalar.select (Ideal.cmp .ogt rCount (Ideal.ofBits .f32 0x00000000#32))
    (Ideal.div (Ideal.ofBits .f32 0x00000000#32 + ∑ n, (col n - rMean col) * (col n - rMean col)) rCount)
    (Ideal.ofBits .f32 0x7FC00000#32)

section
variable (f : Fin 100000 → ℝ)

theorem sum_col : (∑ n, ((f n : ℝ) : EReal)) = ((∑ n, f n : ℝ) : EReal) := (Cert.RealSums.coe_sum Finset.univ f).symm
theorem sumsq_col : (∑ n, ((f n : ℝ) : EReal) * ((f n : ℝ) : EReal)) = ((∑ n, f n * f n : ℝ) : EReal) := by
  simp only [← EReal.coe_mul]; exact (Cert.RealSums.coe_sum Finset.univ fun n => f n * f n).symm

theorem rMean_real : rMean (fun n => (f n : EReal)) = (((∑ k, f k) / 100000 : ℝ) : EReal) := by
  unfold rMean
  rw [Ideal.ofBits_zero_f32, zero_add, sum_col, cN_eq, div_real _ (by norm_num)]

theorem rCount_eq : rCount = ((100000 : ℝ) : EReal) := by
  unfold rCount
  rw [cN_eq, show ((0#32 : BitVec 32).toInt : ℝ) = 0 by norm_num, ← EReal.coe_sub, sub_zero]

theorem rVar_real : rVar (fun n => (f n : EReal))
    = (((∑ n, (f n - (∑ k, f k) / 100000) * (f n - (∑ k, f k) / 100000)) / 100000 : ℝ) : EReal) := by
  unfold rVar
  rw [rCount_eq, Ideal.ofBits_zero_f32]
  have hc : Ideal.cmp .ogt ((100000 : ℝ) : EReal) 0 = 1#1 := by
    simp [Ideal.cmp]
  rw [hc]
  show Ideal.div (0 + ∑ n, ((f n : EReal) - rMean fun n => (f n : EReal)) * ((f n : EReal) - rMean fun n => (f n : EReal))) _ = _
  rw [rMean_real, zero_add]
  simp only [← EReal.coe_sub, ← EReal.coe_mul]
  rw [← Cert.RealSums.coe_sum, div_real _ (by norm_num)]

/-- Batch normalisation's two forms agree on real entries. -/
theorem bn_eq (γ β : ℝ) (x : ℝ) :
    (x : EReal) * kScale (∑ n, (f n : EReal)) (∑ n, (f n : EReal) * (f n : EReal)) γ
        + kShift (∑ n, (f n : EReal)) (∑ n, (f n : EReal) * (f n : EReal)) γ β
      = (γ : EReal) * ((x : EReal) - rMean fun n => (f n : EReal))
          * Ideal.rsqrt (rVar (fun n => (f n : EReal)) + Ideal.ofBits .f32 0x3727C5AC#32) + β := by
  obtain ⟨ε, hε, he⟩ := cEps_pos
  rw [rMean_real, rVar_real, he]
  unfold kShift kScale
  rw [sum_col, sumsq_col, cN_eq, he, div_real _ (by norm_num), div_real _ (by norm_num)]
  have hv := var_identity f
  have hn := var_nonneg f
  set μ : ℝ := (∑ k, f k) / 100000 with hμ
  set v : ℝ := (∑ n, (f n - μ) * (f n - μ)) / 100000 with hvdef
  rw [← EReal.coe_mul, ← EReal.coe_sub, ← hv, ← EReal.coe_add,
    rsqrt_real (by linarith : 0 < v + ε)]
  simp only [← EReal.coe_mul, ← EReal.coe_sub, ← EReal.coe_add]
  congr 1; ring

/-- … and the common value is a real. -/
theorem bn_real (γ β : ℝ) (x : ℝ) :
    IsReal ((γ : EReal) * ((x : EReal) - rMean fun n => (f n : EReal))
          * Ideal.rsqrt (rVar (fun n => (f n : EReal)) + Ideal.ofBits .f32 0x3727C5AC#32) + β) := by
  obtain ⟨ε, hε, he⟩ := cEps_pos
  rw [rMean_real, rVar_real, he, ← EReal.coe_add, rsqrt_real (by have := var_nonneg f; linarith)]
  exact ((((isReal_coe _).mul ((isReal_coe _).sub (isReal_coe _))).mul (isReal_coe _)).add (isReal_coe _))
end

/-! ## Row scaling -/

/-- l · (c / max(√ss, tiny)) = (l / max(√(0 + ss), tiny)) · c for real l and a real ss ≥ 0. -/
theorem l2_eq (l ss : ℝ) (hss : 0 ≤ ss) :
    (l : EReal) * Ideal.div (Ideal.ofBits .f32 0x3FE66666#32)
        (max (Ideal.sqrt (ss : EReal)) (Ideal.ofBits .f32 0x2B8CBCCC#32))
      = Ideal.div (l : EReal) (max (Ideal.sqrt (Ideal.ofBits .f32 0x00000000#32 + (ss : EReal)))
          (Ideal.ofBits .f32 0x2B8CBCCC#32)) * Ideal.ofBits .f32 0x3FE66666#32 := by
  obtain ⟨t, ht, het⟩ := cTiny_pos
  obtain ⟨c, hc⟩ := c18_real
  rw [Ideal.ofBits_zero_f32, zero_add, het, hc, sqrt_real hss, ← EReal.coe_strictMono.monotone.map_max]
  have hm : (max (Real.sqrt ss) t) ≠ 0 := (lt_of_lt_of_le ht (le_max_right _ _)).ne'
  rw [div_real _ hm, div_real _ hm, ← EReal.coe_mul, ← EReal.coe_mul]
  congr 1; ring

end Cert.Alg

end
-- ==== Proof.SpecRef.lean ====
/-
  The two places where the programs differ in arrangement, in the reference's arrangement and index by
  index: the centred batch normalisation followed by the leaky rectifier, γ (h − mean) · (var + ε)^(-1/2) + β
  with the column's mean and variance as the reference computes them; and the row scaling
  (l / max(‖row‖, tiny)) · 1.8 with the row's sum of squares started from zero. Also the predicate
  "every entry is a real number", under which the two arrangements agree.
-/
import proofs.«132517_j26465588478695_1_alg».proof.Proof.Spec
import proofs.«132517_j26465588478695_1_alg».proof.Proof.Alg

noncomputable section

namespace Cert.Spec

open Idealize.ShloMosaic Idealize.ShloMosaic.ValueIdx Cert.Alg

/-- Every entry of an array of extended reals is a real number. -/
def AllReal {s : Shape} (x : s.Idx → EReal) : Prop := ∀ i, IsReal (x i)

/-- Entry (n, d) of the reference's normalise-and-rectify: column d's mean and variance over all rows. -/
def bnActRefAt (h : SNx128.Idx → EReal) (γ β : (⟨1, ![128]⟩ : Shape).Idx → EReal) (n : Fin 100000) (d : Fin 128) : EReal :=
  lrelu (γ (ix1 d) * (h (ix2 n d) - rMean (fun k => h (ix2 k d)))
      * Ideal.rsqrt (rVar (fun k => h (ix2 k d)) + Ideal.ofBits .f32 0x3727C5AC#32) + β (ix1 d))

def bnActRef (h : SNx128.Idx → EReal) (γ β : (⟨1, ![128]⟩ : Shape).Idx → EReal) : SNx128.Idx → EReal :=
  fun i => bnActRefAt h γ β (i 0) (i 1)

/-- Entry (n, d) of the reference's row scaling: (l / max (sqrt (0 + row n's sum of squares), 1e-12)) · 1.8. -/
def l2scaleRefAt (l : SNx64.Idx → EReal) (n : Fin 100000) (d : Fin 64) : EReal :=
  Ideal.div (l (ix2 n d))
      (max (Ideal.sqrt (Ideal.ofBits .f32 0x00000000#32 + rowSq l n)) (Ideal.ofBits .f32 0x2B8CBCCC#32))
    * Ideal.ofBits .f32 0x3FE66666#32

def l2scaleRef (l : SNx64.Idx → EReal) : SNx64.Idx → EReal := fun i => l2scaleRefAt l (i 0) (i 1)

theorem bnActRef_ix2 (h : SNx128.Idx → EReal) (γ β : (⟨1, ![128]⟩ : Shape).Idx → EReal) (n : Fin 100000) (d : Fin 128) :
    bnActRef h γ β (ix2 n d) = bnActRefAt h γ β n d := rfl
theorem l2scaleRef_ix2 (l : SNx64.Idx → EReal) (n : Fin 100000) (d : Fin 64) :
    l2scaleRef l (ix2 n d) = l2scaleRefAt l n d := rfl

end Cert.Spec

end
-- ==== Proof.KReal.lean ====
/-
  Real entries are kept by every stage the kernel's value goes through before the two places where
  algebra on real numbers is needed. A gather and a broadcast only re-index their operand; a scatter-add
  adds finitely many update entries to an operand entry; a node's degree is one plus a count, so its
  inverse square root is a positive real; a projection is a finite sum of products plus a bias entry.
-/
import proofs.«132517_j26465588478695_1_alg».proof.Proof.KStages
import proofs.«132517_j26465588478695_1_alg».proof.Proof.Spec
import proofs.«132517_j26465588478695_1_alg».proof.Proof.Alg
import proofs.«132517_j26465588478695_1_alg».proof.Proof.SpecRef

noncomputable section

namespace Cert.KernelIdeal.KReal

open Idealize.ShloMosaic Idealize.ShloMosaic.ValueIdx Cert.Alg Cert.KernelIdeal Cert.KernelIdeal.KStages Cert.Spec
open Cert.KernelIdeal.Facts₀ Cert.KernelIdeal.Facts

/-! ## The host operations -/

theorem real_gather {s si t : Shape} {w : Nat} (d : GatherDims s si t) (x : s.Idx → EReal) (idx : IVec si w)
    (h : AllReal x) : AllReal (Host.gather d x idx) := fun j => h _
theorem real_bcast {s : Shape} (t : Shape) (dims : Fin s.rank → Fin t.rank) (hb : s.BroadcastsInDim t dims)
    (x : s.Idx → EReal) (h : AllReal x) : AllReal (broadcastInDim t dims hb x) := fun j => h _
theorem real_const (s : Shape) (w : BitVec 32) (h : IsReal (Ideal.ofBits .f32 w)) :
    AllReal (constant (F := Ideal) s .f32 w) := fun _ => h
theorem real_add {s : Shape} (a b : s.Idx → EReal) (ha : AllReal a) (hb : AllReal b) :
    AllReal (addf (F := Ideal) (φ := .f32) a b) := fun i => (ha i).add (hb i)
theorem real_mul {s : Shape} (a b : s.Idx → EReal) (ha : AllReal a) (hb : AllReal b) :
    AllReal (mulf (F := Ideal) (φ := .f32) a b) := fun i => (ha i).mul (hb i)
theorem real_scatterAdd {s si u : Shape} {w : Nat} (d : ScatterDims s si u) (x : s.Idx → EReal) (idx : IVec si w)
    (upd : u.Idx → EReal) (hx : AllReal x) (hu : AllReal upd) :
    AllReal (Host.scatterAdd (F := Ideal) (φ := .f32) d x idx upd) :=
  fun i => (hx i).add (IsReal.sum _ _ fun j _ => hu j)
theorem real_shapeCast {s : Shape} (t : Shape) (x : s.Idx → EReal) (hc : s.ShapeCasts t) (h : AllReal x) :
    AllReal (shapeCast t x hc) := fun j => h _

theorem isReal_zeroWord : IsReal (Ideal.ofBits .f32 0x00000000#32) := ⟨0, Ideal.ofBits_zero_f32⟩

/-! ## The degree and the weights -/

/-- A non-negative real. -/
def IsNN (x : EReal) : Prop := ∃ r : ℝ, 0 ≤ r ∧ x = (r : EReal)
theorem IsNN.add {x y : EReal} (hx : IsNN x) (hy : IsNN y) : IsNN (x + y) := by
  obtain ⟨a, ha, rfl⟩ := hx; obtain ⟨b, hb, rfl⟩ := hy; exact ⟨a + b, add_nonneg ha hb, (EReal.coe_add a b).symm⟩
theorem IsNN.sum {ι : Type*} (s : Finset ι) (f : ι → EReal) (h : ∀ i ∈ s, IsNN (f i)) : IsNN (∑ i ∈ s, f i) :=
  Finset.sum_induction f IsNN (fun _ _ => IsNN.add) ⟨0, le_rfl, rfl⟩ h
/-- A scatter-add of non-negative reals onto non-negative reals has non-negative real entries. -/
theorem nn_scatterAdd {s si u : Shape} {w : Nat} (d : ScatterDims s si u) (x : s.Idx → EReal) (idx : IVec si w)
    (upd : u.Idx → EReal) (hx : ∀ i, IsNN (x i)) (hu : ∀ j, IsNN (upd j)) (i : s.Idx) :
    IsNN (Host.scatterAdd (F := Ideal) (φ := .f32) d x idx upd i) :=
  (hx i).add (IsNN.sum _ _ fun j _ => hu j)

/-- Where every entry is a positive real, so is every entry of the host's inverse square root. -/
theorem pos_rsqrt {s : Shape} (x : s.Idx → EReal) (h : ∀ i, ∃ r : ℝ, 0 < r ∧ x i = (r : EReal)) (i : s.Idx) :
    ∃ r : ℝ, 0 < r ∧ Host.rsqrt (F := Ideal) (φ := .f32) x i = (r : EReal) := by
  obtain ⟨r, hr, e⟩ := h i
  refine ⟨(Real.sqrt r)⁻¹, by positivity, ?_⟩
  show Ideal.rsqrt (x i) = _
  rw [e, rsqrt_real hr]

/-- A non-negative real plus one is a positive real. -/
theorem pos_add_one {s : Shape} (a b : s.Idx → EReal) (ha : ∀ i, IsNN (a i)) (hb : ∀ i, b i = ((1 : ℝ) : EReal)) (i : s.Idx) :
    ∃ r : ℝ, 0 < r ∧ addf (F := Ideal) (φ := .f32) a b i = (r : EReal) := by
  obtain ⟨r, hr, e⟩ := ha i
  refine ⟨r + 1, by linarith, ?_⟩
  show a i + b i = _
  rw [e, hb i, ← EReal.coe_add]

/-- A node's degree is one plus a count of ones, so its inverse square root is a positive real. -/
theorem dinv_pos (dst : (⟨S1600000, .i32⟩ : BufTy).Contents (Elt Ideal)) (i : S100000.Idx) :
    ∃ r : ℝ, 0 < r ∧ dinv (F := Ideal) dst i = (r : EReal) := by
  unfold dinv
  exact pos_rsqrt _ (pos_add_one _ _
    (nn_scatterAdd _ _ _ _ (fun _ => ⟨0, le_rfl, Ideal.ofBits_zero_f32⟩) (fun _ => ⟨1, zero_le_one, cOne_eq⟩))
    (fun _ => cOne_eq)) i

theorem dinv_real (dst : (⟨S1600000, .i32⟩ : BufTy).Contents (Elt Ideal)) : AllReal (dinv (F := Ideal) dst) :=
  fun i => let ⟨r, _, h⟩ := dinv_pos dst i; ⟨r, h⟩

theorem edgeW_real (src dst : (⟨S1600000, .i32⟩ : BufTy).Contents (Elt Ideal)) : AllReal (edgeW (F := Ideal) src dst) := by
  unfold edgeW
  exact real_mul _ _ (real_gather _ _ _ (dinv_real dst)) (real_gather _ _ _ (dinv_real dst))

theorem selfW_real (dst : (⟨S1600000, .i32⟩ : BufTy).Contents (Elt Ideal)) : AllReal (selfW (F := Ideal) dst) := by
  unfold selfW
  exact real_mul _ _ (dinv_real dst) (dinv_real dst)

/-! ## The propagation -/

theorem agg128_real (feat : (⟨S100000x128, .f32⟩ : BufTy).Contents (Elt Ideal)) (src dst : (⟨S1600000, .i32⟩ : BufTy).Contents (Elt Ideal))
    (w : (⟨S1600000, .f32⟩ : BufTy).Contents (Elt Ideal)) (ss : (⟨S100000, .f32⟩ : BufTy).Contents (Elt Ideal))
    (hf : AllReal feat) (hw : AllReal w) (hs : AllReal ss) : AllReal (agg128 (F := Ideal) feat src dst w ss) := by
  unfold agg128
  exact real_add _ _
    (real_scatterAdd _ _ _ _ (real_bcast _ _ _ _ (real_const _ _ isReal_zeroWord))
      (real_mul _ _ (real_gather _ _ _ hf) (real_bcast _ _ _ _ (real_bcast _ _ _ _ hw))))
    (real_mul _ _ hf (real_bcast _ _ _ _ (real_bcast _ _ _ _ hs)))

/-! ## The projections, the row layouts and the rectifier -/

theorem lin128_real (x : SNx128.Idx → EReal) (W : SW128.Idx → EReal) (b : SRow128.Idx → EReal)
    (hx : AllReal x) (hW : AllReal W) (hb : AllReal b) : AllReal (lin128 x W b) := fun i => by
  show IsReal ((∑ k : Fin 128, x (ix2 (i 0) k) * W (ix2 k (i 1))) + b (ix2 (0 : Fin 1) (i 1)))
  exact (IsReal.sum _ _ fun k _ => (hx _).mul (hW _)).add (hb _)

theorem lin64_real (h : SNx128.Idx → EReal) (W : SW64.Idx → EReal) (b : SRow64.Idx → EReal)
    (hh : AllReal h) (hW : AllReal W) (hb : AllReal b) : AllReal (lin64 h W b) := fun i => by
  show IsReal ((∑ k : Fin 128, h (ix2 (i 0) k) * W (ix2 k (i 1))) + b (ix2 (0 : Fin 1) (i 1)))
  exact (IsReal.sum _ _ fun k _ => (hh _).mul (hW _)).add (hb _)

theorem row128_real (v : (⟨S128, .f32⟩ : BufTy).Contents (Elt Ideal)) (h : AllReal v) : AllReal (row128 (F := Ideal) v) :=
  real_shapeCast _ _ _ h
theorem row64_real (v : (⟨S64, .f32⟩ : BufTy).Contents (Elt Ideal)) (h : AllReal v) : AllReal (row64 (F := Ideal) v) :=
  real_shapeCast _ _ _ h

theorem lrelu_real (y : EReal) (h : IsReal y) : IsReal (lrelu y) := by
  unfold lrelu Scalar.select
  split
  · exact h
  · exact cSlope_real.mul h

end Cert.KernelIdeal.KReal

end
-- ==== Proof.KBn.lean ====
/-
  The batch-normalisation coefficient rows of the kernel program, read at an index. The scale is
  γ · (q/N − (s/N)² + ε)^(-1/2) and the shift β − (s/N) · scale, computed on length-128 vectors obtained from
  the 1 × 128 rows of column sums s and column sums of squares q, then laid back as 1 × 128 rows. Every operation
  but the two changes of layout acts entry by entry, and each change of layout reads entry (0, d) of a row as
  entry d of the vector; so entry (0, d) of each coefficient row is the scalar formula at the entries (0, d) of
  s and q and the entries d of γ and β.
-/
import proofs.«132517_j26465588478695_1_alg».proof.Proof.KStages
import proofs.«132517_j26465588478695_1_alg».proof.Proof.Alg
import proofs.«132517_j26465588478695_1_alg».proof.Proof.Spec
import Idealize.ShloMosaic.Lib.ValueIdx
import Idealize.ShloMosaic.Lib.ValueLayout
import Idealize.ShloMosaic.Lib.Pipeline.Value
import Idealize.ShloMosaic.PureOps.Ideal

noncomputable section

namespace Cert.KernelIdeal.KBn

open Idealize.ShloMosaic Cert.KernelIdeal Cert.KernelIdeal.KStages Cert.KernelIdeal.Facts₀ Cert.KernelIdeal.Facts
open Idealize.ShloMosaic.ValueIdx

/-- A 1 × 128 row read as a vector: entry d is the row's entry (0, d). -/
theorem vec128_apply (r : (⟨S1x128, .f32⟩ : BufTy).Contents (Elt Ideal)) (d : Fin 128) :
    vec128 (F := Ideal) r (ix1 d) = r (ix2 (0 : Fin 1) d) := by
  unfold vec128
  exact shapeCast_1a_a_apply r _ d

/-- A vector laid as a 1 × 128 row: entry (0, d) is the vector's entry d. -/
theorem row128_apply (b : (⟨S128, .f32⟩ : BufTy).Contents (Elt Ideal)) (d : Fin 128) :
    row128 (F := Ideal) b (ix2 (0 : Fin 1) d) = b (ix1 d) := by
  unfold row128
  exact shapeCast_a_1a_apply b _ (0 : Fin 1) d

/-- The column mean at d: s(0, d) / N. -/
theorem bnMean_apply (s : (⟨S1x128, .f32⟩ : BufTy).Contents (Elt Ideal)) (d : Fin 128) :
    bnMean (F := Ideal) s (ix1 d) = Ideal.div (s (ix2 (0 : Fin 1) d)) (Ideal.ofBits .f32 0x47C35000#32) := by
  unfold bnMean
  show Ideal.div (vec128 (F := Ideal) s (ix1 d)) (Ideal.ofBits .f32 0x47C35000#32) = _
  rw [vec128_apply]

/-- The scale vector at d. -/
theorem bnScaleV_apply (s q : (⟨S1x128, .f32⟩ : BufTy).Contents (Elt Ideal)) (γ : (⟨S128, .f32⟩ : BufTy).Contents (Elt Ideal))
    (d : Fin 128) :
    bnScaleV (F := Ideal) s q γ (ix1 d)
      = Cert.Alg.kScale (s (ix2 (0 : Fin 1) d)) (q (ix2 (0 : Fin 1) d)) (γ (ix1 d)) := by
  unfold bnScaleV Cert.Alg.kScale
  show γ (ix1 d) * Ideal.rsqrt ((Ideal.div (vec128 (F := Ideal) q (ix1 d)) (Ideal.ofBits .f32 0x47C35000#32)
      - bnMean (F := Ideal) s (ix1 d) * bnMean (F := Ideal) s (ix1 d)) + Ideal.ofBits .f32 0x3727C5AC#32) = _
  rw [vec128_apply, bnMean_apply]

/-- The shift vector at d. -/
theorem bnShiftV_apply (s q : (⟨S1x128, .f32⟩ : BufTy).Contents (Elt Ideal)) (γ β : (⟨S128, .f32⟩ : BufTy).Contents (Elt Ideal))
    (d : Fin 128) :
    bnShiftV (F := Ideal) s q γ β (ix1 d)
      = Cert.Alg.kShift (s (ix2 (0 : Fin 1) d)) (q (ix2 (0 : Fin 1) d)) (γ (ix1 d)) (β (ix1 d)) := by
  unfold bnShiftV Cert.Alg.kShift
  show β (ix1 d) - bnMean (F := Ideal) s (ix1 d) * bnScaleV (F := Ideal) s q γ (ix1 d) = _
  rw [bnMean_apply, bnScaleV_apply]

/-- Entry (0, d) of the scale row. -/
theorem scaleRow_apply (s q : (⟨S1x128, .f32⟩ : BufTy).Contents (Elt Ideal)) (γ : (⟨S128, .f32⟩ : BufTy).Contents (Elt Ideal)) (d : Fin 128) :
    row128 (F := Ideal) (bnScaleV s q γ) (ix2 (0 : Fin 1) d) = Cert.Alg.kScale (s (ix2 (0 : Fin 1) d)) (q (ix2 (0 : Fin 1) d)) (γ (ix1 d)) :=
  (row128_apply _ d).trans (bnScaleV_apply s q γ d)

/-- Entry (0, d) of the shift row. -/
theorem shiftRow_apply (s q : (⟨S1x128, .f32⟩ : BufTy).Contents (Elt Ideal)) (γ β : (⟨S128, .f32⟩ : BufTy).Contents (Elt Ideal)) (d : Fin 128) :
    row128 (F := Ideal) (bnShiftV s q γ β) (ix2 (0 : Fin 1) d) = Cert.Alg.kShift (s (ix2 (0 : Fin 1) d)) (q (ix2 (0 : Fin 1) d)) (γ (ix1 d)) (β (ix1 d)) :=
  (row128_apply _ d).trans (bnShiftV_apply s q γ β d)

end Cert.KernelIdeal.KBn

end
-- ==== Proof.MathBridge.lean ====
/-
  The two places where the kernel program and the reference arrange the same mathematics differently, joined on whole
  arrays whose entries are real numbers.  Batch normalisation: the kernel multiplies by a scale row and adds a shift
  row built from the column sums and column sums of squares; the reference centres each column by its mean and divides
  by the square root of its variance plus ε; entry by entry these agree by the scalar identity, and the leaky rectifier
  is the same function on both sides, with a real value on a real argument.  Row scaling: l · (1.8 / m) against
  (l / m) · 1.8 with m = max(‖row‖, tiny), the row's sum of squares being a non-negative real.
-/
import proofs.«132517_j26465588478695_1_alg».proof.Proof.Spec
import proofs.«132517_j26465588478695_1_alg».proof.Proof.SpecRef
import proofs.«132517_j26465588478695_1_alg».proof.Proof.Alg
import proofs.«132517_j26465588478695_1_alg».proof.Proof.KStages
import proofs.«132517_j26465588478695_1_alg».proof.Proof.KBn
import Idealize.ShloMosaic.Lib.ValueIdx

noncomputable section

namespace Cert.MathBridge

open Cert.Spec Cert.Alg Cert.KernelIdeal Cert.KernelIdeal.KStages Idealize.ShloMosaic Idealize.ShloMosaic.ValueIdx

/-- The leaky rectifier of a real number is a real number: it is the number itself or the slope times it. -/
theorem lrelu_real {y : EReal} (hy : IsReal y) : IsReal (lrelu y) := by
  unfold lrelu Scalar.select
  split
  · exact hy
  · exact cSlope_real.mul hy

/-- On real entries the kernel's affine form of batch normalisation followed by the rectifier — scale and shift rows
    from the column sums and column sums of squares — is the reference's centred form followed by the rectifier. -/
theorem affine_eq_ref (h : SNx128.Idx → EReal) (γ β : (⟨S128, .f32⟩ : BufTy).Contents (Elt Ideal))
    (hh : AllReal h) (hγ : AllReal γ) (hβ : AllReal β) :
    affineAct h (row128 (F := Ideal) (bnScaleV (colSum h) (colSumSq h) γ))
        (row128 (F := Ideal) (bnShiftV (colSum h) (colSumSq h) γ β)) = bnActRef h γ β := by
  funext i
  obtain ⟨n, d, rfl⟩ : ∃ (n : Fin 100000) (d : Fin 128), i = ix2 n d := ⟨i 0, i 1, eq_ix2 i⟩
  rw [affineAct_ix2, bnActRef_ix2]
  unfold affineActAt bnActRefAt
  rw [KBn.scaleRow_apply, KBn.shiftRow_apply, colSum_ix2, colSumSq_ix2]
  choose f hf using fun k : Fin 100000 => hh (ix2 k d)
  obtain ⟨g, hg⟩ := hγ (ix1 d)
  obtain ⟨b, hb⟩ := hβ (ix1 d)
  simp only [hf, hg, hb]
  exact congrArg lrelu (bn_eq f g b (f n))

/-- On real entries the reference's normalise-and-rectify has real entries. -/
theorem bnActRef_real (h : SNx128.Idx → EReal) (γ β : (⟨S128, .f32⟩ : BufTy).Contents (Elt Ideal))
    (hh : AllReal h) (hγ : AllReal γ) (hβ : AllReal β) : AllReal (bnActRef h γ β) := by
  intro i
  obtain ⟨n, d, rfl⟩ : ∃ (n : Fin 100000) (d : Fin 128), i = ix2 n d := ⟨i 0, i 1, eq_ix2 i⟩
  rw [bnActRef_ix2]
  unfold bnActRefAt
  choose f hf using fun k : Fin 100000 => hh (ix2 k d)
  obtain ⟨g, hg⟩ := hγ (ix1 d)
  obtain ⟨b, hb⟩ := hβ (ix1 d)
  simp only [hf, hg, hb]
  exact lrelu_real (bn_real f g b (f n))

/-- On real entries the kernel's row scaling l · (1.8 / m) is the reference's (l / m) · 1.8, m = max(‖row‖, tiny). -/
theorem l2scale_eq_ref (l : SNx64.Idx → EReal) (hl : AllReal l) : l2scale l = l2scaleRef l := by
  funext i
  obtain ⟨n, d, rfl⟩ : ∃ (n : Fin 100000) (d : Fin 64), i = ix2 n d := ⟨i 0, i 1, eq_ix2 i⟩
  rw [l2scale_ix2, l2scaleRef_ix2]
  unfold l2scaleAt l2scaleRefAt rowSq
  choose r hr using fun k : Fin 64 => hl (ix2 n k)
  simp only [hr]
  have hs : (∑ k : Fin 64, ((r k : ℝ) : EReal) * ((r k : ℝ) : EReal)) = ((∑ k : Fin 64, r k * r k : ℝ) : EReal) := by
    simp only [← EReal.coe_mul]
    exact (Cert.RealSums.coe_sum Finset.univ fun k => r k * r k).symm
  rw [hs]
  exact l2_eq (r d) _ (Finset.sum_nonneg fun k _ => mul_self_nonneg (r k))

end Cert.MathBridge

end
-- ==== Proof.Xns.lean ====
/-
  The propagation over the graph is written once in each program, with the same operations in the same order: the
  degree of every node by scatter-adding ones onto zeros at the edges' ends, plus one, to the power −1/2; the two gathers
  of that weight at an edge's wrapped ends and their product; the gather of the source rows, their scaling by the edge's
  coefficient, the scatter-add onto zeros at the destination rows, and the self-loop term.  The two spellings differ only
  in the names of the dimension records and of the side conditions they carry, so the two functions are the same
  function of the feature array and the two index arrays.
-/
import proofs.«132517_j26465588478695_1_alg».proof.Proof.KStages
import proofs.«132517_j26465588478695_1_alg».proof.Proof.RefStagesDefs
import Idealize.ShloMosaic.PureOps.Ideal

noncomputable section

namespace Cert.Xns

open Idealize.ShloMosaic

/-- The nodes' weights (one plus the in-degree, to the power −1/2) are the same function in both programs. -/
theorem dinv_eq (dst : (⟨Cert.KernelIdeal.S1600000, .i32⟩ : BufTy).Contents (Elt Ideal)) :
    Cert.KernelIdeal.KStages.dinv (F := Ideal) dst = Cert.ReferenceIdeal.RefStages.degRsqrt (F := Ideal) dst := rfl

/-- Wrapping the negative entries of an index array is the same function in both programs. -/
theorem wrapIdx_eq (a : (⟨Cert.KernelIdeal.S1600000, .i32⟩ : BufTy).Contents (Elt Ideal)) :
    Cert.KernelIdeal.KStages.wrapIdx (F := Ideal) a = Cert.ReferenceIdeal.RefStages.wrapIdx (F := Ideal) a := rfl

/-- An edge's coefficient — the product of the weights at its two wrapped ends — is the same function in both programs. -/
theorem edgeW_eq (src dst : (⟨Cert.KernelIdeal.S1600000, .i32⟩ : BufTy).Contents (Elt Ideal)) :
    Cert.KernelIdeal.KStages.edgeW (F := Ideal) src dst = Cert.ReferenceIdeal.RefStages.edgeCoef (F := Ideal) src dst := by
  unfold Cert.KernelIdeal.KStages.edgeW Cert.ReferenceIdeal.RefStages.edgeCoef
  rw [dinv_eq, wrapIdx_eq src, wrapIdx_eq dst]
  rfl

/-- One propagation step over 128 columns, with the kernel program's edge and self-loop coefficients, is the
    reference's propagation step. -/
theorem agg128_eq (feat : (⟨Cert.KernelIdeal.S100000x128, .f32⟩ : BufTy).Contents (Elt Ideal))
    (src dst : (⟨Cert.KernelIdeal.S1600000, .i32⟩ : BufTy).Contents (Elt Ideal)) :
    Cert.KernelIdeal.KStages.agg128 (F := Ideal) feat src dst (Cert.KernelIdeal.KStages.edgeW src dst) (Cert.KernelIdeal.KStages.selfW dst)
      = Cert.ReferenceIdeal.RefStages.refAppnp128 (F := Ideal) feat src dst := by
  unfold Cert.KernelIdeal.KStages.agg128 Cert.ReferenceIdeal.RefStages.refAppnp128 Cert.KernelIdeal.KStages.selfW
  rw [edgeW_eq, dinv_eq, wrapIdx_eq src]
  rfl

/-- One propagation step over 64 columns, likewise. -/
theorem agg64_eq (feat : (⟨Cert.KernelIdeal.S100000x64, .f32⟩ : BufTy).Contents (Elt Ideal))
    (src dst : (⟨Cert.KernelIdeal.S1600000, .i32⟩ : BufTy).Contents (Elt Ideal)) :
    Cert.KernelIdeal.KStages.agg64 (F := Ideal) feat src dst (Cert.KernelIdeal.KStages.edgeW src dst) (Cert.KernelIdeal.KStages.selfW dst)
      = Cert.ReferenceIdeal.RefStages.refAppnp64 (F := Ideal) feat src dst := by
  unfold Cert.KernelIdeal.KStages.agg64 Cert.ReferenceIdeal.RefStages.refAppnp64 Cert.KernelIdeal.KStages.selfW
  rw [edgeW_eq, dinv_eq, wrapIdx_eq src]
  rfl

end Cert.Xns

end
-- ==== Proof.RefLin.lean ====
/-
  The reference's two projections, read entry by entry.

  The reference computes x · W + b as a host product of the [100000, 128] array by the weight matrix, plus the bias
  vector laid as a single row and repeated down the 100000 rows. At the ideal values the host product at the entry
  (n, d) is the exact sum over the 128 shared coordinates of x (n, k) · W (k, d), and the repeated row's entry (n, d)
  is b (d): together the specification's x · W + b over the bias laid as a row. The same at 128 → 64 columns.
-/
import proofs.«132517_j26465588478695_1_alg».proof.Proof.Gen.ReferenceIdeal
import proofs.«132517_j26465588478695_1_alg».proof.Proof.Spec
import proofs.«132517_j26465588478695_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

noncomputable section

namespace Cert.ReferenceIdeal.RefLin

open Idealize.ShloMosaic Idealize.ShloMosaic.ValueIdx Cert.ReferenceIdeal Cert.ReferenceIdeal.Facts₀ Cert.ReferenceIdeal.Facts Cert.Spec

/-- The host's plain product of an M×K by a K×N matrix, read at an entry, is the sum over the contracted coordinate of
    the products of the entries: the same contraction as the matrix unit's into zeros, with no accumulator. -/
theorem hostDot_plain_apply {M K N : ℕ} {φ₁ φ₂ : FTy} (prec : Option ContractPrecision)
    (A : FVec Ideal ⟨2, ![M, K]⟩ φ₁) (B : FVec Ideal ⟨2, ![K, N]⟩ φ₂) (a : Fin M) (b : Fin N) :
    Host.dotGeneral (DotDims.plain M K N) prec A B (ix2 a b) = ∑ c : Fin K, A (ix2 a c) * B (ix2 c b) :=
  (Ideal.dotGeneral_apply (DotDims.plain M K N) prec .single A B (ix2 a b)).trans
    ((Ideal.matmul_constant_zero_apply (DotDims.plain M K N) prec A B (ix2 a b)).symm.trans
      (Cert.PlainDot.matmul_zero_plain_apply prec A B a b))

/-- A vector [c] laid as a row [1, c] and repeated down m rows: entry (n, d) is the vector's entry d. -/
theorem rowBroadcast_apply {α : Type} {m c : ℕ} (b : (⟨1, ![c]⟩ : Shape).Idx → α)
    (h1 : (⟨1, ![c]⟩ : Shape).BroadcastsInDim ⟨2, ![1, c]⟩ (![1] : Fin 1 → Fin 2))
    (h2 : (⟨2, ![1, c]⟩ : Shape).BroadcastsInDim ⟨2, ![m, c]⟩ (![0, 1] : Fin 2 → Fin 2))
    (n : Fin m) (d : Fin c) :
    broadcastInDim ⟨2, ![m, c]⟩ ![0, 1] h2 (broadcastInDim ⟨2, ![1, c]⟩ ![1] h1 b) (ix2 n d) = b (ix1 d) := by
  have hd := d.isLt
  refine (broadcastInDim_apply ![0, 1] h2 _ (ix2 n d) (ix2 (0 : Fin 1) d) fun a => ?_).trans
    (broadcastInDim_apply ![1] h1 b (ix2 (0 : Fin 1) d) (ix1 d) fun a => ?_)
  · match a with
    | ⟨0, _⟩ => rfl
    | ⟨1, _⟩ =>
      show d.val = if c = 1 then 0 else d.val
      split
      · omega
      · rfl
  · match a with
    | ⟨0, _⟩ =>
      show d.val = if c = 1 then 0 else d.val
      split
      · omega
      · rfl

/-- The contraction the first projection prints is the plain one. -/
theorem refDims128_eq_plain : dot_S100000x128_S128x128_S100000x128_1_0_0_1_n_n = DotDims.plain 100000 128 128 := rfl

/-- The contraction the second projection prints is the plain one. -/
theorem refDims64_eq_plain : dot_S100000x128_S128x64_S100000x64_1_0_0_1_n_n = DotDims.plain 100000 128 64 := rfl

/-- The reference's first projection, x · W + b with b repeated down the rows, is the specification's. -/
theorem refLin128_eq (x : (⟨S100000x128, .f32⟩ : BufTy).Contents (Elt Ideal)) (W : (⟨S128x128, .f32⟩ : BufTy).Contents (Elt Ideal))
    (b : (⟨S128, .f32⟩ : BufTy).Contents (Elt Ideal)) :
    addf (F := Ideal) (Host.dotGeneral (F := Ideal) (φ₁ := .f32) (φ₂ := .f32) dot_S100000x128_S128x128_S100000x128_1_0_0_1_n_n none x W)
         (broadcastInDim S100000x128 ![0, 1] bcast_S1x128_S100000x128_0_1 (broadcastInDim S1x128 ![1] bcast_S128_S1x128_1 b))
      = lin128 x W (rowOf128 b) := by
  funext i
  obtain ⟨n, d, rfl⟩ : ∃ (n : Fin 100000) (d : Fin 128), i = ix2 n d := ⟨i 0, i 1, eq_ix2 i⟩
  rw [lin128_ix2]
  unfold lin128At
  refine congrArg₂ (· + ·) ?_ ?_
  · exact hostDot_plain_apply none x W n d
  · exact rowBroadcast_apply b bcast_S128_S1x128_1 bcast_S1x128_S100000x128_0_1 n d

/-- The reference's second projection, h · W + b with b repeated down the rows, is the specification's. -/
theorem refLin64_eq (h : (⟨S100000x128, .f32⟩ : BufTy).Contents (Elt Ideal)) (W : (⟨S128x64, .f32⟩ : BufTy).Contents (Elt Ideal))
    (b : (⟨S64, .f32⟩ : BufTy).Contents (Elt Ideal)) :
    addf (F := Ideal) (Host.dotGeneral (F := Ideal) (φ₁ := .f32) (φ₂ := .f32) dot_S100000x128_S128x64_S100000x64_1_0_0_1_n_n none h W)
         (broadcastInDim S100000x64 ![0, 1] bcast_S1x64_S100000x64_0_1 (broadcastInDim S1x64 ![1] bcast_S64_S1x64_1 b))
      = lin64 h W (rowOf64 b) := by
  funext i
  obtain ⟨n, d, rfl⟩ : ∃ (n : Fin 100000) (d : Fin 64), i = ix2 n d := ⟨i 0, i 1, eq_ix2 i⟩
  rw [lin64_ix2]
  unfold lin64At
  refine congrArg₂ (· + ·) ?_ ?_
  · exact hostDot_plain_apply none h W n d
  · exact rowBroadcast_apply b bcast_S64_S1x64_1 bcast_S1x64_S100000x64_0_1 n d

end Cert.ReferenceIdeal.RefLin

end
-- ==== Proof.RefReadBn.lean ====
/-
  The reference's normalise-and-rectify stage, read at an index. Column d's mean is (0 + Σ over the 100000 rows of the
  column) / N, whether taken as a vector entry or as an entry of a one-row matrix; the divisor of the variance is N less
  the integer 0 converted; column d's variance is, where that divisor is positive, (0 + Σ (entry − mean)²) / divisor;
  entry (n, d) of the stage is the leaky rectifier of γ_d · (h(n, d) − mean_d) · (var_d + ε)^(-1/2) + β_d. A sum over the
  row axis reads at column d as the initial value plus the sum over the rows; a vector repeated down the rows reads at
  (n, d) as its entry d; every other operation acts entry by entry.
-/
import proofs.«132517_j26465588478695_1_alg».proof.Proof.RefStagesDefs
import proofs.«132517_j26465588478695_1_alg».proof.Proof.Spec
import proofs.«132517_j26465588478695_1_alg».proof.Proof.SpecRef
import proofs.«132517_j26465588478695_1_alg».proof.Proof.Alg
import proofs.«132517_j26465588478695_1_alg».proof.Proof.RefLin
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.RefRead

open Cert.ReferenceIdeal Cert.ReferenceIdeal.Facts₀ Cert.ReferenceIdeal.Facts Cert.ReferenceIdeal.RefStages Cert.Spec Cert.Alg
open Idealize.ShloMosaic Idealize.ShloMosaic.ValueIdx

/-- A sum over the row axis started from zero, at column d: zero plus the sum over the 100000 rows of the column. -/
theorem rowSum_apply (x : (⟨S100000x128, .f32⟩ : BufTy).Contents (Elt Ideal)) (d : Fin 128) :
    Host.reduceAdd (F := Ideal) x (constant S_ .f32 0x00000000#32) reducesTo_S100000x128_S128_d0 h_S_ (ix1 d)
      = Ideal.ofBits .f32 0x00000000#32 + ∑ n : Fin 100000, x (ix2 n d) := by
  have hr : S100000x128.Reduces [0] S128 := by decide
  refine (Ideal.hostReduceAdd_single reducesTo_S100000x128_S128_d0 hr x _ (ix1 d)).trans ?_
  refine congrArg₂ (· + ·) rfl (Finset.sum_congr rfl fun n _ => congrArg x (funext fun a => ?_))
  match a with
  | ⟨0, _⟩ => rfl
  | ⟨1, _⟩ => rfl

/-- A vector repeated down the rows: entry (n, d) is the vector's entry d. -/
theorem downRows_apply (v : (⟨S128, .f32⟩ : BufTy).Contents (Elt Ideal)) (n : Fin 100000) (d : Fin 128) :
    downRows (F := Ideal) v (ix2 n d) = v (ix1 d) := by
  unfold downRows
  exact Cert.ReferenceIdeal.RefLin.rowBroadcast_apply v bcast_S128_S1x128_1 bcast_S1x128_S100000x128_0_1 n d

/-- A vector laid as one row: entry (0, d) is the vector's entry d. -/
theorem asRow_apply (v : (⟨S128, .f32⟩ : BufTy).Contents (Elt Ideal)) (d : Fin 128) :
    broadcastInDim S1x128 ![1] bcast_S128_S1x128_1 v (ix2 (0 : Fin 1) d) = v (ix1 d) := by
  refine broadcastInDim_apply ![1] bcast_S128_S1x128_1 v (ix2 (0 : Fin 1) d) (ix1 d) fun a => ?_
  match a with
  | ⟨0, _⟩ => rfl

/-- A one-row matrix repeated down the rows: entry (n, d) is the row's entry (0, d). -/
theorem rowDown_apply (r : (⟨S1x128, .f32⟩ : BufTy).Contents (Elt Ideal)) (n : Fin 100000) (d : Fin 128) :
    broadcastInDim S100000x128 ![0, 1] bcast_S1x128_S100000x128_0_1 r (ix2 n d) = r (ix2 (0 : Fin 1) d) := by
  refine broadcastInDim_apply ![0, 1] bcast_S1x128_S100000x128_0_1 r (ix2 n d) (ix2 (0 : Fin 1) d) fun a => ?_
  match a with
  | ⟨0, _⟩ => rfl
  | ⟨1, _⟩ => rfl

/-- Column d's mean as a vector entry. -/
theorem colMean_apply (h : (⟨S100000x128, .f32⟩ : BufTy).Contents (Elt Ideal)) (d : Fin 128) :
    colMean (F := Ideal) h (ix1 d) = rMean (fun k => h (ix2 k d)) := by
  unfold colMean rMean
  show Ideal.div (Host.reduceAdd (F := Ideal) h (constant S_ .f32 0x00000000#32) reducesTo_S100000x128_S128_d0 h_S_ (ix1 d))
    (Ideal.ofBits .f32 0x47C35000#32) = _
  rw [rowSum_apply]

/-- Column d's mean as an entry of the one-row matrix. -/
theorem meanRow_apply (h : (⟨S100000x128, .f32⟩ : BufTy).Contents (Elt Ideal)) (d : Fin 128) :
    meanRow (F := Ideal) h (ix2 (0 : Fin 1) d) = rMean (fun k => h (ix2 k d)) := by
  unfold meanRow rMean
  show Ideal.div (broadcastInDim S1x128 ![1] bcast_S128_S1x128_1
      (Host.reduceAdd (F := Ideal) h (constant S_ .f32 0x00000000#32) reducesTo_S100000x128_S128_d0 h_S_) (ix2 (0 : Fin 1) d))
    (Ideal.ofBits .f32 0x47C35000#32) = _
  rw [asRow_apply, rowSum_apply]

/-- Column d's variance. -/
theorem colVar_apply (h : (⟨S100000x128, .f32⟩ : BufTy).Contents (Elt Ideal)) (d : Fin 128) :
    colVar (F := Ideal) h (ix1 d) = rVar (fun k => h (ix2 k d)) := by
  have e : Host.reduceAdd (F := Ideal)
        (mulf (subf h (broadcastInDim S100000x128 ![0, 1] bcast_S1x128_S100000x128_0_1 (meanRow h)))
          (subf h (broadcastInDim S100000x128 ![0, 1] bcast_S1x128_S100000x128_0_1 (meanRow h))))
        (constant S_ .f32 0x00000000#32) reducesTo_S100000x128_S128_d0 h_S_ (ix1 d)
      = Ideal.ofBits .f32 0x00000000#32
        + ∑ n : Fin 100000, (h (ix2 n d) - rMean (fun k => h (ix2 k d))) * (h (ix2 n d) - rMean (fun k => h (ix2 k d))) := by
    refine (rowSum_apply _ d).trans (congrArg₂ (· + ·) rfl (Finset.sum_congr rfl fun n _ => ?_))
    have a : (subf (F := Ideal) h (broadcastInDim S100000x128 ![0, 1] bcast_S1x128_S100000x128_0_1 (meanRow (F := Ideal) h))
          : FVec Ideal S100000x128 .f32) (ix2 n d)
        = h (ix2 n d) - rMean (fun k => h (ix2 k d)) := by
      show h (ix2 n d) - broadcastInDim S100000x128 ![0, 1] bcast_S1x128_S100000x128_0_1 (meanRow (F := Ideal) h) (ix2 n d) = _
      rw [rowDown_apply, meanRow_apply]
    exact congrArg₂ (· * ·) a a
  unfold colVar rVar
  exact congrArg (fun z => Scalar.select (Ideal.cmp .ogt rCount (Ideal.ofBits .f32 0x00000000#32))
    (Ideal.div z rCount) (Ideal.ofBits .f32 0x7FC00000#32)) e

/-- Entry (n, d) before the rectifier. -/
theorem bnAffine_apply (h : (⟨S100000x128, .f32⟩ : BufTy).Contents (Elt Ideal)) (gamma beta : (⟨S128, .f32⟩ : BufTy).Contents (Elt Ideal))
    (n : Fin 100000) (d : Fin 128) :
    bnAffine (F := Ideal) h gamma beta (ix2 n d)
      = gamma (ix1 d) * (h (ix2 n d) - rMean (fun k => h (ix2 k d)))
          * Ideal.rsqrt (rVar (fun k => h (ix2 k d)) + Ideal.ofBits .f32 0x3727C5AC#32) + beta (ix1 d) := by
  unfold bnAffine
  show downRows (F := Ideal) gamma (ix2 n d) * (h (ix2 n d) - downRows (F := Ideal) (colMean h) (ix2 n d))
      * downRows (F := Ideal) (Host.rsqrt (addf (colVar h) (broadcastInDim S128 ![] bcast_S_S128 (constant S_ .f32 0x3727C5AC#32)))) (ix2 n d)
      + downRows (F := Ideal) beta (ix2 n d) = _
  rw [downRows_apply, downRows_apply, downRows_apply, downRows_apply, colMean_apply]
  show gamma (ix1 d) * (h (ix2 n d) - rMean (fun k => h (ix2 k d)))
      * Ideal.rsqrt (colVar (F := Ideal) h (ix1 d) + Ideal.ofBits .f32 0x3727C5AC#32) + beta (ix1 d) = _
  rw [colVar_apply]

/-- The stage is the index-by-index normalise-and-rectify. -/
theorem refBnAct_eq (h : (⟨S100000x128, .f32⟩ : BufTy).Contents (Elt Ideal)) (gamma beta : (⟨S128, .f32⟩ : BufTy).Contents (Elt Ideal)) :
    refBnAct (F := Ideal) h gamma beta = bnActRef h gamma beta := by
  funext i
  obtain ⟨n, d, rfl⟩ : ∃ (n : Fin 100000) (d : Fin 128), i = ix2 n d := ⟨i 0, i 1, eq_ix2 i⟩
  unfold refBnAct
  show lrelu (bnAffine (F := Ideal) h gamma beta (ix2 n d)) = bnActRefAt h gamma beta n d
  rw [bnAffine_apply]
  rfl

end Cert.ReferenceIdeal.RefRead

end
-- ==== Proof.RefReadRows.lean ====
/-
  Four of the reference's stages read entry by entry: the two projections, the row scaling and the reparameterisation.

  The projections are x · W + b over the bias laid as a row. The row scaling divides every entry by the larger of its
  row's Euclidean norm and 1e-12 and multiplies by 1.8: the norm is the square root of the row's sum of squares, which the
  host sums over the 64 columns from the initial value zero, stands up as a column and repeats along the columns. The
  reparameterisation is mu + noise · exp(logstd) entry by entry. No entry needs to be finite for any of this.
-/
import proofs.«132517_j26465588478695_1_alg».proof.Proof.RefStagesDefs
import proofs.«132517_j26465588478695_1_alg».proof.Proof.RefLin
import proofs.«132517_j26465588478695_1_alg».proof.Proof.Spec
import proofs.«132517_j26465588478695_1_alg».proof.Proof.SpecRef
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

noncomputable section

namespace Cert.ReferenceIdeal.RefRead

open Cert.ReferenceIdeal Cert.ReferenceIdeal.Facts₀ Cert.ReferenceIdeal.Facts Cert.ReferenceIdeal.RefStages Cert.Spec Cert.Alg
  Idealize.ShloMosaic Idealize.ShloMosaic.ValueIdx

/-- The first projection as a stage is the specification's x · W + b over the bias laid as a row. -/
theorem refLin128_stage (x : (⟨S100000x128, .f32⟩ : BufTy).Contents (Elt Ideal)) (W : (⟨S128x128, .f32⟩ : BufTy).Contents (Elt Ideal))
    (b : (⟨S128, .f32⟩ : BufTy).Contents (Elt Ideal)) : refLin128 (F := Ideal) x W b = lin128 x W (rowOf128 b) := by
  unfold refLin128
  exact Cert.ReferenceIdeal.RefLin.refLin128_eq x W b

/-- The second projection as a stage is the specification's h · W + b over the bias laid as a row. -/
theorem refLin64_stage (h : (⟨S100000x128, .f32⟩ : BufTy).Contents (Elt Ideal)) (W : (⟨S128x64, .f32⟩ : BufTy).Contents (Elt Ideal))
    (b : (⟨S64, .f32⟩ : BufTy).Contents (Elt Ideal)) : refLin64 (F := Ideal) h W b = lin64 h W (rowOf64 b) := by
  unfold refLin64
  exact Cert.ReferenceIdeal.RefLin.refLin64_eq h W b

/-- The host's square root at an index is the square root of the element. -/
theorem hostSqrt_apply {s : Shape} {φ : FTy} (a : FVec Ideal s φ) (i : s.Idx) : Host.sqrt a i = Ideal.sqrt (a i) := rfl

/-- A row's sum of squares as the host sums it over the 64 columns, from the initial value zero. -/
theorem refRowSq_apply (l : FVec Ideal S100000x64 .f32) (n : Fin 100000) :
    Host.reduceAdd (F := Ideal) (mulf l l) (constant (F := Ideal) S_ .f32 0x00000000#32) reducesTo_S100000x64_S100000_d1 h_S_ (ix1 n)
      = Ideal.ofBits .f32 0x00000000#32 + rowSq l n := by
  have hR : S100000x64.Reduces [1] S100000 := by decide
  rw [hostReduceAdd_apply, Ideal.hostReduceAdd_single reducesTo_S100000x64_S100000_d1 hR]
  unfold rowSq
  refine congrArg₂ (· + ·) rfl (Finset.sum_congr rfl fun k _ => ?_)
  have e : hR.lift (ix1 n) k = ix2 n k :=
    funext fun a => Fin.ext (by match a with | ⟨0, _⟩ => rfl | ⟨1, _⟩ => rfl)
  exact congrArg₂ (· * ·) (congrArg l e) (congrArg l e)

/-- A per-row value [100000] stood up as a column [100000, 1] and repeated along the 64 columns: entry (n, d) is the
    row's value. -/
theorem colBroadcast_apply {α : Type} {m c : ℕ} (v : (⟨2, ![m, 1]⟩ : Shape).Idx → α)
    (h2 : (⟨2, ![m, 1]⟩ : Shape).BroadcastsInDim ⟨2, ![m, c]⟩ (![0, 1] : Fin 2 → Fin 2))
    (n : Fin m) (d : Fin c) :
    broadcastInDim ⟨2, ![m, c]⟩ ![0, 1] h2 v (ix2 n d) = v (ix2 n (0 : Fin 1)) := by
  have hn := n.isLt
  refine broadcastInDim_apply ![0, 1] h2 v (ix2 n d) (ix2 n (0 : Fin 1)) fun a => ?_
  match a with
  | ⟨0, _⟩ =>
    show n.val = if m = 1 then 0 else n.val
    split
    · omega
    · rfl
  | ⟨1, _⟩ => rfl

/-- A vector [m] stood up as a column [m, 1]: entry (n, 0) is the vector's entry n. -/
theorem colOf_apply {α : Type} {m : ℕ} (v : (⟨1, ![m]⟩ : Shape).Idx → α)
    (h1 : (⟨1, ![m]⟩ : Shape).BroadcastsInDim ⟨2, ![m, 1]⟩ (![0] : Fin 1 → Fin 2))
    (n : Fin m) (u : Fin 1) :
    broadcastInDim ⟨2, ![m, 1]⟩ ![0] h1 v (ix2 n u) = v (ix1 n) := by
  have hn := n.isLt
  refine broadcastInDim_apply ![0] h1 v (ix2 n u) (ix1 n) fun a => ?_
  match a with
  | ⟨0, _⟩ =>
    show n.val = if m = 1 then 0 else n.val
    split
    · omega
    · rfl

/-- The reference's row scaling is, entry by entry, (l / max (sqrt (0 + the row's sum of squares), 1e-12)) · 1.8. -/
theorem refScaleRows_eq (l : (⟨S100000x64, .f32⟩ : BufTy).Contents (Elt Ideal)) : refScaleRows (F := Ideal) l = l2scaleRef l := by
  funext i
  obtain ⟨n, d, rfl⟩ : ∃ (n : Fin 100000) (d : Fin 64), i = ix2 n d := ⟨i 0, i 1, eq_ix2 i⟩
  rw [l2scaleRef_ix2]
  unfold refScaleRows l2scaleRefAt
  rw [mulf_apply, hostDivf_apply, colBroadcast_apply _ bcast_S100000x1_S100000x64_0_1 n d, maximumf_apply,
    hostSqrt_apply, colOf_apply _ bcast_S100000_S100000x1_0 n 0, refRowSq_apply l n,
    broadcastInDim_scalar_apply, broadcastInDim_scalar_apply, constant_apply, constant_apply]

/-- The reference's reparameterisation is the specification's mu + noise · exp(logstd). -/
theorem refReparam_eq (mu ls noise : (⟨S100000x64, .f32⟩ : BufTy).Contents (Elt Ideal)) :
    refReparam (F := Ideal) mu ls noise = reparam mu ls noise := by
  funext i
  rfl

end Cert.ReferenceIdeal.RefRead

end
-- ==== Proof.PreReal.lean ====
/-
  What the precondition says of the float arrays: every entry is a real number.

  The precondition asks, of each of the eight float arrays, that max (x, −x) < +∞ at every entry, takes the conjunction
  over the whole array, and conjoins the eight results. At the ideal values an entry is an extended real; +∞ and −∞ both
  have absolute value +∞, so an entry that passes is neither: it is a real number.
-/
import proofs.«132517_j26465588478695_1_alg».proof.Proof.Gen.Pre_finite_inputs
import proofs.«132517_j26465588478695_1_alg».proof.Proof.Alg
import Idealize.ShloMosaic.Lib.ReduceAll
import Idealize.ShloMosaic.Lib.ValueIdx
import Idealize.ShloMosaic.PureOps.Ideal.Laws

noncomputable section

namespace Cert.PreReal

open Idealize.ShloMosaic Idealize.ShloMosaic.ValueIdx Cert.Pre_finite_inputs Cert.Alg

/-- The f32 word 0x7F800000 is +∞. -/
theorem infWord_eq_top : Ideal.ofBits .f32 0x7F800000#32 = (⊤ : EReal) := by
  simp [Ideal.ofBits, Ideal.ieee]

/-- An extended real whose absolute value max (x, −x) is strictly below +∞ is a real number: +∞ has absolute value
    +∞, and so has −∞. -/
theorem isReal_of_abs_lt_inf (x : EReal)
    (h : FloatOps.cmpf (F := Ideal) (φ := .f32) .olt (FloatOps.hostAbsf (F := Ideal) (φ := .f32) x)
          (FloatOps.ofBits (F := Ideal) .f32 0x7F800000#32) = 1#1) : IsReal x := by
  rw [Ideal.cmpf_def, Ideal.hostAbsf_def, Ideal.absf_def, Ideal.ofBits_def, infWord_eq_top] at h
  have h' : max x (-x) < ⊤ := by
    by_contra hc
    simp [Ideal.cmp, hc] at h
  induction x using EReal.rec with
  | bot => simp at h'
  | coe r => exact ⟨r, rfl⟩
  | top => simp at h'

instance : Subsingleton S_.Idx := ⟨fun a b => funext fun d => d.elim0⟩

/-- If the conjunction over a whole array of "|x| < +∞" is true, every entry of the array is a real number. -/
theorem all_real_of_all_finite {s : Shape} {axes : List (Fin s.rank)} (x : FVec Ideal s .f32)
    (hb : S_.BroadcastsInDim s (![] : Fin 0 → Fin s.rank)) (hr : s.ReducesTo axes S_) (hu : 0 < S_.numel)
    (e : Host.reduce IntOp.andi
          (cmpf .olt (Host.absf x) (broadcastInDim s ![] hb (constant (F := Ideal) S_ .f32 0x7F800000#32)))
          (constantI S_ 1 1#1) hr hu ix0 = 1#1) (i : s.Idx) : IsReal (x i) :=
  isReal_of_abs_lt_inf (x i) (Host.reduce_andi_all _ _ hr hu ix0 e i)

/-- The precondition says every entry of the eight float arrays is a real number. -/
theorem real_of_pre (a0 : FVec Ideal Cert.Pre_finite_inputs.S100000x128 .f32) (a1 a2 : IVec Cert.Pre_finite_inputs.S1600000 32)
    (a3 : FVec Ideal Cert.Pre_finite_inputs.S128x128 .f32) (a4 a5 a6 : FVec Ideal Cert.Pre_finite_inputs.S128 .f32)
    (a7 : FVec Ideal Cert.Pre_finite_inputs.S128x64 .f32) (a8 : FVec Ideal Cert.Pre_finite_inputs.S64 .f32)
    (a9 : FVec Ideal Cert.Pre_finite_inputs.S100000x64 .f32)
    (h : Cert.Pre_finite_inputs.fn (F := Ideal) a0 a1 a2 a3 a4 a5 a6 a7 a8 a9 = fun _ => 1#1) :
    (∀ i, Cert.Alg.IsReal (a0 i)) ∧ (∀ i, Cert.Alg.IsReal (a3 i)) ∧ (∀ i, Cert.Alg.IsReal (a4 i))
      ∧ (∀ i, Cert.Alg.IsReal (a5 i)) ∧ (∀ i, Cert.Alg.IsReal (a6 i)) ∧ (∀ i, Cert.Alg.IsReal (a7 i))
      ∧ (∀ i, Cert.Alg.IsReal (a8 i)) ∧ (∀ i, Cert.Alg.IsReal (a9 i)) := by
  have h0 : Cert.Pre_finite_inputs.fn (F := Ideal) a0 a1 a2 a3 a4 a5 a6 a7 a8 a9 ix0 = 1#1 := congrFun h ix0
  dsimp only [fn, fn_part1, fn_part2, andi] at h0
  simp only [IntOp.andi_eq_one] at h0
  obtain ⟨⟨⟨⟨⟨⟨⟨e0, e3⟩, e4⟩, e5⟩, e6⟩, e7⟩, e8⟩, e9⟩ := h0
  exact ⟨all_real_of_all_finite a0 _ _ _ e0, all_real_of_all_finite a3 _ _ _ e3, all_real_of_all_finite a4 _ _ _ e4,
    all_real_of_all_finite a5 _ _ _ e5, all_real_of_all_finite a6 _ _ _ e6, all_real_of_all_finite a7 _ _ _ e7,
    all_real_of_all_finite a8 _ _ _ e8, all_real_of_all_finite a9 _ _ _ e9⟩

end Cert.PreReal

end
-- ==== Proof.Bridge.lean ====
/-
  The idealized kernel program's three results are the reference's stage functions composed, on arguments
  with real entries. Stage by stage: the first projection is the same sum of products plus bias on both
  sides; the propagation is the same chain of host operations; after it every entry is still a real number,
  so the kernel's affine form of the batch normalisation (scale and shift rows from the column sums) equals
  the reference's centred form, and both are followed by the same rectifier; the second projection again
  agrees and has real entries, so scaling a row by 1.8 / max(norm, tiny) equals dividing by max(norm, tiny)
  and multiplying by 1.8; the two remaining propagations and the reparameterisation are the same operations
  applied to equal arrays.
-/
import proofs.«132517_j26465588478695_1_alg».proof.Proof.KFold
import proofs.«132517_j26465588478695_1_alg».proof.Proof.KReal
import proofs.«132517_j26465588478695_1_alg».proof.Proof.KBn
import proofs.«132517_j26465588478695_1_alg».proof.Proof.MathBridge
import proofs.«132517_j26465588478695_1_alg».proof.Proof.Xns
import proofs.«132517_j26465588478695_1_alg».proof.Proof.RefStagesDefs
import proofs.«132517_j26465588478695_1_alg».proof.Proof.RefReadBn
import proofs.«132517_j26465588478695_1_alg».proof.Proof.RefReadRows
import proofs.«132517_j26465588478695_1_alg».proof.Proof.PreReal
import Idealize.ShloMosaic.Lib.ValueLayout

set_option maxRecDepth 16384

noncomputable section

namespace Cert.Bridge

open Idealize.ShloMosaic Idealize.ShloMosaic.TcCoe Idealize.SL.Sem Idealize.ShloMosaic.ValueIdx
open Cert.Spec Cert.Alg Cert.KernelIdeal Cert.KernelIdeal.Gen Cert.KernelIdeal.KStages Cert.KernelIdeal.KReal

/-! ## A vector laid as a row -/

theorem row128_eq (b : (⟨S128, .f32⟩ : BufTy).Contents (Elt Ideal)) : row128 (F := Ideal) b = rowOf128 b := by
  funext j
  obtain ⟨u, d, rfl⟩ : ∃ (u : Fin 1) (d : Fin 128), j = ix2 u d := ⟨j 0, j 1, eq_ix2 j⟩
  obtain rfl : u = 0 := Subsingleton.elim _ _
  exact Cert.KernelIdeal.KBn.row128_apply b d

theorem row64_eq (b : (⟨S64, .f32⟩ : BufTy).Contents (Elt Ideal)) : row64 (F := Ideal) b = rowOf64 b := by
  funext j
  obtain ⟨u, d, rfl⟩ : ∃ (u : Fin 1) (d : Fin 64), j = ix2 u d := ⟨j 0, j 1, eq_ix2 j⟩
  unfold row64
  exact shapeCast_a_1a_apply b _ u d

variable (m : (ℓ : Loc nD τ sig) → Buf (Elt Ideal) ℓ) (ρ : Dev nD → PrngReg) (c : Dev nD)

/-- The seven float arguments the algebra touches have real entries. -/
structure ArgsReal : Prop where
  x : AllReal (W0 m ρ c (Proc.devRef .tc main_arg0))
  w1 : AllReal (W0 m ρ c (Proc.devRef .tc main_arg3))
  b1 : AllReal (W0 m ρ c (Proc.devRef .tc main_arg4))
  gamma : AllReal (W0 m ρ c (Proc.devRef .tc main_arg5))
  beta : AllReal (W0 m ρ c (Proc.devRef .tc main_arg6))
  wmu : AllReal (W0 m ρ c (Proc.devRef .tc main_arg7))
  bmu : AllReal (W0 m ρ c (Proc.devRef .tc main_arg8))

/-- Under the precondition (every float input finite) they do. -/
theorem argsReal (h : Cert.Pre_finite_inputs.fn (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) = fun _ => 1#1) :
    ArgsReal m ρ c := by
  obtain ⟨h0, h3, h4, h5, h6, h7, h8, -⟩ := Cert.PreReal.real_of_pre _ _ _ _ _ _ _ _ _ _ h
  exact ⟨h0, h3, h4, h5, h6, h7, h8⟩

variable {m ρ c}

/-! ## The first projection and its propagation -/

theorem h1_real (hr : ArgsReal m ρ c) : AllReal (KFold.h1 m ρ c) :=
  agg128_real _ _ _ _ _ (lin128_real _ _ _ hr.x hr.w1 (row128_real _ hr.b1)) (edgeW_real _ _) (selfW_real _)

theorem h1_eq : KFold.h1 m ρ c
    = Cert.ReferenceIdeal.RefStages.refAppnp128 (F := Ideal) (Cert.ReferenceIdeal.RefStages.refLin128 (F := Ideal) (W0 m ρ c (Proc.devRef .tc main_arg0)) (W0 m ρ c (Proc.devRef .tc main_arg3)) (W0 m ρ c (Proc.devRef .tc main_arg4))) (W0 m ρ c (Proc.devRef .tc main_arg1)) (W0 m ρ c (Proc.devRef .tc main_arg2)) := by
  unfold KFold.h1
  rw [Cert.Xns.agg128_eq, Cert.ReferenceIdeal.RefRead.refLin128_stage, row128_eq]

/-! ## The batch normalisation and the rectifier -/

theorem h2_eq (hr : ArgsReal m ρ c) : KFold.h2 m ρ c = Cert.ReferenceIdeal.RefStages.refBnAct (F := Ideal) (KFold.h1 m ρ c) (W0 m ρ c (Proc.devRef .tc main_arg5)) (W0 m ρ c (Proc.devRef .tc main_arg6)) := by
  unfold KFold.h2 KFold.scaleRow KFold.shiftRow
  rw [Cert.MathBridge.affine_eq_ref _ _ _ (h1_real hr) hr.gamma hr.beta, Cert.ReferenceIdeal.RefRead.refBnAct_eq]

theorem h2_real (hr : ArgsReal m ρ c) : AllReal (KFold.h2 m ρ c) := by
  rw [h2_eq hr, Cert.ReferenceIdeal.RefRead.refBnAct_eq]
  exact Cert.MathBridge.bnActRef_real _ _ _ (h1_real hr) hr.gamma hr.beta

/-! ## The second projection, the first result, the scaled rows -/

theorem l_eq : KFold.l m ρ c = Cert.ReferenceIdeal.RefStages.refLin64 (F := Ideal) (KFold.h2 m ρ c) (W0 m ρ c (Proc.devRef .tc main_arg7)) (W0 m ρ c (Proc.devRef .tc main_arg8)) := by
  unfold KFold.l
  rw [Cert.ReferenceIdeal.RefRead.refLin64_stage, row64_eq]

theorem l_real (hr : ArgsReal m ρ c) : AllReal (KFold.l m ρ c) :=
  lin64_real _ _ _ (h2_real hr) hr.wmu (row64_real _ hr.bmu)

theorem mu_eq : KFold.mu m ρ c = Cert.ReferenceIdeal.RefStages.refAppnp64 (F := Ideal) (KFold.l m ρ c) (W0 m ρ c (Proc.devRef .tc main_arg1)) (W0 m ρ c (Proc.devRef .tc main_arg2)) := by
  unfold KFold.mu
  rw [Cert.Xns.agg64_eq]

theorem ln_eq (hr : ArgsReal m ρ c) : KFold.ln m ρ c = Cert.ReferenceIdeal.RefStages.refScaleRows (F := Ideal) (KFold.l m ρ c) := by
  unfold KFold.ln
  rw [Cert.MathBridge.l2scale_eq_ref _ (l_real hr), Cert.ReferenceIdeal.RefRead.refScaleRows_eq]

theorem logstd_eq : KFold.logstd m ρ c = Cert.ReferenceIdeal.RefStages.refAppnp64 (F := Ideal) (KFold.ln m ρ c) (W0 m ρ c (Proc.devRef .tc main_arg1)) (W0 m ρ c (Proc.devRef .tc main_arg2)) := by
  unfold KFold.logstd
  rw [Cert.Xns.agg64_eq]

theorem zeta_eq : KFold.zeta m ρ c = Cert.ReferenceIdeal.RefStages.refReparam (F := Ideal) (KFold.mu m ρ c) (KFold.logstd m ρ c) (W0 m ρ c (Proc.devRef .tc main_arg9)) := by
  unfold KFold.zeta
  rw [Cert.ReferenceIdeal.RefRead.refReparam_eq]

/-! ## The three results as the reference's composition -/

/-- The reference's second projection of the arguments. -/
def refL : (⟨Cert.ReferenceIdeal.S100000x64, .f32⟩ : BufTy).Contents (Elt Ideal) :=
  Cert.ReferenceIdeal.RefStages.refLin64 (F := Ideal)
    (Cert.ReferenceIdeal.RefStages.refBnAct (F := Ideal)
      (Cert.ReferenceIdeal.RefStages.refAppnp128 (F := Ideal) (Cert.ReferenceIdeal.RefStages.refLin128 (F := Ideal) (W0 m ρ c (Proc.devRef .tc main_arg0)) (W0 m ρ c (Proc.devRef .tc main_arg3)) (W0 m ρ c (Proc.devRef .tc main_arg4))) (W0 m ρ c (Proc.devRef .tc main_arg1)) (W0 m ρ c (Proc.devRef .tc main_arg2)))
      (W0 m ρ c (Proc.devRef .tc main_arg5)) (W0 m ρ c (Proc.devRef .tc main_arg6)))
    (W0 m ρ c (Proc.devRef .tc main_arg7)) (W0 m ρ c (Proc.devRef .tc main_arg8))

theorem l_full (hr : ArgsReal m ρ c) : KFold.l m ρ c = refL (m := m) (ρ := ρ) (c := c) := by
  rw [l_eq, h2_eq hr, h1_eq]; rfl

theorem mu_full (hr : ArgsReal m ρ c) : KFold.mu m ρ c
    = Cert.ReferenceIdeal.RefStages.refAppnp64 (F := Ideal) (refL (m := m) (ρ := ρ) (c := c)) (W0 m ρ c (Proc.devRef .tc main_arg1)) (W0 m ρ c (Proc.devRef .tc main_arg2)) := by
  rw [mu_eq, l_full hr]

theorem logstd_full (hr : ArgsReal m ρ c) : KFold.logstd m ρ c
    = Cert.ReferenceIdeal.RefStages.refAppnp64 (F := Ideal) (Cert.ReferenceIdeal.RefStages.refScaleRows (F := Ideal) (refL (m := m) (ρ := ρ) (c := c))) (W0 m ρ c (Proc.devRef .tc main_arg1)) (W0 m ρ c (Proc.devRef .tc main_arg2)) := by
  rw [logstd_eq, ln_eq hr, l_full hr]

theorem zeta_full (hr : ArgsReal m ρ c) : KFold.zeta m ρ c
    = Cert.ReferenceIdeal.RefStages.refReparam (F := Ideal)
        (Cert.ReferenceIdeal.RefStages.refAppnp64 (F := Ideal) (refL (m := m) (ρ := ρ) (c := c)) (W0 m ρ c (Proc.devRef .tc main_arg1)) (W0 m ρ c (Proc.devRef .tc main_arg2)))
        (Cert.ReferenceIdeal.RefStages.refAppnp64 (F := Ideal) (Cert.ReferenceIdeal.RefStages.refScaleRows (F := Ideal) (refL (m := m) (ρ := ρ) (c := c))) (W0 m ρ c (Proc.devRef .tc main_arg1)) (W0 m ρ c (Proc.devRef .tc main_arg2)))
        (W0 m ρ c (Proc.devRef .tc main_arg9)) := by
  rw [zeta_eq, mu_full hr, logstd_full hr]

end Cert.Bridge

end
-- ==== Proof.lean ====
/- The proof of `Cert.Claim`.
   The three frames: the word-level kernel program's and the idealized kernel program's are the regions'
   launch theorem over their twelve segments (the generated frame modules); the reference's is its run with
   the results dropped. The idealization rewrote nothing, so there is nothing to preserve. The algebraic claim:
   the idealized kernel program ends with its three result arrays at mu, logstd and zeta as functions of the
   argument arrays (Proof/KOut.lean: the fold of the segments read boundary by boundary, each region's output
   array identified with a whole-array function); the reference ends with its three results at the
   composition of its stage functions (Proof/RefStages.lean); and on arguments with real entries — which the
   precondition gives — the two are one function (Proof/Bridge.lean): the projections are the same sums, the
   propagations the same chain of scatter-adds and gathers, the batch normalisation's affine form equals its
   centred form because the mean of squared deviations is the mean of squares minus the squared mean, and
   scaling a row by c / m equals dividing by m and multiplying by c for a positive real m. -/
import proofs.«132517_j26465588478695_1_alg».proof.Defs
import proofs.«132517_j26465588478695_1_alg».proof.Proof.Gen.Kernel
import proofs.«132517_j26465588478695_1_alg».proof.Proof.Gen.Kernel.Frame
import proofs.«132517_j26465588478695_1_alg».proof.Proof.Gen.KernelIdeal
import proofs.«132517_j26465588478695_1_alg».proof.Proof.Gen.KernelIdeal.Frame
import proofs.«132517_j26465588478695_1_alg».proof.Proof.Gen.ReferenceIdeal
import proofs.«132517_j26465588478695_1_alg».proof.Proof.Gen.Pre_finite_inputs
import proofs.«132517_j26465588478695_1_alg».proof.Proof.KOut
import proofs.«132517_j26465588478695_1_alg».proof.Proof.RefStages
import proofs.«132517_j26465588478695_1_alg».proof.Proof.Bridge
import Idealize.ShloMosaic.Adequacy
import Idealize.ShloMosaic.Init

set_option maxRecDepth 16384

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's run with the three results dropped. -/
theorem frame_ri : Cert.frame_ReferenceIdeal := fun m ρ _ =>
  (θ_run Cert.ReferenceIdeal.defs _ _).mono (fun _ h c => (h c).2.2.2)
    (Cert.ReferenceIdeal.RefStages.run_values (F := Ideal) m ρ)

/-- Both programs end with mu, logstd and zeta of arguments that agree and are finite. -/
theorem algebraic : Cert.algebraic_KernelIdeal_ReferenceIdeal := by
  intro m ρ m' ρ' hpre hagree
  refine ⟨fun c => Cert.KernelIdeal.KFold.mu m ρ c, fun c => Cert.KernelIdeal.KFold.logstd m ρ c,
    fun c => Cert.KernelIdeal.KFold.zeta m ρ c, Cert.KernelIdeal.KOut.run_values m ρ, ?_⟩
  refine (θ_run Cert.ReferenceIdeal.defs _ _).mono (fun r h c => ?_)
    (Cert.ReferenceIdeal.RefStages.run_values (F := Ideal) m' ρ')
  obtain ⟨hmu, hls, hz, k0, k1, k2, k3, k4, k5, k6, k7, k8, k9⟩ := h c
  obtain ⟨e0, e1, e2, e3, e4, e5, e6, e7, e8, e9⟩ := hagree c
  have hr : Cert.Bridge.ArgsReal m ρ c := Cert.Bridge.argsReal m ρ c (hpre c)
  refine ⟨hmu.trans ?_, hls.trans ?_, hz.trans ?_, k0, k1, k2, k3, k4, k5, k6, k7, k8, k9⟩
  · rw [e0, e1, e2, e3, e4, e5, e6, e7, e8]
    exact (Cert.Bridge.mu_full hr).symm
  · rw [e0, e1, e2, e3, e4, e5, e6, e7, e8]
    exact (Cert.Bridge.logstd_full hr).symm
  · rw [e0, e1, e2, e3, e4, e5, e6, e7, e8, e9]
    exact (Cert.Bridge.zeta_full hr).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
